-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v290) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4x1024 : Shape := ⟨3, ![32768, 4, 1024]⟩
abbrev S4096 : Shape := ⟨1, ![4096]⟩
abbrev S4x4096 : Shape := ⟨2, ![4, 4096]⟩
abbrev S16x4096 : Shape := ⟨2, ![16, 4096]⟩
abbrev S4 : Shape := ⟨1, ![4]⟩
abbrev S16 : Shape := ⟨1, ![16]⟩
abbrev S_ : Shape := ⟨0, ![]⟩

class Facts : Prop where
  bcast_S_S32768x4x1024 : S_.BroadcastsInDim S32768x4x1024 (![] : Fin 0 → Fin S32768x4x1024.rank)
  reducesTo_S32768x4x1024_S_d0_1_2 : S32768x4x1024.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4x4096 : S_.BroadcastsInDim S4x4096 (![] : Fin 0 → Fin S4x4096.rank)
  reducesTo_S4x4096_S_d0_1 : S4x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4 : S_.BroadcastsInDim S4 (![] : Fin 0 → Fin S4.rank)
  reducesTo_S4_S_d0 : S4.ReducesTo [0] S_
  bcast_S_S16 : S_.BroadcastsInDim S16 (![] : Fin 0 → Fin S16.rank)
  reducesTo_S16_S_d0 : S16.ReducesTo [0] S_
  reducesTo_S_S_d : S_.ReducesTo [] S_

variable [Facts]

def fn_part3 {F : FTy → Type} [FloatOps F] (main_v46 : IVec S_ 1) (main_v49 : IVec S_ 1) : IVec S_ 1 :=
  let main_v50 : IVec S_ 1 := andi main_v46 main_v49
  main_v50

def fn_part2 {F : FTy → Type} [FloatOps F] (main_arg7 : FVec F S16 .f32) (main_arg8 : FVec F S_ .f32) (main_arg9 : FVec F S_ .f32) (main_arg10 : FVec F S_ .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S_ .f32 := Host.absf main_arg8
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_v43 : FVec F S_ .f32 := Host.absf main_arg9
  let main_cst_16 : FVec F S_ .f32 := constant S_ .f32 0x7F800000#32
  let main_v44 : IVec S_ 1 := cmpf .olt main_v43 main_cst_16
  let main_c_17 : IVec S_ 1 := constantI S_ 1 1#1
  let main_v45 : IVec S_ 1 := (fun x v => Host.reduce IntOp.andi x v reducesTo_S_S_d h_S_) main_v44 main_c_17
  let main_v46 : IVec S_ 1 := andi main_v42 main_v45
  let main_v47 : FVec F S_ .f32 := Host.absf main_arg10
  let main_cst_18 : FVec F S_ .f32 := constant S_ .f32 0x7F800000#32
  let main_v48 : IVec S_ 1 := cmpf .olt main_v47 main_cst_18
  let main_c_19 : IVec S_ 1 := constantI S_ 1 1#1
  let main_v49 : IVec S_ 1 := (fun x v => Host.reduce IntOp.andi x v reducesTo_S_S_d h_S_) main_v48 main_c_19
  fn_part3 (F := F) main_v46 main_v49

def fn_part1 {F : FTy → Type} [FloatOps F] (main_arg4 : FVec F S16x4096 .f32) (main_arg5 : FVec F S4 .f32) (main_arg6 : FVec F S4 .f32) (main_arg7 : FVec F S16 .f32) (main_arg8 : FVec F S_ .f32) (main_arg9 : FVec F S_ .f32) (main_arg10 : FVec F S_ .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x4x1024 .f32) (main_arg1 : FVec F S4096 .f32) (main_arg2 : FVec F S4x4096 .f32) (main_arg3 : FVec F S4x4096 .f32) (main_arg4 : FVec F S16x4096 .f32) (main_arg5 : FVec F S4 .f32) (main_arg6 : FVec F S4 .f32) (main_arg7 : FVec F S16 .f32) (main_arg8 : FVec F S_ .f32) (main_arg9 : FVec F S_ .f32) (main_arg10 : FVec F S_ .f32) : IVec S_ 1 :=
  let main_v0 : FVec F S32768x4x1024 .f32 := Host.absf main_arg0
  let main_cst : FVec F S_ .f32 := constant S_ .f32 0x7F800000#32
  let main_v1 : FVec F S32768x4x1024 .f32 := broadcastInDim S32768x4x1024 ![] bcast_S_S32768x4x1024 main_cst
  let main_v2 : IVec S32768x4x1024 1 := cmpf .olt main_v0 main_v1
  let main_c : IVec S_ 1 := constantI S_ 1 1#1
  let main_v3 : IVec S_ 1 := (fun x v => Host.reduce IntOp.andi x v reducesTo_S32768x4x1024_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4x4096 .f32 := Host.absf main_arg2
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_c_3 : IVec S_ 1 := constantI S_ 1 1#1
  let main_v12 : IVec S_ 1 := (fun x v => Host.reduce IntOp.andi x v reducesTo_S4x4096_S_d0_1 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_arg6 main_arg7 main_arg8 main_arg9 main_arg10 main_v13 main_v16
-- ==== Kernel.lean ====
abbrev S32768x4x1024 : Shape := ⟨3, ![32768, 4, 1024]⟩
abbrev S4096 : Shape := ⟨1, ![4096]⟩
abbrev S4x4096 : Shape := ⟨2, ![4, 4096]⟩
abbrev S16x4096 : Shape := ⟨2, ![16, 4096]⟩
abbrev S4 : Shape := ⟨1, ![4]⟩
abbrev S16 : Shape := ⟨1, ![16]⟩
abbrev S_ : Shape := ⟨0, ![]⟩
abbrev S32768x4096 : Shape := ⟨2, ![32768, 4096]⟩
abbrev S24x4096 : Shape := ⟨2, ![24, 4096]⟩
abbrev S1x4096 : Shape := ⟨2, ![1, 4096]⟩
abbrev S4096x24 : Shape := ⟨2, ![4096, 24]⟩
abbrev S24 : Shape := ⟨1, ![24]⟩
abbrev S24x32768 : Shape := ⟨2, ![24, 32768]⟩
abbrev S512x4096 : Shape := ⟨2, ![512, 4096]⟩
abbrev S24x512 : Shape := ⟨2, ![24, 512]⟩
abbrev S512 : Shape := ⟨1, ![512]⟩
abbrev S512x1 : Shape := ⟨2, ![512, 1]⟩
abbrev S512x24 : Shape := ⟨2, ![512, 24]⟩
abbrev S1x24 : Shape := ⟨2, ![1, 24]⟩
abbrev S4x512 : Shape := ⟨2, ![4, 512]⟩
abbrev S16x512 : Shape := ⟨2, ![16, 512]⟩
abbrev S1x512 : Shape := ⟨2, ![1, 512]⟩
abbrev S32768x24 : Shape := ⟨2, ![32768, 24]⟩
abbrev S32768x4 : Shape := ⟨2, ![32768, 4]⟩
abbrev S32768x16 : Shape := ⟨2, ![32768, 16]⟩
abbrev S32768x4x4 : Shape := ⟨3, ![32768, 4, 4]⟩

abbrev nBuf : Space → Nat
  | .hbm => 29
  | .vmem => 7
  | .smem => 0
  | _ => 0

abbrev bufTy : (tb : Table) → Fin (tcTables nBuf tb) → BufTy
  | .hbm, ⟨0, _⟩ => ⟨S32768x4x1024, .f32⟩
  | .hbm, ⟨1, _⟩ => ⟨S4096, .f32⟩
  | .hbm, ⟨2, _⟩ => ⟨S4x4096, .f32⟩
  | .hbm, ⟨3, _⟩ => ⟨S4x4096, .f32⟩
  | .hbm, ⟨4, _⟩ => ⟨S16x4096, .f32⟩
  | .hbm, ⟨5, _⟩ => ⟨S4, .f32⟩
  | .hbm, ⟨6, _⟩ => ⟨S4, .f32⟩
  | .hbm, ⟨7, _⟩ => ⟨S16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32768x4096, .f32⟩
  | .hbm, ⟨12, _⟩ => ⟨S24x4096, .f32⟩
  | .hbm, ⟨13, _⟩ => ⟨S1x4096, .f32⟩
  | .hbm, ⟨14, _⟩ => ⟨S24x4096, .f32⟩
  | .hbm, ⟨15, _⟩ => ⟨S24x4096, .f32⟩
  | .hbm, ⟨16, _⟩ => ⟨S4096x24, .f32⟩
  | .hbm, ⟨17, _⟩ => ⟨S4096x24, .bf16⟩
  | .hbm, ⟨18, _⟩ => ⟨S4, .f32⟩
  | .hbm, ⟨19, _⟩ => ⟨S4, .f32⟩
  | .hbm, ⟨20, _⟩ => ⟨S16, .f32⟩
  | .hbm, ⟨21, _⟩ => ⟨S24, .f32⟩
  | .hbm, ⟨22, _⟩ => ⟨S24, .f32⟩
  | .hbm, ⟨23, _⟩ => ⟨S24x32768, .f32⟩
  | .hbm, ⟨24, _⟩ => ⟨S32768x24, .f32⟩
  | .hbm, ⟨25, _⟩ => ⟨S32768x4, .f32⟩
  | .hbm, ⟨26, _⟩ => ⟨S32768x4, .f32⟩
  | .hbm, ⟨27, _⟩ => ⟨S32768x16, .f32⟩
  | .hbm, ⟨28, _⟩ => ⟨S32768x4x4, .f32⟩
  | .local _ .vmem, ⟨0, _⟩ => ⟨S512x4096, .f32⟩
  | .local _ .vmem, ⟨1, _⟩ => ⟨S512x4096, .f32⟩
  | .local _ .vmem, ⟨2, _⟩ => ⟨S4096x24, .bf16⟩
  | .local _ .vmem, ⟨3, _⟩ => ⟨S24, .f32⟩
  | .local _ .vmem, ⟨4, _⟩ => ⟨S24, .f32⟩
  | .local _ .vmem, ⟨5, _⟩ => ⟨S24x512, .f32⟩
  | .local _ .vmem, ⟨6, _⟩ => ⟨S24x512, .f32⟩
  | _, _ => ⟨S32768x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x24 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S24x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32768x4x1024_S32768x4096 : S32768x4x1024.ShapeCasts S32768x4096
  concatenates_S4x4096_S4x4096_S16x4096_S24x4096_d0 : Shape.Concatenates [S4x4096, S4x4096, S16x4096] S24x4096 0
  bcast_S4096_S1x4096_1 : S4096.BroadcastsInDim S1x4096 (![1] : Fin 1 → Fin S1x4096.rank)
  bcast_S1x4096_S24x4096_0_1 : S1x4096.BroadcastsInDim S24x4096 (![0, 1] : Fin 2 → Fin S24x4096.rank)
  transposes_S24x4096_S4096x24_1_0 : S24x4096.Transposes [1, 0] S4096x24
  bitsLt_bf16_f32 : FTy.bits .bf16 < FTy.bits .f32
  bcast_S_S4 : S_.BroadcastsInDim S4 (![] : Fin 0 → Fin S4.rank)
  bcast_S_S16 : S_.BroadcastsInDim S16 (![] : Fin 0 → Fin S16.rank)
  concatenates_S4_S4_S16_S24_d0 : Shape.Concatenates [S4, S4, S16] S24 0
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  inb_S4096x24_S4096x24_0_0 : ∀ a, (![0, 0] : Fin 2 → Nat) a + S4096x24.size a ≤ S4096x24.size a
  h_S4096x24 : 0 < S4096x24.numel
  shapeCasts_S4096x24_S4096x24 : S4096x24.ShapeCasts S4096x24
  broadcasts_S512x1_S512x24 : S512x1.Broadcasts S512x24
  inb_S24_S24_0 : ∀ a, (![0] : Fin 1 → Nat) a + S24.size a ≤ S24.size a
  h_S24 : 0 < S24.numel
  shapeCasts_S24_S24 : S24.ShapeCasts S24
  shapeCasts_S24_S1x24 : S24.ShapeCasts S1x24
  broadcasts_S1x24_S512x24 : S1x24.Broadcasts S512x24
  transposes_S512x24_p1_0_S24x512 : S512x24.Transposes [1, 0] S24x512
  slices_S24x512_o0_0_S4x512 : S24x512.Slices ![0, 0] S4x512
  slices_S24x512_o4_0_S4x512 : S24x512.Slices ![4, 0] S4x512
  slices_S24x512_o8_0_S16x512 : S24x512.Slices ![8, 0] S16x512
  slices_S16x512_o0_0_S4x512 : S16x512.Slices ![0, 0] S4x512
  slices_S16x512_o4_0_S4x512 : S16x512.Slices ![4, 0] S4x512
  slices_S16x512_o8_0_S4x512 : S16x512.Slices ![8, 0] S4x512
  slices_S16x512_o12_0_S4x512 : S16x512.Slices ![12, 0] S4x512
  reduces_S4x512_S512 : S4x512.Reduces [0] S512
  shapeCasts_S512_S1x512 : S512.ShapeCasts S1x512
  broadcasts_S1x512_S4x512 : S1x512.Broadcasts S4x512
  concatenates_S4x512_S4x512_S4x512_S4x512_S16x512_d0 : Shape.Concatenates [S4x512, S4x512, S4x512, S4x512] S16x512 0
  concatenates_S4x512_S4x512_S16x512_S24x512_d0 : Shape.Concatenates [S4x512, S4x512, S16x512] S24x512 0
  inb_S24x512_S24x512_0_0 : ∀ a, (![0, 0] : Fin 2 → Nat) a + S24x512.size a ≤ S24x512.size a
  h_S24x512 : 0 < S24x512.numel
  transposes_S24x32768_S32768x24_1_0 : S24x32768.Transposes [1, 0] S32768x24
  slices_S32768x24_S32768x4_0_0 : S32768x24.Slices ![0, 0] S32768x4
  slices_S32768x24_S32768x4_0_4 : S32768x24.Slices ![0, 4] S32768x4
  slices_S32768x24_S32768x16_0_8 : S32768x24.Slices ![0, 8] S32768x16
  shapeCasts_S32768x16_S32768x4x4 : S32768x16.ShapeCasts S32768x4x4
  dot_S512x4096_S4096x24_S512x24_1_0_0_1_n_n_wf : DotDims.WF S512x4096 S4096x24 S512x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x24.size a ≤ S4096x24.size a
  hwx0_1 : ∀ i : grid0.Coords, EltTy.bits .bf16 = 32 ∨ (Rect.block (s := S4096x24) S4096x24.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24.size a ≤ S24.size a
  hwx0_2 : ∀ i : grid0.Coords, EltTy.bits .f32 = 32 ∨ (Rect.block (s := S24) S24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24.size a ≤ S24.size a
  hwx0_3 : ∀ i : grid0.Coords, EltTy.bits .f32 = 32 ∨ (Rect.block (s := S24) S24.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S24x512.size a ≤ S24x32768.size a
  hwx0_4 : ∀ i : grid0.Coords, EltTy.bits .f32 = 32 ∨ (Rect.block (s := S24x32768) S24x512.size (cc0_transform_4 i) (hinb0_4 i)).WholeWords (EltTy.packing .f32)

variable [Facts₀]

def dot_S512x4096_S4096x24_S512x24_1_0_0_1_n_n : DotDims S512x4096 S4096x24 S512x24 where
  lhsContracting := [1]
  rhsContracting := [0]
  lhsNonContracting := [0]
  rhsNonContracting := [1]
  lhsBatch := []
  rhsBatch := []
  wf := dot_S512x4096_S4096x24_S512x24_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S24x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x4x1024 : Shape := ⟨3, ![32768, 4, 1024]⟩
abbrev S4096 : Shape := ⟨1, ![4096]⟩
abbrev S4x4096 : Shape := ⟨2, ![4, 4096]⟩
abbrev S16x4096 : Shape := ⟨2, ![16, 4096]⟩
abbrev S4 : Shape := ⟨1, ![4]⟩
abbrev S16 : Shape := ⟨1, ![16]⟩
abbrev S_ : Shape := ⟨0, ![]⟩
abbrev S32768x4096 : Shape := ⟨2, ![32768, 4096]⟩
abbrev S32768 : Shape := ⟨1, ![32768]⟩
abbrev S32768x1 : Shape := ⟨2, ![32768, 1]⟩
abbrev S1x4096 : Shape := ⟨2, ![1, 4096]⟩
abbrev S4096x4 : Shape := ⟨2, ![4096, 4]⟩
abbrev S32768x4 : Shape := ⟨2, ![32768, 4]⟩
abbrev S1x4 : Shape := ⟨2, ![1, 4]⟩
abbrev S4096x16 : Shape := ⟨2, ![4096, 16]⟩
abbrev S32768x16 : Shape := ⟨2, ![32768, 16]⟩
abbrev S1x16 : Shape := ⟨2, ![1, 16]⟩
abbrev S32768x4x4 : Shape := ⟨3, ![32768, 4, 4]⟩
abbrev S32768x4x1 : Shape := ⟨3, ![32768, 4, 1]⟩
abbrev S32768x1x4 : Shape := ⟨3, ![32768, 1, 4]⟩

abbrev nBuf : Space → Nat
  | .hbm => 390
  | .vmem => 0
  | .smem => 0
  | _ => 0

abbrev hbmTy0_0 (i : Nat) : BufTy := match i % 128 with
  | 0 => ⟨S32768x4x1024, .f32⟩
  | 1 => ⟨S4096, .f32⟩
  | 2 => ⟨S4x4096, .f32⟩
  | 3 => ⟨S4x4096, .f32⟩
  | 4 => ⟨S16x4096, .f32⟩
  | 5 => ⟨S4, .f32⟩
  | 6 => ⟨S4, .f32⟩
  | 7 => ⟨S16, .f32⟩
  | 8 => ⟨S_, .f32⟩
  | 9 => ⟨S_, .f32⟩
  | 10 => ⟨S_, .f32⟩
  | 11 => ⟨S32768x4096, .f32⟩
  | 12 => ⟨S32768x4096, .f32⟩
  | 13 => ⟨S_, .f32⟩
  | 14 => ⟨S32768, .f32⟩
  | 15 => ⟨S32768x1, .f32⟩
  | 16 => ⟨S_, .f32⟩
  | 17 => ⟨S32768x1, .f32⟩
  | 18 => ⟨S32768x1, .f32⟩
  | 19 => ⟨S_, .f32⟩
  | 20 => ⟨S32768x1, .f32⟩
  | 21 => ⟨S32768x1, .f32⟩
  | 22 => ⟨S32768x1, .f32⟩
  | 23 => ⟨S32768x4096, .f32⟩
  | 24 => ⟨S32768x4096, .f32⟩
  | 25 => ⟨S1x4096, .f32⟩
  | 26 => ⟨S32768x4096, .f32⟩
  | 27 => ⟨S32768x4096, .f32⟩
  | 28 => ⟨S4096x4, .f32⟩
  | 29 => ⟨S32768x4, .f32⟩
  | 30 => ⟨S32768x4, .f32⟩
  | 31 => ⟨S32768x4, .f32⟩
  | 32 => ⟨S1x4, .f32⟩
  | 33 => ⟨S32768x4, .f32⟩
  | 34 => ⟨S32768x4, .f32⟩
  | 35 => ⟨S4096x4, .f32⟩
  | 36 => ⟨S32768x4, .f32⟩
  | 37 => ⟨S32768x4, .f32⟩
  | 38 => ⟨S32768x4, .f32⟩
  | 39 => ⟨S1x4, .f32⟩
  | 40 => ⟨S32768x4, .f32⟩
  | 41 => ⟨S32768x4, .f32⟩
  | 42 => ⟨S4096x16, .f32⟩
  | 43 => ⟨S32768x16, .f32⟩
  | 44 => ⟨S32768x16, .f32⟩
  | 45 => ⟨S32768x16, .f32⟩
  | 46 => ⟨S1x16, .f32⟩
  | 47 => ⟨S32768x16, .f32⟩
  | 48 => ⟨S32768x16, .f32⟩
  | 49 => ⟨S32768x4, .f32⟩
  | 50 => ⟨S32768x4, .f32⟩
  | 51 => ⟨S_, .f32⟩
  | 52 => ⟨S32768x4, .f32⟩
  | 53 => ⟨S32768x4, .f32⟩
  | 54 => ⟨S_, .f32⟩
  | 55 => ⟨S32768x4, .f32⟩
  | 56 => ⟨S32768x4, .f32⟩
  | 57 => ⟨S32768x4, .f32⟩
  | 58 => ⟨S32768x4, .f32⟩
  | 59 => ⟨S_, .f32⟩
  | 60 => ⟨S32768x4, .f32⟩
  | 61 => ⟨S32768x4, .f32⟩
  | 62 => ⟨S_, .f32⟩
  | 63 => ⟨S32768x4, .f32⟩
  | 64 => ⟨S32768x4, .f32⟩
  | 65 => ⟨S_, .f32⟩
  | 66 => ⟨S32768x4, .f32⟩
  | 67 => ⟨S32768x4, .f32⟩
  | 68 => ⟨S32768x4x4, .f32⟩
  | 69 => ⟨S32768x4x4, .f32⟩
  | 70 => ⟨S_, .f32⟩
  | 71 => ⟨S32768x4, .f32⟩
  | 72 => ⟨S32768x4x1, .f32⟩
  | 73 => ⟨S_, .f32⟩
  | 74 => ⟨S32768x4x1, .f32⟩
  | 75 => ⟨S32768x4x1, .f32⟩
  | 76 => ⟨S32768x4x4, .f32⟩
  | 77 => ⟨S32768x4x4, .f32⟩
  | 78 => ⟨S_, .f32⟩
  | 79 => ⟨S32768x4, .f32⟩
  | 80 => ⟨S32768x1x4, .f32⟩
  | 81 => ⟨S_, .f32⟩
  | 82 => ⟨S32768x1x4, .f32⟩
  | 83 => ⟨S32768x1x4, .f32⟩
  | 84 => ⟨S32768x4x4, .f32⟩
  | 85 => ⟨S32768x4x4, .f32⟩
  | 86 => ⟨S_, .f32⟩
  | 87 => ⟨S32768x4, .f32⟩
  | 88 => ⟨S32768x4x1, .f32⟩
  | 89 => ⟨S_, .f32⟩
  | 90 => ⟨S32768x4x1, .f32⟩
  | 91 => ⟨S32768x4x1, .f32⟩
  | 92 => ⟨S32768x4x4, .f32⟩
  | 93 => ⟨S32768x4x4, .f32⟩
  | 94 => ⟨S_, .f32⟩
  | 95 => ⟨S32768x4, .f32⟩
  | 96 => ⟨S32768x1x4, .f32⟩
  | 97 => ⟨S_, .f32⟩
  | 98 => ⟨S32768x1x4, .f32⟩
  | 99 => ⟨S32768x1x4, .f32⟩
  | 100 => ⟨S32768x4x4, .f32⟩
  | 101 => ⟨S32768x4x4, .f32⟩
  | 102 => ⟨S_, .f32⟩
  | 103 => ⟨S32768x4, .f32⟩
  | 104 => ⟨S32768x4x1, .f32⟩
  | 105 => ⟨S_, .f32⟩
  | 106 => ⟨S32768x4x1, .f32⟩
  | 107 => ⟨S32768x4x1, .f32⟩
  | 108 => ⟨S32768x4x4, .f32⟩
  | 109 => ⟨S32768x4x4, .f32⟩
  | 110 => ⟨S_, .f32⟩
  | 111 => ⟨S32768x4, .f32⟩
  | 112 => ⟨S32768x1x4, .f32⟩
  | 113 => ⟨S_, .f32⟩
  | 114 => ⟨S32768x1x4, .f32⟩
  | 115 => ⟨S32768x1x4, .f32⟩
  | 116 => ⟨S32768x4x4, .f32⟩
  | 117 => ⟨S32768x4x4, .f32⟩
  | 118 => ⟨S_, .f32⟩
  | 119 => ⟨S32768x4, .f32⟩
  | 120 => ⟨S32768x4x1, .f32⟩
  | 121 => ⟨S_, .f32⟩
  | 122 => ⟨S32768x4x1, .f32⟩
  | 123 => ⟨S32768x4x1, .f32⟩
  | 124 => ⟨S32768x4x4, .f32⟩
  | 125 => ⟨S32768x4x4, .f32⟩
  | 126 => ⟨S_, .f32⟩
  | 127 => ⟨S32768x4, .f32⟩
  | _ => ⟨S32768x4x1024, .f32⟩

abbrev hbmTy0_1 (i : Nat) : BufTy := match i % 128 with
  | 0 => ⟨S32768x1x4, .f32⟩
  | 1 => ⟨S_, .f32⟩
  | 2 => ⟨S32768x1x4, .f32⟩
  | 3 => ⟨S32768x1x4, .f32⟩
  | 4 => ⟨S32768x4x4, .f32⟩
  | 5 => ⟨S32768x4x4, .f32⟩
  | 6 => ⟨S_, .f32⟩
  | 7 => ⟨S32768x4, .f32⟩
  | 8 => ⟨S32768x4x1, .f32⟩
  | 9 => ⟨S_, .f32⟩
  | 10 => ⟨S32768x4x1, .f32⟩
  | 11 => ⟨S32768x4x1, .f32⟩
  | 12 => ⟨S32768x4x4, .f32⟩
  | 13 => ⟨S32768x4x4, .f32⟩
  | 14 => ⟨S_, .f32⟩
  | 15 => ⟨S32768x4, .f32⟩
  | 16 => ⟨S32768x1x4, .f32⟩
  | 17 => ⟨S_, .f32⟩
  | 18 => ⟨S32768x1x4, .f32⟩
  | 19 => ⟨S32768x1x4, .f32⟩
  | 20 => ⟨S32768x4x4, .f32⟩
  | 21 => ⟨S32768x4x4, .f32⟩
  | 22 => ⟨S_, .f32⟩
  | 23 => ⟨S32768x4, .f32⟩
  | 24 => ⟨S32768x4x1, .f32⟩
  | 25 => ⟨S_, .f32⟩
  | 26 => ⟨S32768x4x1, .f32⟩
  | 27 => ⟨S32768x4x1, .f32⟩
  | 28 => ⟨S32768x4x4, .f32⟩
  | 29 => ⟨S32768x4x4, .f32⟩
  | 30 => ⟨S_, .f32⟩
  | 31 => ⟨S32768x4, .f32⟩
  | 32 => ⟨S32768x1x4, .f32⟩
  | 33 => ⟨S_, .f32⟩
  | 34 => ⟨S32768x1x4, .f32⟩
  | 35 => ⟨S32768x1x4, .f32⟩
  | 36 => ⟨S32768x4x4, .f32⟩
  | 37 => ⟨S32768x4x4, .f32⟩
  | 38 => ⟨S_, .f32⟩
  | 39 => ⟨S32768x4, .f32⟩
  | 40 => ⟨S32768x4x1, .f32⟩
  | 41 => ⟨S_, .f32⟩
  | 42 => ⟨S32768x4x1, .f32⟩
  | 43 => ⟨S32768x4x1, .f32⟩
  | 44 => ⟨S32768x4x4, .f32⟩
  | 45 => ⟨S32768x4x4, .f32⟩
  | 46 => ⟨S_, .f32⟩
  | 47 => ⟨S32768x4, .f32⟩
  | 48 => ⟨S32768x1x4, .f32⟩
  | 49 => ⟨S_, .f32⟩
  | 50 => ⟨S32768x1x4, .f32⟩
  | 51 => ⟨S32768x1x4, .f32⟩
  | 52 => ⟨S32768x4x4, .f32⟩
  | 53 => ⟨S32768x4x4, .f32⟩
  | 54 => ⟨S_, .f32⟩
  | 55 => ⟨S32768x4, .f32⟩
  | 56 => ⟨S32768x4x1, .f32⟩
  | 57 => ⟨S_, .f32⟩
  | 58 => ⟨S32768x4x1, .f32⟩
  | 59 => ⟨S32768x4x1, .f32⟩
  | 60 => ⟨S32768x4x4, .f32⟩
  | 61 => ⟨S32768x4x4, .f32⟩
  | 62 => ⟨S_, .f32⟩
  | 63 => ⟨S32768x4, .f32⟩
  | 64 => ⟨S32768x1x4, .f32⟩
  | 65 => ⟨S_, .f32⟩
  | 66 => ⟨S32768x1x4, .f32⟩
  | 67 => ⟨S32768x1x4, .f32⟩
  | 68 => ⟨S32768x4x4, .f32⟩
  | 69 => ⟨S32768x4x4, .f32⟩
  | 70 => ⟨S_, .f32⟩
  | 71 => ⟨S32768x4, .f32⟩
  | 72 => ⟨S32768x4x1, .f32⟩
  | 73 => ⟨S_, .f32⟩
  | 74 => ⟨S32768x4x1, .f32⟩
  | 75 => ⟨S32768x4x1, .f32⟩
  | 76 => ⟨S32768x4x4, .f32⟩
  | 77 => ⟨S32768x4x4, .f32⟩
  | 78 => ⟨S_, .f32⟩
  | 79 => ⟨S32768x4, .f32⟩
  | 80 => ⟨S32768x1x4, .f32⟩
  | 81 => ⟨S_, .f32⟩
  | 82 => ⟨S32768x1x4, .f32⟩
  | 83 => ⟨S32768x1x4, .f32⟩
  | 84 => ⟨S32768x4x4, .f32⟩
  | 85 => ⟨S32768x4x4, .f32⟩
  | 86 => ⟨S_, .f32⟩
  | 87 => ⟨S32768x4, .f32⟩
  | 88 => ⟨S32768x4x1, .f32⟩
  | 89 => ⟨S_, .f32⟩
  | 90 => ⟨S32768x4x1, .f32⟩
  | 91 => ⟨S32768x4x1, .f32⟩
  | 92 => ⟨S32768x4x4, .f32⟩
  | 93 => ⟨S32768x4x4, .f32⟩
  | 94 => ⟨S_, .f32⟩
  | 95 => ⟨S32768x4, .f32⟩
  | 96 => ⟨S32768x1x4, .f32⟩
  | 97 => ⟨S_, .f32⟩
  | 98 => ⟨S32768x1x4, .f32⟩
  | 99 => ⟨S32768x1x4, .f32⟩
  | 100 => ⟨S32768x4x4, .f32⟩
  | 101 => ⟨S32768x4x4, .f32⟩
  | 102 => ⟨S_, .f32⟩
  | 103 => ⟨S32768x4, .f32⟩
  | 104 => ⟨S32768x4x1, .f32⟩
  | 105 => ⟨S_, .f32⟩
  | 106 => ⟨S32768x4x1, .f32⟩
  | 107 => ⟨S32768x4x1, .f32⟩
  | 108 => ⟨S32768x4x4, .f32⟩
  | 109 => ⟨S32768x4x4, .f32⟩
  | 110 => ⟨S_, .f32⟩
  | 111 => ⟨S32768x4, .f32⟩
  | 112 => ⟨S32768x1x4, .f32⟩
  | 113 => ⟨S_, .f32⟩
  | 114 => ⟨S32768x1x4, .f32⟩
  | 115 => ⟨S32768x1x4, .f32⟩
  | 116 => ⟨S32768x4x4, .f32⟩
  | 117 => ⟨S32768x4x4, .f32⟩
  | 118 => ⟨S_, .f32⟩
  | 119 => ⟨S32768x4, .f32⟩
  | 120 => ⟨S32768x4x1, .f32⟩
  | 121 => ⟨S_, .f32⟩
  | 122 => ⟨S32768x4x1, .f32⟩
  | 123 => ⟨S32768x4x1, .f32⟩
  | 124 => ⟨S32768x4x4, .f32⟩
  | 125 => ⟨S32768x4x4, .f32⟩
  | 126 => ⟨S_, .f32⟩
  | 127 => ⟨S32768x4, .f32⟩
  | _ => ⟨S32768x4x1024, .f32⟩

abbrev hbmTy0_2 (i : Nat) : BufTy := match i % 128 with
  | 0 => ⟨S32768x1x4, .f32⟩
  | 1 => ⟨S_, .f32⟩
  | 2 => ⟨S32768x1x4, .f32⟩
  | 3 => ⟨S32768x1x4, .f32⟩
  | 4 => ⟨S32768x4x4, .f32⟩
  | 5 => ⟨S32768x4x4, .f32⟩
  | 6 => ⟨S_, .f32⟩
  | 7 => ⟨S32768x4, .f32⟩
  | 8 => ⟨S32768x4x1, .f32⟩
  | 9 => ⟨S_, .f32⟩
  | 10 => ⟨S32768x4x1, .f32⟩
  | 11 => ⟨S32768x4x1, .f32⟩
  | 12 => ⟨S32768x4x4, .f32⟩
  | 13 => ⟨S32768x4x4, .f32⟩
  | 14 => ⟨S_, .f32⟩
  | 15 => ⟨S32768x4, .f32⟩
  | 16 => ⟨S32768x1x4, .f32⟩
  | 17 => ⟨S_, .f32⟩
  | 18 => ⟨S32768x1x4, .f32⟩
  | 19 => ⟨S32768x1x4, .f32⟩
  | 20 => ⟨S32768x4x4, .f32⟩
  | 21 => ⟨S32768x4x4, .f32⟩
  | 22 => ⟨S_, .f32⟩
  | 23 => ⟨S32768x4, .f32⟩
  | 24 => ⟨S32768x4x1, .f32⟩
  | 25 => ⟨S_, .f32⟩
  | 26 => ⟨S32768x4x1, .f32⟩
  | 27 => ⟨S32768x4x1, .f32⟩
  | 28 => ⟨S32768x4x4, .f32⟩
  | 29 => ⟨S32768x4x4, .f32⟩
  | 30 => ⟨S_, .f32⟩
  | 31 => ⟨S32768x4, .f32⟩
  | 32 => ⟨S32768x1x4, .f32⟩
  | 33 => ⟨S_, .f32⟩
  | 34 => ⟨S32768x1x4, .f32⟩
  | 35 => ⟨S32768x1x4, .f32⟩
  | 36 => ⟨S32768x4x4, .f32⟩
  | 37 => ⟨S32768x4x4, .f32⟩
  | 38 => ⟨S_, .f32⟩
  | 39 => ⟨S32768x4, .f32⟩
  | 40 => ⟨S32768x4x1, .f32⟩
  | 41 => ⟨S_, .f32⟩
  | 42 => ⟨S32768x4x1, .f32⟩
  | 43 => ⟨S32768x4x1, .f32⟩
  | 44 => ⟨S32768x4x4, .f32⟩
  | 45 => ⟨S32768x4x4, .f32⟩
  | 46 => ⟨S_, .f32⟩
  | 47 => ⟨S32768x4, .f32⟩
  | 48 => ⟨S32768x1x4, .f32⟩
  | 49 => ⟨S_, .f32⟩
  | 50 => ⟨S32768x1x4, .f32⟩
  | 51 => ⟨S32768x1x4, .f32⟩
  | 52 => ⟨S32768x4x4, .f32⟩
  | 53 => ⟨S32768x4x4, .f32⟩
  | 54 => ⟨S_, .f32⟩
  | 55 => ⟨S32768x4, .f32⟩
  | 56 => ⟨S32768x4x1, .f32⟩
  | 57 => ⟨S_, .f32⟩
  | 58 => ⟨S32768x4x1, .f32⟩
  | 59 => ⟨S32768x4x1, .f32⟩
  | 60 => ⟨S32768x4x4, .f32⟩
  | 61 => ⟨S32768x4x4, .f32⟩
  | 62 => ⟨S_, .f32⟩
  | 63 => ⟨S32768x4, .f32⟩
  | 64 => ⟨S32768x1x4, .f32⟩
  | 65 => ⟨S_, .f32⟩
  | 66 => ⟨S32768x1x4, .f32⟩
  | 67 => ⟨S32768x1x4, .f32⟩
  | 68 => ⟨S32768x4x4, .f32⟩
  | 69 => ⟨S32768x4x4, .f32⟩
  | 70 => ⟨S_, .f32⟩
  | 71 => ⟨S32768x4, .f32⟩
  | 72 => ⟨S32768x4x1, .f32⟩
  | 73 => ⟨S_, .f32⟩
  | 74 => ⟨S32768x4x1, .f32⟩
  | 75 => ⟨S32768x4x1, .f32⟩
  | 76 => ⟨S32768x4x4, .f32⟩
  | 77 => ⟨S32768x4x4, .f32⟩
  | 78 => ⟨S_, .f32⟩
  | 79 => ⟨S32768x4, .f32⟩
  | 80 => ⟨S32768x1x4, .f32⟩
  | 81 => ⟨S_, .f32⟩
  | 82 => ⟨S32768x1x4, .f32⟩
  | 83 => ⟨S32768x1x4, .f32⟩
  | 84 => ⟨S32768x4x4, .f32⟩
  | 85 => ⟨S32768x4x4, .f32⟩
  | 86 => ⟨S_, .f32⟩
  | 87 => ⟨S32768x4, .f32⟩
  | 88 => ⟨S32768x4x1, .f32⟩
  | 89 => ⟨S_, .f32⟩
  | 90 => ⟨S32768x4x1, .f32⟩
  | 91 => ⟨S32768x4x1, .f32⟩
  | 92 => ⟨S32768x4x4, .f32⟩
  | 93 => ⟨S32768x4x4, .f32⟩
  | 94 => ⟨S_, .f32⟩
  | 95 => ⟨S32768x4, .f32⟩
  | 96 => ⟨S32768x1x4, .f32⟩
  | 97 => ⟨S_, .f32⟩
  | 98 => ⟨S32768x1x4, .f32⟩
  | 99 => ⟨S32768x1x4, .f32⟩
  | 100 => ⟨S32768x4x4, .f32⟩
  | 101 => ⟨S32768x4x4, .f32⟩
  | 102 => ⟨S_, .f32⟩
  | 103 => ⟨S32768x4, .f32⟩
  | 104 => ⟨S32768x4x1, .f32⟩
  | 105 => ⟨S_, .f32⟩
  | 106 => ⟨S32768x4x1, .f32⟩
  | 107 => ⟨S32768x4x1, .f32⟩
  | 108 => ⟨S32768x4x4, .f32⟩
  | 109 => ⟨S32768x4x4, .f32⟩
  | 110 => ⟨S_, .f32⟩
  | 111 => ⟨S32768x4, .f32⟩
  | 112 => ⟨S32768x1x4, .f32⟩
  | 113 => ⟨S_, .f32⟩
  | 114 => ⟨S32768x1x4, .f32⟩
  | 115 => ⟨S32768x1x4, .f32⟩
  | 116 => ⟨S32768x4x4, .f32⟩
  | 117 => ⟨S32768x4x4, .f32⟩
  | 118 => ⟨S_, .f32⟩
  | 119 => ⟨S32768x4, .f32⟩
  | 120 => ⟨S32768x4x1, .f32⟩
  | 121 => ⟨S_, .f32⟩
  | 122 => ⟨S32768x4x1, .f32⟩
  | 123 => ⟨S32768x4x1, .f32⟩
  | 124 => ⟨S32768x4x4, .f32⟩
  | 125 => ⟨S32768x4x4, .f32⟩
  | 126 => ⟨S_, .f32⟩
  | 127 => ⟨S32768x4, .f32⟩
  | _ => ⟨S32768x4x1024, .f32⟩

abbrev hbmTy0_3 (i : Nat) : BufTy := match i % 128 with
  | 0 => ⟨S32768x1x4, .f32⟩
  | 1 => ⟨S_, .f32⟩
  | 2 => ⟨S32768x1x4, .f32⟩
  | 3 => ⟨S32768x1x4, .f32⟩
  | 4 => ⟨S32768x4x4, .f32⟩
  | 5 => ⟨S32768x4x4, .f32⟩
  | _ => ⟨S32768x4x1024, .f32⟩

abbrev hbmTy (i : Nat) : BufTy := match i / 128 with
  | 0 => hbmTy0_0 i
  | 1 => hbmTy0_1 i
  | 2 => hbmTy0_2 i
  | 3 => hbmTy0_3 i
  | _ => ⟨S32768x4x1024, .f32⟩

abbrev bufTy : (tb : Table) → Fin (tcTables nBuf tb) → BufTy
  | .hbm, ⟨i, _⟩ => hbmTy i
  | _, _ => ⟨S32768x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_cst_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_21 : Ref sig .tc := ⟨.hbm, 126, rfl⟩
abbrev main_v93 : Ref sig .tc := ⟨.hbm, 127, rfl⟩
abbrev main_v94 : Ref sig .tc := ⟨.hbm, 128, rfl⟩
abbrev main_cst_22 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_23 : Ref sig .tc := ⟨.hbm, 134, rfl⟩
abbrev main_v99 : Ref sig .tc := ⟨.hbm, 135, rfl⟩
abbrev main_v100 : Ref sig .tc := ⟨.hbm, 136, rfl⟩
abbrev main_cst_24 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_25 : Ref sig .tc := ⟨.hbm, 142, rfl⟩
abbrev main_v105 : Ref sig .tc := ⟨.hbm, 143, rfl⟩
abbrev main_v106 : Ref sig .tc := ⟨.hbm, 144, rfl⟩
abbrev main_cst_26 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_27 : Ref sig .tc := ⟨.hbm, 150, rfl⟩
abbrev main_v111 : Ref sig .tc := ⟨.hbm, 151, rfl⟩
abbrev main_v112 : Ref sig .tc := ⟨.hbm, 152, rfl⟩
abbrev main_cst_28 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_29 : Ref sig .tc := ⟨.hbm, 158, rfl⟩
abbrev main_v117 : Ref sig .tc := ⟨.hbm, 159, rfl⟩
abbrev main_v118 : Ref sig .tc := ⟨.hbm, 160, rfl⟩
abbrev main_cst_30 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_31 : Ref sig .tc := ⟨.hbm, 166, rfl⟩
abbrev main_v123 : Ref sig .tc := ⟨.hbm, 167, rfl⟩
abbrev main_v124 : Ref sig .tc := ⟨.hbm, 168, rfl⟩
abbrev main_cst_32 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_33 : Ref sig .tc := ⟨.hbm, 174, rfl⟩
abbrev main_v129 : Ref sig .tc := ⟨.hbm, 175, rfl⟩
abbrev main_v130 : Ref sig .tc := ⟨.hbm, 176, rfl⟩
abbrev main_cst_34 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_35 : Ref sig .tc := ⟨.hbm, 182, rfl⟩
abbrev main_v135 : Ref sig .tc := ⟨.hbm, 183, rfl⟩
abbrev main_v136 : Ref sig .tc := ⟨.hbm, 184, rfl⟩
abbrev main_cst_36 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_37 : Ref sig .tc := ⟨.hbm, 190, rfl⟩
abbrev main_v141 : Ref sig .tc := ⟨.hbm, 191, rfl⟩
abbrev main_v142 : Ref sig .tc := ⟨.hbm, 192, rfl⟩
abbrev main_cst_38 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_cst_39 : Ref sig .tc := ⟨.hbm, 198, rfl⟩
abbrev main_v147 : Ref sig .tc := ⟨.hbm, 199, rfl⟩
abbrev main_v148 : Ref sig .tc := ⟨.hbm, 200, rfl⟩
abbrev main_cst_40 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_41 : Ref sig .tc := ⟨.hbm, 206, rfl⟩
abbrev main_v153 : Ref sig .tc := ⟨.hbm, 207, rfl⟩
abbrev main_v154 : Ref sig .tc := ⟨.hbm, 208, rfl⟩
abbrev main_cst_42 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_43 : Ref sig .tc := ⟨.hbm, 214, rfl⟩
abbrev main_v159 : Ref sig .tc := ⟨.hbm, 215, rfl⟩
abbrev main_v160 : Ref sig .tc := ⟨.hbm, 216, rfl⟩
abbrev main_cst_44 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_cst_45 : Ref sig .tc := ⟨.hbm, 222, rfl⟩
abbrev main_v165 : Ref sig .tc := ⟨.hbm, 223, rfl⟩
abbrev main_v166 : Ref sig .tc := ⟨.hbm, 224, rfl⟩
abbrev main_cst_46 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_cst_47 : Ref sig .tc := ⟨.hbm, 230, rfl⟩
abbrev main_v171 : Ref sig .tc := ⟨.hbm, 231, rfl⟩
abbrev main_v172 : Ref sig .tc := ⟨.hbm, 232, rfl⟩
abbrev main_cst_48 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_49 : Ref sig .tc := ⟨.hbm, 238, rfl⟩
abbrev main_v177 : Ref sig .tc := ⟨.hbm, 239, rfl⟩
abbrev main_v178 : Ref sig .tc := ⟨.hbm, 240, rfl⟩
abbrev main_cst_50 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_cst_51 : Ref sig .tc := ⟨.hbm, 246, rfl⟩
abbrev main_v183 : Ref sig .tc := ⟨.hbm, 247, rfl⟩
abbrev main_v184 : Ref sig .tc := ⟨.hbm, 248, rfl⟩
abbrev main_cst_52 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_cst_53 : Ref sig .tc := ⟨.hbm, 254, rfl⟩
abbrev main_v189 : Ref sig .tc := ⟨.hbm, 255, rfl⟩
abbrev main_v190 : Ref sig .tc := ⟨.hbm, 256, rfl⟩
abbrev main_cst_54 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_cst_55 : Ref sig .tc := ⟨.hbm, 262, rfl⟩
abbrev main_v195 : Ref sig .tc := ⟨.hbm, 263, rfl⟩
abbrev main_v196 : Ref sig .tc := ⟨.hbm, 264, rfl⟩
abbrev main_cst_56 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_cst_57 : Ref sig .tc := ⟨.hbm, 270, rfl⟩
abbrev main_v201 : Ref sig .tc := ⟨.hbm, 271, rfl⟩
abbrev main_v202 : Ref sig .tc := ⟨.hbm, 272, rfl⟩
abbrev main_cst_58 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_cst_59 : Ref sig .tc := ⟨.hbm, 278, rfl⟩
abbrev main_v207 : Ref sig .tc := ⟨.hbm, 279, rfl⟩
abbrev main_v208 : Ref sig .tc := ⟨.hbm, 280, rfl⟩
abbrev main_cst_60 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_cst_61 : Ref sig .tc := ⟨.hbm, 286, rfl⟩
abbrev main_v213 : Ref sig .tc := ⟨.hbm, 287, rfl⟩
abbrev main_v214 : Ref sig .tc := ⟨.hbm, 288, rfl⟩
abbrev main_cst_62 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_cst_63 : Ref sig .tc := ⟨.hbm, 294, rfl⟩
abbrev main_v219 : Ref sig .tc := ⟨.hbm, 295, rfl⟩
abbrev main_v220 : Ref sig .tc := ⟨.hbm, 296, rfl⟩
abbrev main_cst_64 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_cst_65 : Ref sig .tc := ⟨.hbm, 302, rfl⟩
abbrev main_v225 : Ref sig .tc := ⟨.hbm, 303, rfl⟩
abbrev main_v226 : Ref sig .tc := ⟨.hbm, 304, rfl⟩
abbrev main_cst_66 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_cst_67 : Ref sig .tc := ⟨.hbm, 310, rfl⟩
abbrev main_v231 : Ref sig .tc := ⟨.hbm, 311, rfl⟩
abbrev main_v232 : Ref sig .tc := ⟨.hbm, 312, rfl⟩
abbrev main_cst_68 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_cst_69 : Ref sig .tc := ⟨.hbm, 318, rfl⟩
abbrev main_v237 : Ref sig .tc := ⟨.hbm, 319, rfl⟩
abbrev main_v238 : Ref sig .tc := ⟨.hbm, 320, rfl⟩
abbrev main_cst_70 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_cst_71 : Ref sig .tc := ⟨.hbm, 326, rfl⟩
abbrev main_v243 : Ref sig .tc := ⟨.hbm, 327, rfl⟩
abbrev main_v244 : Ref sig .tc := ⟨.hbm, 328, rfl⟩
abbrev main_cst_72 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_cst_73 : Ref sig .tc := ⟨.hbm, 334, rfl⟩
abbrev main_v249 : Ref sig .tc := ⟨.hbm, 335, rfl⟩
abbrev main_v250 : Ref sig .tc := ⟨.hbm, 336, rfl⟩
abbrev main_cst_74 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_cst_75 : Ref sig .tc := ⟨.hbm, 342, rfl⟩
abbrev main_v255 : Ref sig .tc := ⟨.hbm, 343, rfl⟩
abbrev main_v256 : Ref sig .tc := ⟨.hbm, 344, rfl⟩
abbrev main_cst_76 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_cst_77 : Ref sig .tc := ⟨.hbm, 350, rfl⟩
abbrev main_v261 : Ref sig .tc := ⟨.hbm, 351, rfl⟩
abbrev main_v262 : Ref sig .tc := ⟨.hbm, 352, rfl⟩
abbrev main_cst_78 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_cst_79 : Ref sig .tc := ⟨.hbm, 358, rfl⟩
abbrev main_v267 : Ref sig .tc := ⟨.hbm, 359, rfl⟩
abbrev main_v268 : Ref sig .tc := ⟨.hbm, 360, rfl⟩
abbrev main_cst_80 : Ref sig .tc := ⟨.hbm, 361, rfl⟩
abbrev main_v269 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_cst_81 : Ref sig .tc := ⟨.hbm, 366, rfl⟩
abbrev main_v273 : Ref sig .tc := ⟨.hbm, 367, rfl⟩
abbrev main_v274 : Ref sig .tc := ⟨.hbm, 368, rfl⟩
abbrev main_cst_82 : Ref sig .tc := ⟨.hbm, 369, rfl⟩
abbrev main_v275 : Ref sig .tc := ⟨.hbm, 370, rfl⟩
abbrev main_v276 : Ref sig .tc := ⟨.hbm, 371, rfl⟩
abbrev main_v277 : Ref sig .tc := ⟨.hbm, 372, rfl⟩
abbrev main_v278 : Ref sig .tc := ⟨.hbm, 373, rfl⟩
abbrev main_cst_83 : Ref sig .tc := ⟨.hbm, 374, rfl⟩
abbrev main_v279 : Ref sig .tc := ⟨.hbm, 375, rfl⟩
abbrev main_v280 : Ref sig .tc := ⟨.hbm, 376, rfl⟩
abbrev main_cst_84 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_cst_85 : Ref sig .tc := ⟨.hbm, 382, rfl⟩
abbrev main_v285 : Ref sig .tc := ⟨.hbm, 383, rfl⟩
abbrev main_v286 : Ref sig .tc := ⟨.hbm, 384, rfl⟩
abbrev main_cst_86 : Ref sig .tc := ⟨.hbm, 385, rfl⟩
abbrev main_v287 : Ref sig .tc := ⟨.hbm, 386, rfl⟩
abbrev main_v288 : Ref sig .tc := ⟨.hbm, 387, rfl⟩
abbrev main_v289 : Ref sig .tc := ⟨.hbm, 388, rfl⟩
abbrev main_v290 : Ref sig .tc := ⟨.hbm, 389, rfl⟩

abbrev nD : Nat := 1
abbrev τ : Topo := Topo.v7x

variable {F : FTy → Type} [FloatOps F]

class Facts₀ : Prop where
  shapeCasts_S32768x4x1024_S32768x4096 : S32768x4x1024.ShapeCasts S32768x4096
  reducesTo_S32768x4096_S32768_d1 : S32768x4096.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x4096_0_1 : S32768x1.BroadcastsInDim S32768x4096 (![0, 1] : Fin 2 → Fin S32768x4096.rank)
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  transposes_S4x4096_S4096x4_1_0 : S4x4096.Transposes [1, 0] S4096x4
  bcast_S_S32768x4 : S_.BroadcastsInDim S32768x4 (![] : Fin 0 → Fin S32768x4.rank)
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  transposes_S16x4096_S4096x16_1_0 : S16x4096.Transposes [1, 0] S4096x16
  bcast_S_S32768x16 : S_.BroadcastsInDim S32768x16 (![] : Fin 0 → Fin S32768x16.rank)
  bcast_S16_S1x16_1 : S16.BroadcastsInDim S1x16 (![1] : Fin 1 → Fin S1x16.rank)
  bcast_S1x16_S32768x16_0_1 : S1x16.BroadcastsInDim S32768x16 (![0, 1] : Fin 2 → Fin S32768x16.rank)
  shapeCasts_S32768x16_S32768x4x4 : S32768x16.ShapeCasts S32768x4x4
  reducesTo_S32768x4x4_S32768x4_d2 : S32768x4x4.ReducesTo [2] S32768x4
  bcast_S32768x4_S32768x4x1_0_1 : S32768x4.BroadcastsInDim S32768x4x1 (![0, 1] : Fin 2 → Fin S32768x4x1.rank)
  bcast_S_S32768x4x1 : S_.BroadcastsInDim S32768x4x1 (![] : Fin 0 → Fin S32768x4x1.rank)
  bcast_S32768x4x1_S32768x4x4_0_1_2 : S32768x4x1.BroadcastsInDim S32768x4x4 (![0, 1, 2] : Fin 3 → Fin S32768x4x4.rank)
  reducesTo_S32768x4x4_S32768x4_d1 : S32768x4x4.ReducesTo [1] S32768x4
  bcast_S32768x4_S32768x1x4_0_2 : S32768x4.BroadcastsInDim S32768x1x4 (![0, 2] : Fin 2 → Fin S32768x1x4.rank)
  bcast_S_S32768x1x4 : S_.BroadcastsInDim S32768x1x4 (![] : Fin 0 → Fin S32768x1x4.rank)
  bcast_S32768x1x4_S32768x4x4_0_1_2 : S32768x1x4.BroadcastsInDim S32768x4x4 (![0, 1, 2] : Fin 3 → Fin S32768x4x4.rank)
  dot_S32768x4096_S4096x4_S32768x4_1_0_0_1_n_n_wf : DotDims.WF S32768x4096 S4096x4 S32768x4 [1] [0] [0] [1] [] []
  dot_S32768x4096_S4096x16_S32768x16_1_0_0_1_n_n_wf : DotDims.WF S32768x4096 S4096x16 S32768x16 [1] [0] [0] [1] [] []

variable [Facts₀]

def dot_S32768x4096_S4096x4_S32768x4_1_0_0_1_n_n : DotDims S32768x4096 S4096x4 S32768x4 where
  lhsContracting := [1]
  rhsContracting := [0]
  lhsNonContracting := [0]
  rhsNonContracting := [1]
  lhsBatch := []
  rhsBatch := []
  wf := dot_S32768x4096_S4096x4_S32768x4_1_0_0_1_n_n_wf
def dot_S32768x4096_S4096x16_S32768x16_1_0_0_1_n_n : DotDims S32768x4096 S4096x16 S32768x16 where
  lhsContracting := [1]
  rhsContracting := [0]
  lhsNonContracting := [0]
  rhsNonContracting := [1]
  lhsBatch := []
  rhsBatch := []
  wf := dot_S32768x4096_S4096x16_S32768x16_1_0_0_1_n_n_wf

class Facts : Prop extends Facts₀ where

variable [Facts]
-- ==== Proof.KPayB.lean ====
/-
  The kernel body's stored value as ONE pure function of its four loaded blocks: the skeleton's payloads composed in
  the order the body's printed parts call one another. Nothing is computed here; the composition is named so that the
  frame (what the output buffer holds after the body) and the value proof (what that is, index by index) speak of the
  same term.
-/
import proofs.«113674_j80951543595212_2_alg».proof.Proof.Gen.Kernel.Skeleton

noncomputable section

namespace Cert.Kernel.Hand

open Cert.Kernel Cert.Kernel.Gen Idealize.ShloMosaic

variable {F : FTy → Type} [FloatOps F]

/-- The stored 24 × 512 block from the input block `v0` (512 rows of 4096 features), the combined weights `v11`
    (4096 × 24), the per-column scale `v16` and bias `v21`. -/
def payChain (v0 : Vec F S512x4096 .f32) (v11 : Vec F S4096x24 .bf16) (v16 : Vec F S24 .f32) (v21 : Vec F S24 .f32) :
    FVec F S24x512 .f32 :=
  let v30 := k0_pay3 v0 v11 v16 v21
  let v33 := k0_pay4 v0 v11 v16 v21
  let v36 := k0_pay6 v0 v11 v16 v21
  let v37 := k0_pay7 v0 v11 v16 v21
  let v38 := k0_pay8 v0 v11 v16 v21
  let v44 := k0_pay9 v0 v11 v16 v21
  let v74 := k0_pay14 v36 v37 v38 v44
  let v77 := k0_pay15 v36 v37 v38 v44
  let v83 := k0_pay16 v36 v37 v38 v44
  let v89 := k0_pay17 v36 v37 v38 v44
  let v90 := k0_pay18 v36 v37 v38 v44
  let v116 := k0_pay22 v74 v77 v83 v89 v90
  let v122 := k0_pay23 v74 v77 v83 v89 v90
  let v128 := k0_pay24 v74 v77 v83 v89 v90
  let v134 := k0_pay25 v74 v77 v83 v89 v90
  let v136 := k0_pay26 v74 v77 v83 v89 v90
  let v161 := k0_pay29 v116 v122 v128 v134 v136
  let v167 := k0_pay30 v116 v122 v128 v134 v136
  let v173 := k0_pay31 v116 v122 v128 v134 v136
  let v179 := k0_pay32 v116 v122 v128 v134 v136
  let v182 := k0_pay33 v116 v122 v128 v134 v136
  let cst_53 : F .f32 := Scalar.ofBits .f32 0x358637BD#32
  let v212 := k0_pay36 v173 v182
  let v218 := k0_pay37 v179 v182
  let v221 := k0_pay38 v161 v167 v173 v179 v182 cst_53
  let v224 := k0_pay39 v161 v167 v173 v179 v182 cst_53
  let v227 := k0_pay40 v161 v167 v173 v179 v182 cst_53
  let v228 := k0_pay41 (F := F)
  let v263 := k0_pay47 v212 v218 v221 v224 v227 v228
  let v266 := k0_pay48 v212 v218 v221 v224 v227 v228
  let v269 := k0_pay49 v212 v218 v221 v224 v227 v228
  let v272 := k0_pay50 v212 v218 v221 v224 v227 v228
  let v274 := k0_pay51 v212 v218 v221 v224 v227 v228
  let v305 := k0_pay57 v263 v266 v269 v272 v274
  let v308 := k0_pay58 v263 v266 v269 v272 v274
  let v311 := k0_pay59 v263 v266 v269 v272 v274
  let v317 := k0_pay60 v263 v266 v269 v272 v274
  let v319 := k0_pay61 v263 v266 v269 v272 v274
  let cst_96 : F .f32 := Scalar.ofBits .f32 0x358637BD#32
  let v347 := k0_pay66 v305 v308 v311 v317 v319 cst_96
  let v350 := k0_pay67 v305 v308 v311 v317 v319 cst_96
  let v356 := k0_pay68 v305 v308 v311 v317 v319 cst_96
  let v362 := k0_pay69 v305 v308 v311 v317 v319 cst_96
  let v364 := k0_pay70 v305 v308 v311 v317 v319 cst_96
  let v365 := k0_pay71 (F := F)
  let v389 := k0_pay75 v347 v350 v356 v362 v364 v365
  let v395 := k0_pay76 v347 v350 v356 v362 v364 v365
  let v401 := k0_pay77 v347 v350 v356 v362 v364 v365
  let v407 := k0_pay78 v347 v350 v356 v362 v364 v365
  let v411 := k0_pay79 v347 v350 v356 v362 v364 v365
  let v440 := k0_pay83 v389 v395 v401 v407 v411
  let v446 := k0_pay84 v389 v395 v401 v407 v411
  let v452 := k0_pay85 v389 v395 v401 v407 v411
  let v455 := k0_pay86 v389 v395 v401 v407 v411
  let v458 := k0_pay87 v389 v395 v401 v407 v411
  let v491 := k0_pay91 v452 v455
  let v494 := k0_pay92 v440 v446 v452 v455 v458
  let v497 := k0_pay93 v440 v446 v452 v455 v458
  let v500 := k0_pay94 v440 v446 v452 v455 v458
  let v503 := k0_pay95 v440 v446 v452 v455 v458
  let cst_152 : F .f32 := Scalar.ofBits .f32 0x358637BD#32
  let v536 := k0_pay101 v491 v494 v497 v500 v503 cst_152
  let v539 := k0_pay102 v491 v494 v497 v500 v503 cst_152
  let v542 := k0_pay103 v491 v494 v497 v500 v503 cst_152
  let v545 := k0_pay104 v491 v494 v497 v500 v503 cst_152
  let v549 := k0_pay105 v491 v494 v497 v500 v503 cst_152
  let v578 := k0_pay111 v536 v539 v542 v545 v549
  let v581 := k0_pay112 v536 v539 v542 v545 v549
  let v584 := k0_pay113 v536 v539 v542 v545 v549
  let v590 := k0_pay114 v536 v539 v542 v545 v549
  let v595 := k0_pay115 v536 v539 v542 v545 v549
  let v623 := k0_pay120 v578 v581 v584 v590 v595
  let v629 := k0_pay121 v578 v581 v584 v590 v595
  let v635 := k0_pay122 v578 v581 v584 v590 v595
  let v641 := k0_pay123 v578 v581 v584 v590 v595
  let v668 := k0_pay126 v623 v629 v635 v641
  let v674 := k0_pay127 v623 v629 v635 v641
  let v680 := k0_pay128 v623 v629 v635 v641
  let v686 := k0_pay129 v623 v629 v635 v641
  let v687 := k0_pay130 v623 v629 v635 v641
  let v713 := k0_pay133 v674 v680 v686 v687
  let v719 := k0_pay134 v680 v686 v687
  let v725 := k0_pay135 v680 v686 v687
  let v728 := k0_pay136 v668 v674 v680 v686 v687
  let v731 := k0_pay137 v668 v674 v680 v686 v687
  let v733 := k0_pay138 v668 v674 v680 v686 v687
  let v770 := k0_pay144 v713 v719 v725 v728 v731 v733
  let v773 := k0_pay145 v713 v719 v725 v728 v731 v733
  let v776 := k0_pay146 v713 v719 v725 v728 v731 v733
  let v779 := k0_pay147 v713 v719 v725 v728 v731 v733
  let v797 := k0_pay150 v776
  let v803 := k0_pay151 v779
  let v806 := k0_pay152 v770 v773 v776 v779
  let v809 := k0_pay153 v770 v773 v776 v779
  let v812 := k0_pay154 v770 v773 v776 v779
  k0_pay1 v30 v33 v797 v803 v806 v809 v812

end Cert.Kernel.Hand

end
-- ==== Proof.KFrame.lean ====
/-
  The frame of `Cert.Kernel`: @main runs to its end on every core and leaves its eleven argument arrays as launched.

  @main is twelve host operations (a reshape, three concatenations, the scaling of the weights, their transpose and
  rounding), ONE pipelined region over a grid of 64 points, and five host operations on the region's result. At grid
  point `t` the region's body is handed four input blocks — rows `512 t … 512 t + 511` of the 32768 × 4096 input, and
  the whole of the 4096 × 24 weights and of two vectors of 24 entries — and one output block, columns
  `512 t … 512 t + 511` of the 24 × 32768 result. The body loads the four input blocks whole, computes, reads the output
  block once without using what it read, and stores ONE whole 24 × 512 block: `payChain` of the four loaded blocks.

  So the body leaves each input block as it found it and the output block at `out0_4` of the input blocks, whatever the
  output block held before; the region then leaves every array at what the pipeline's proof data (`dats`) compute, and
  every buffer that is no array of the region — the eleven arguments among them — as the host operations around the
  region leave it. No host operation writes an argument, which is the frame.
-/
import proofs.«113674_j80951543595212_2_alg».proof.Proof.Gen.Kernel.Launch
import proofs.«113674_j80951543595212_2_alg».proof.Proof.Gen.Kernel.Skeleton
import proofs.«113674_j80951543595212_2_alg».proof.Proof.Gen.Kernel.Points
import proofs.«113674_j80951543595212_2_alg».proof.Proof.KPayB
import Idealize.ShloMosaic.Lib.Pipeline.FrameBody
import Idealize.ShloMosaic.Lib.Pipeline.FrameSuffix
import Idealize.ShloMosaic.Lib.Ring
import Idealize.ShloMosaic.Lib.Tactic

-- membership of an index in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch memory after the twelve host
    operations before the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host operations before the region allocate nothing, -/
theorem hostOps0_fresh : (hostOps0 : List (HloOp τ sig (Elt F))).Forall fun op => op.fresh = ∅ := by
  simp only [List.Forall]; repeat' constructor
/-- nor do those after it. -/
theorem hostOps1_fresh : (hostOps1 : List (HloOp τ sig (Elt F))).Forall fun op => op.fresh = ∅ := by
  simp only [List.Forall]; repeat' constructor

/-- @main is the host operations before the region, the region, and the host operations after it: it reduces to the
    region continued by the later operations, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only: the region's arrays and the buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the region: each writes its own result buffer, `main_v13 … main_v17`, and the arrays are
    `main_v0`, `main_v6`, `main_v10`, `main_v11`, `main_v12`. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ### The argument arrays are written by no host operation

The twelve operations before the region write `main_v0 … main_v11`, the five after it `main_v13 … main_v17`; an
argument array is none of these and no array of the region, so it is found as launched and ends as launched. -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2`, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg3`, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg4`, and it is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg5`, and it is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg6`, and it is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg7`, and it is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg8`, and it is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg9`, and it is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg10`, and it is no array of the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it (`V`): for window 0 rows
    `512 t … 512 t + 511` of `main_v0`; for windows 1, 2, 3 the whole of `main_v6`, `main_v10`, `main_v11`; for window 4
    columns `512 t … 512 t + 511` of `main_v12`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not — where it is not
    fetched its block index has not moved since the last fetch — for ANY proof data whose array is `V`'s (`hA`) and whose
    body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not — where it is not
    fetched its block index has not moved since the last fetch — for ANY proof data whose array is `V`'s (`hA`) and whose
    body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not — where it is not
    fetched its block index has not moved since the last fetch — for ANY proof data whose array is `V`'s (`hA`) and whose
    body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not — where it is not
    fetched its block index has not moved since the last fetch — for ANY proof data whose array is `V`'s (`hA`) and whose
    body leaves the block in place (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the post
    "every array of the region at what the proof data compute, every other unscoped buffer as the operations after the
    region leave it" gives the frame claim's post. No argument array is an array of the region, so each is read off the
    post's second clause, and ends as launched by `W_main_argK`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

/-! ## The body's accesses -/

/-- The body's five rectangles: each block whole. -/
abbrev r0_0 : Rect S512x4096 := Rect.unit (s := S512x4096) ![0, 0] S512x4096.size inb_S512x4096_S512x4096_0_0
abbrev r0_1 : Rect S4096x24 := Rect.unit (s := S4096x24) ![0, 0] S4096x24.size inb_S4096x24_S4096x24_0_0
abbrev r0_2 : Rect S24 := Rect.unit (s := S24) ![0] S24.size inb_S24_S24_0
abbrev r0_3 : Rect S24 := Rect.unit (s := S24) ![0] S24.size inb_S24_S24_0
abbrev r0_4 : Rect S24x512 := Rect.unit (s := S24x512) ![0, 0] S24x512.size inb_S24x512_S24x512_0_0

/-! ## What the body leaves in the output window's buffer -/

/-- The body's stored value as a function of the four loaded blocks: `payChain`, the payloads composed in the order the
    body's parts call one another. -/
abbrev bodyVal (x0 : Vec F S512x4096 .f32) (x1 : Vec F S4096x24 .bf16) (x2 : Vec F S24 .f32) (x3 : Vec F S24 .f32) :
    FVec F S24x512 .f32 := payChain x0 x1 x2 x3

/-- Window 4's staging buffer after the body, from the input windows' blocks: its one store, of `payChain` of the four
    blocks read whole, through the whole rectangle. -/
def out0_4 (x0 : Vec F S512x4096 .f32) (x1 : Vec F S4096x24 .bf16) (x2 : Vec F S24 .f32) (x3 : Vec F S24 .f32) : Vec F S24x512 .f32 :=
  View.canon [⟨r0_4, payChain (View.ld x0 r0_0) (View.ld x1 r0_1) (View.ld x2 r0_2) (View.ld x3 r0_3)⟩]

/-- The one store is through the whole rectangle, so it covers the buffer. -/
theorem cover0_4 (p0 : Vec F S24x512 .f32) (y : S24x512.Idx) :
    ∃ pc ∈ ([⟨r0_4, p0⟩] : List (View.Piece (Elt F) S24x512 .f32)), y ∈ pc.1.set :=
  View.cover_of_tiled [⟨r0_4, p0⟩] S24x512.size (by rfl) y

/-! ## The body's triple -/

set_option maxHeartbeats 4000000 in
/-- The kernel body on whole staging memrefs, the four inputs' at read contents `x0 … x3` and the output's at anything,
    runs to the continuation holding the inputs' as they were and the output's at `out0_4` of the inputs': the four loads
    read the inputs' contents, the eighteen parts compute, the load of the output buffer is of a value nothing uses, and
    the one store overwrites the whole output buffer. -/
theorem sound_kernel (c : Dev nD) (E : Set ℕ) (i : grid0.Coords)
    (arg1 : Memref sig .tc .vmem S512x4096 .f32) (harg1 : arg1.IsWhole) (arg2 : Memref sig .tc .vmem S4096x24 .bf16) (harg2 : arg2.IsWhole)
    (arg3 : Memref sig .tc .vmem S24 .f32) (harg3 : arg3.IsWhole) (arg4 : Memref sig .tc .vmem S24 .f32) (harg4 : arg4.IsWhole)
    (arg5 : Memref sig .tc .vmem S24x512 .f32) (harg5 : arg5.IsWhole)
    (x0 : Vec F S512x4096 .f32) (x1 : Vec F S4096x24 .bf16) (x2 : Vec F S24 .f32) (x3 : Vec F S24 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the one pipeline on core `c`: the arrays as the region finds them (`V`); after the body at point
    `t` each input's buffer at its block and the output's at `out0_4` of the four input blocks; the invariant that of a
    body touching nothing but its windows (the scoped rest and the generator register, untouched); nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents: the definition projected, so that `V` — a fold over the
    twelve host operations — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, what the core owes, and the five windows' current staging
    buffers, each whole at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the implicit arguments of the library's run theorem are determined by unifying its conclusion with the statement
-- below, which takes unfolding plain definitions in the type of an argument yet to be determined
set_option backward.isDefEq.respectTransparency.types false in
/-- At the compiled mesh, for any values, from any memory with zero counters: every weakly fair execution of @main on the
    TensorCores terminates, and every final state has every array of the region at what the proof data compute and every
    other unscoped buffer as the five host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- THE FRAME of `Cert.Kernel` at any `F`: @main terminates on every core and the eleven argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KPay.lean ====
/-
  The kernel body's stored value as ONE pure function of its four loaded blocks: the skeleton's payloads composed in
  the order the body's printed parts call one another. Nothing is computed here; the composition is named so that the
  frame (what the output buffer holds after the body) and the value proof (what that is, index by index) speak of the
  same term.
-/
import proofs.«113674_j80951543595212_2_alg».proof.Proof.Gen.KernelIdeal.Skeleton

noncomputable section

namespace Cert.KernelIdeal.Hand

open Cert.KernelIdeal Cert.KernelIdeal.Gen Idealize.ShloMosaic

variable {F : FTy → Type} [FloatOps F]

/-- The stored 24 × 512 block from the input block `v0` (512 rows of 4096 features), the combined weights `v11`
    (4096 × 24), the per-column scale `v16` and bias `v21`. -/
def payChain (v0 : Vec F S512x4096 .f32) (v11 : Vec F S4096x24 .bf16) (v16 : Vec F S24 .f32) (v21 : Vec F S24 .f32) :
    FVec F S24x512 .f32 :=
  let v30 := k0_pay3 v0 v11 v16 v21
  let v33 := k0_pay4 v0 v11 v16 v21
  let v36 := k0_pay6 v0 v11 v16 v21
  let v37 := k0_pay7 v0 v11 v16 v21
  let v38 := k0_pay8 v0 v11 v16 v21
  let v44 := k0_pay9 v0 v11 v16 v21
  let v74 := k0_pay14 v36 v37 v38 v44
  let v77 := k0_pay15 v36 v37 v38 v44
  let v83 := k0_pay16 v36 v37 v38 v44
  let v89 := k0_pay17 v36 v37 v38 v44
  let v90 := k0_pay18 v36 v37 v38 v44
  let v116 := k0_pay22 v74 v77 v83 v89 v90
  let v122 := k0_pay23 v74 v77 v83 v89 v90
  let v128 := k0_pay24 v74 v77 v83 v89 v90
  let v134 := k0_pay25 v74 v77 v83 v89 v90
  let v136 := k0_pay26 v74 v77 v83 v89 v90
  let v161 := k0_pay29 v116 v122 v128 v134 v136
  let v167 := k0_pay30 v116 v122 v128 v134 v136
  let v173 := k0_pay31 v116 v122 v128 v134 v136
  let v179 := k0_pay32 v116 v122 v128 v134 v136
  let v182 := k0_pay33 v116 v122 v128 v134 v136
  let cst_53 : F .f32 := Scalar.ofBits .f32 0x358637BD#32
  let v212 := k0_pay36 v173 v182
  let v218 := k0_pay37 v179 v182
  let v221 := k0_pay38 v161 v167 v173 v179 v182 cst_53
  let v224 := k0_pay39 v161 v167 v173 v179 v182 cst_53
  let v227 := k0_pay40 v161 v167 v173 v179 v182 cst_53
  let v228 := k0_pay41 (F := F)
  let v263 := k0_pay47 v212 v218 v221 v224 v227 v228
  let v266 := k0_pay48 v212 v218 v221 v224 v227 v228
  let v269 := k0_pay49 v212 v218 v221 v224 v227 v228
  let v272 := k0_pay50 v212 v218 v221 v224 v227 v228
  let v274 := k0_pay51 v212 v218 v221 v224 v227 v228
  let v305 := k0_pay57 v263 v266 v269 v272 v274
  let v308 := k0_pay58 v263 v266 v269 v272 v274
  let v311 := k0_pay59 v263 v266 v269 v272 v274
  let v317 := k0_pay60 v263 v266 v269 v272 v274
  let v319 := k0_pay61 v263 v266 v269 v272 v274
  let cst_96 : F .f32 := Scalar.ofBits .f32 0x358637BD#32
  let v347 := k0_pay66 v305 v308 v311 v317 v319 cst_96
  let v350 := k0_pay67 v305 v308 v311 v317 v319 cst_96
  let v356 := k0_pay68 v305 v308 v311 v317 v319 cst_96
  let v362 := k0_pay69 v305 v308 v311 v317 v319 cst_96
  let v364 := k0_pay70 v305 v308 v311 v317 v319 cst_96
  let v365 := k0_pay71 (F := F)
  let v389 := k0_pay75 v347 v350 v356 v362 v364 v365
  let v395 := k0_pay76 v347 v350 v356 v362 v364 v365
  let v401 := k0_pay77 v347 v350 v356 v362 v364 v365
  let v407 := k0_pay78 v347 v350 v356 v362 v364 v365
  let v411 := k0_pay79 v347 v350 v356 v362 v364 v365
  let v440 := k0_pay83 v389 v395 v401 v407 v411
  let v446 := k0_pay84 v389 v395 v401 v407 v411
  let v452 := k0_pay85 v389 v395 v401 v407 v411
  let v455 := k0_pay86 v389 v395 v401 v407 v411
  let v458 := k0_pay87 v389 v395 v401 v407 v411
  let v491 := k0_pay91 v452 v455
  let v494 := k0_pay92 v440 v446 v452 v455 v458
  let v497 := k0_pay93 v440 v446 v452 v455 v458
  let v500 := k0_pay94 v440 v446 v452 v455 v458
  let v503 := k0_pay95 v440 v446 v452 v455 v458
  let cst_152 : F .f32 := Scalar.ofBits .f32 0x358637BD#32
  let v536 := k0_pay101 v491 v494 v497 v500 v503 cst_152
  let v539 := k0_pay102 v491 v494 v497 v500 v503 cst_152
  let v542 := k0_pay103 v491 v494 v497 v500 v503 cst_152
  let v545 := k0_pay104 v491 v494 v497 v500 v503 cst_152
  let v549 := k0_pay105 v491 v494 v497 v500 v503 cst_152
  let v578 := k0_pay111 v536 v539 v542 v545 v549
  let v581 := k0_pay112 v536 v539 v542 v545 v549
  let v584 := k0_pay113 v536 v539 v542 v545 v549
  let v590 := k0_pay114 v536 v539 v542 v545 v549
  let v595 := k0_pay115 v536 v539 v542 v545 v549
  let v623 := k0_pay120 v578 v581 v584 v590 v595
  let v629 := k0_pay121 v578 v581 v584 v590 v595
  let v635 := k0_pay122 v578 v581 v584 v590 v595
  let v641 := k0_pay123 v578 v581 v584 v590 v595
  let v668 := k0_pay126 v623 v629 v635 v641
  let v674 := k0_pay127 v623 v629 v635 v641
  let v680 := k0_pay128 v623 v629 v635 v641
  let v686 := k0_pay129 v623 v629 v635 v641
  let v687 := k0_pay130 v623 v629 v635 v641
  let v713 := k0_pay133 v674 v680 v686 v687
  let v719 := k0_pay134 v680 v686 v687
  let v725 := k0_pay135 v680 v686 v687
  let v728 := k0_pay136 v668 v674 v680 v686 v687
  let v731 := k0_pay137 v668 v674 v680 v686 v687
  let v733 := k0_pay138 v668 v674 v680 v686 v687
  let v770 := k0_pay144 v713 v719 v725 v728 v731 v733
  let v773 := k0_pay145 v713 v719 v725 v728 v731 v733
  let v776 := k0_pay146 v713 v719 v725 v728 v731 v733
  let v779 := k0_pay147 v713 v719 v725 v728 v731 v733
  let v797 := k0_pay150 v776
  let v803 := k0_pay151 v779
  let v806 := k0_pay152 v770 v773 v776 v779
  let v809 := k0_pay153 v770 v773 v776 v779
  let v812 := k0_pay154 v770 v773 v776 v779
  k0_pay1 v30 v33 v797 v803 v806 v809 v812

end Cert.KernelIdeal.Hand

end
-- ==== Proof.KIFrame.lean ====
/-
  The frame of `Cert.KernelIdeal`: @main runs to its end on every core and leaves its eleven argument arrays as launched.

  @main is twelve host operations (a reshape, three concatenations, the scaling of the weights, their transpose and
  rounding), ONE pipelined region over a grid of 64 points, and five host operations on the region's result. At grid
  point `t` the region's body is handed four input blocks — rows `512 t … 512 t + 511` of the 32768 × 4096 input, and
  the whole of the 4096 × 24 weights and of two vectors of 24 entries — and one output block, columns
  `512 t … 512 t + 511` of the 24 × 32768 result. The body loads the four input blocks whole, computes, reads the output
  block once without using what it read, and stores ONE whole 24 × 512 block: `payChain` of the four loaded blocks.

  So the body leaves each input block as it found it and the output block at `out0_4` of the input blocks, whatever the
  output block held before; the region then leaves every array at what the pipeline's proof data (`dats`) compute, and
  every buffer that is no array of the region — the eleven arguments among them — as the host operations around the
  region leave it. No host operation writes an argument, which is the frame.
-/
import proofs.«113674_j80951543595212_2_alg».proof.Proof.Gen.KernelIdeal.Launch
import proofs.«113674_j80951543595212_2_alg».proof.Proof.Gen.KernelIdeal.Skeleton
import proofs.«113674_j80951543595212_2_alg».proof.Proof.Gen.KernelIdeal.Points
import proofs.«113674_j80951543595212_2_alg».proof.Proof.KPay
import Idealize.ShloMosaic.Lib.Pipeline.FrameBody
import Idealize.ShloMosaic.Lib.Pipeline.FrameSuffix
import Idealize.ShloMosaic.Lib.Ring
import Idealize.ShloMosaic.Lib.Tactic

-- membership of an index in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch memory after the twelve host
    operations before the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host operations before the region allocate nothing, -/
theorem hostOps0_fresh : (hostOps0 : List (HloOp τ sig (Elt F))).Forall fun op => op.fresh = ∅ := by
  simp only [List.Forall]; repeat' constructor
/-- nor do those after it. -/
theorem hostOps1_fresh : (hostOps1 : List (HloOp τ sig (Elt F))).Forall fun op => op.fresh = ∅ := by
  simp only [List.Forall]; repeat' constructor

/-- @main is the host operations before the region, the region, and the host operations after it: it reduces to the
    region continued by the later operations, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only: the region's arrays and the buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the region: each writes its own result buffer, `main_v13 … main_v17`, and the arrays are
    `main_v0`, `main_v6`, `main_v10`, `main_v11`, `main_v12`. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ### The argument arrays are written by no host operation

The twelve operations before the region write `main_v0 … main_v11`, the five after it `main_v13 … main_v17`; an
argument array is none of these and no array of the region, so it is found as launched and ends as launched. -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2`, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg3`, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg4`, and it is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg5`, and it is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg6`, and it is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg7`, and it is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg8`, and it is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg9`, and it is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg10`, and it is no array of the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it (`V`): for window 0 rows
    `512 t … 512 t + 511` of `main_v0`; for windows 1, 2, 3 the whole of `main_v6`, `main_v10`, `main_v11`; for window 4
    columns `512 t … 512 t + 511` of `main_v12`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not — where it is not
    fetched its block index has not moved since the last fetch — for ANY proof data whose array is `V`'s (`hA`) and whose
    body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not — where it is not
    fetched its block index has not moved since the last fetch — for ANY proof data whose array is `V`'s (`hA`) and whose
    body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not — where it is not
    fetched its block index has not moved since the last fetch — for ANY proof data whose array is `V`'s (`hA`) and whose
    body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not — where it is not
    fetched its block index has not moved since the last fetch — for ANY proof data whose array is `V`'s (`hA`) and whose
    body leaves the block in place (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the post
    "every array of the region at what the proof data compute, every other unscoped buffer as the operations after the
    region leave it" gives the frame claim's post. No argument array is an array of the region, so each is read off the
    post's second clause, and ends as launched by `W_main_argK`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

/-! ## The body's accesses -/

/-- The body's five rectangles: each block whole. -/
abbrev r0_0 : Rect S512x4096 := Rect.unit (s := S512x4096) ![0, 0] S512x4096.size inb_S512x4096_S512x4096_0_0
abbrev r0_1 : Rect S4096x24 := Rect.unit (s := S4096x24) ![0, 0] S4096x24.size inb_S4096x24_S4096x24_0_0
abbrev r0_2 : Rect S24 := Rect.unit (s := S24) ![0] S24.size inb_S24_S24_0
abbrev r0_3 : Rect S24 := Rect.unit (s := S24) ![0] S24.size inb_S24_S24_0
abbrev r0_4 : Rect S24x512 := Rect.unit (s := S24x512) ![0, 0] S24x512.size inb_S24x512_S24x512_0_0

/-! ## What the body leaves in the output window's buffer -/

/-- The body's stored value as a function of the four loaded blocks: `payChain`, the payloads composed in the order the
    body's parts call one another. -/
abbrev bodyVal (x0 : Vec F S512x4096 .f32) (x1 : Vec F S4096x24 .bf16) (x2 : Vec F S24 .f32) (x3 : Vec F S24 .f32) :
    FVec F S24x512 .f32 := payChain x0 x1 x2 x3

/-- Window 4's staging buffer after the body, from the input windows' blocks: its one store, of `payChain` of the four
    blocks read whole, through the whole rectangle. -/
def out0_4 (x0 : Vec F S512x4096 .f32) (x1 : Vec F S4096x24 .bf16) (x2 : Vec F S24 .f32) (x3 : Vec F S24 .f32) : Vec F S24x512 .f32 :=
  View.canon [⟨r0_4, payChain (View.ld x0 r0_0) (View.ld x1 r0_1) (View.ld x2 r0_2) (View.ld x3 r0_3)⟩]

/-- The one store is through the whole rectangle, so it covers the buffer. -/
theorem cover0_4 (p0 : Vec F S24x512 .f32) (y : S24x512.Idx) :
    ∃ pc ∈ ([⟨r0_4, p0⟩] : List (View.Piece (Elt F) S24x512 .f32)), y ∈ pc.1.set :=
  View.cover_of_tiled [⟨r0_4, p0⟩] S24x512.size (by rfl) y

/-! ## The body's triple -/

set_option maxHeartbeats 4000000 in
/-- The kernel body on whole staging memrefs, the four inputs' at read contents `x0 … x3` and the output's at anything,
    runs to the continuation holding the inputs' as they were and the output's at `out0_4` of the inputs': the four loads
    read the inputs' contents, the eighteen parts compute, the load of the output buffer is of a value nothing uses, and
    the one store overwrites the whole output buffer. -/
theorem sound_kernel (c : Dev nD) (E : Set ℕ) (i : grid0.Coords)
    (arg1 : Memref sig .tc .vmem S512x4096 .f32) (harg1 : arg1.IsWhole) (arg2 : Memref sig .tc .vmem S4096x24 .bf16) (harg2 : arg2.IsWhole)
    (arg3 : Memref sig .tc .vmem S24 .f32) (harg3 : arg3.IsWhole) (arg4 : Memref sig .tc .vmem S24 .f32) (harg4 : arg4.IsWhole)
    (arg5 : Memref sig .tc .vmem S24x512 .f32) (harg5 : arg5.IsWhole)
    (x0 : Vec F S512x4096 .f32) (x1 : Vec F S4096x24 .bf16) (x2 : Vec F S24 .f32) (x3 : Vec F S24 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the one pipeline on core `c`: the arrays as the region finds them (`V`); after the body at point
    `t` each input's buffer at its block and the output's at `out0_4` of the four input blocks; the invariant that of a
    body touching nothing but its windows (the scoped rest and the generator register, untouched); nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents: the definition projected, so that `V` — a fold over the
    twelve host operations — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, what the core owes, and the five windows' current staging
    buffers, each whole at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the implicit arguments of the library's run theorem are determined by unifying its conclusion with the statement
-- below, which takes unfolding plain definitions in the type of an argument yet to be determined
set_option backward.isDefEq.respectTransparency.types false in
/-- At the compiled mesh, for any values, from any memory with zero counters: every weakly fair execution of @main on the
    TensorCores terminates, and every final state has every array of the region at what the proof data compute and every
    other unscoped buffer as the five host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- THE FRAME of `Cert.KernelIdeal` at any `F`: @main terminates on every core and the eleven argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.KBody.lean ====
/-
  The kernel body's value in a regular form: the combined heads (one matmul of the 512 × 4096 block against the
  4096 × 24 weights, scaled row by row with the inverse root-mean-square, column by column with the head scale, plus
  the bias), transposed so that the batch lies along the lanes; the logistic of rows 0–3, twice the logistic of rows
  4–7; and, of the exponentials of rows 8–23 read as four 4 × 512 blocks (block `r` holding row `r` of each lane's
  4 × 4 matrix, its columns along the sublanes), twenty rounds of: every block over its own sublane sum plus ε₂,
  then every block over the sum of the four blocks plus ε₂. `payChain_eq_kbody`: the skeleton's payloads, composed,
  are this, by unfolding.
-/
import proofs.«113674_j80951543595212_2_alg».proof.Proof.KPay

noncomputable section

namespace Cert.KernelIdeal.Hand

open Cert.KernelIdeal Cert.KernelIdeal.Gen Idealize.ShloMosaic

variable {F : FTy → Type} [FloatOps F]

/-- A block over its sublane sums plus ε₂ (a row normalisation of each lane's matrix row). -/
def kRow (b : FVec F S4x512 .f32) : FVec F S4x512 .f32 :=
  divf b (broadcastTo S4x512 (addf (shapeCast S1x512 (multiReduction .add [0] S512 b 0x00000000#32 reduces_S4x512_S512 (.inl rfl) rfl) shapeCasts_S512_S1x512)
    (broadcast S1x512 (Scalar.ofBits .f32 0x358637BD#32))) broadcasts_S1x512_S4x512)

/-- The four blocks of one lane-dense Sinkhorn state. -/
structure Blk4 (F : FTy → Type) where
  b0 : FVec F S4x512 .f32
  b1 : FVec F S4x512 .f32
  b2 : FVec F S4x512 .f32
  b3 : FVec F S4x512 .f32

/-- The blocks' sum plus ε₂ (the column sums of each lane's matrix). -/
def kColDen (r0 r1 r2 r3 : FVec F S4x512 .f32) : FVec F S4x512 .f32 :=
  addf (addf (addf (addf r0 r1) r2) r3) (broadcast S4x512 (Scalar.ofBits .f32 0x358637BD#32))

/-- One round: rows, then columns. -/
def kIter (s : Blk4 F) : Blk4 F :=
  ⟨divf (kRow s.b0) (kColDen (kRow s.b0) (kRow s.b1) (kRow s.b2) (kRow s.b3)),
   divf (kRow s.b1) (kColDen (kRow s.b0) (kRow s.b1) (kRow s.b2) (kRow s.b3)),
   divf (kRow s.b2) (kColDen (kRow s.b0) (kRow s.b1) (kRow s.b2) (kRow s.b3)),
   divf (kRow s.b3) (kColDen (kRow s.b0) (kRow s.b1) (kRow s.b2) (kRow s.b3))⟩

/-- The combined heads, batch along the lanes: 24 × 512. -/
def kComb (v0 : Vec F S512x4096 .f32) (v11 : Vec F S4096x24 .bf16) (v16 : Vec F S24 .f32) (v21 : Vec F S24 .f32) : FVec F S24x512 .f32 :=
  let v1 : FVec F S512x4096 .f32 := shapeCast S512x4096 v0 shapeCasts_S512x4096_S512x4096
  let v9 : FVec F S512x1 .f32 := rsqrt (addf (divf (shapeCast S512x1 (multiReduction .add [1] S512 (mulf v1 v1) 0x00000000#32 reduces_S512x4096_S512 (.inl rfl) rfl) shapeCasts_S512_S512x1)
      (broadcast S512x1 (Scalar.ofBits .f32 0x45800000#32))) (broadcast S512x1 (Scalar.ofBits .f32 0x34000000#32)))
  let v13 : FVec F S512x24 .f32 := matmul dot_S512x4096_S4096x24_S512x24_1_0_0_1_n_n none (truncf .bf16 v1 bitsLt_bf16_f32)
      (shapeCast S4096x24 v11 shapeCasts_S4096x24_S4096x24) (constant S512x24 .f32 0x00000000#32)
  let v15 : FVec F S512x24 .f32 := mulf v13 (broadcastTo S512x24 v9 broadcasts_S512x1_S512x24)
  let v20 : FVec F S512x24 .f32 := mulf v15 (broadcastTo S512x24 (shapeCast S1x24 (shapeCast S24 v16 shapeCasts_S24_S24) shapeCasts_S24_S1x24) broadcasts_S1x24_S512x24)
  let v25 : FVec F S512x24 .f32 := addf v20 (broadcastTo S512x24 (shapeCast S1x24 (shapeCast S24 v21 shapeCasts_S24_S24) shapeCasts_S24_S1x24) broadcasts_S1x24_S512x24)
  transpose S24x512 [1, 0] v25 transposes_S512x24_p1_0_S24x512

/-- The starting Sinkhorn state: the exponentials of rows 8–23 as four blocks. -/
def kInit (v26 : FVec F S24x512 .f32) : Blk4 F :=
  let v34 : FVec F S16x512 .f32 := exp (extractStridedSlice S16x512 ![8, 0] v26 slices_S24x512_o8_0_S16x512)
  ⟨extractStridedSlice S4x512 ![0, 0] v34 slices_S16x512_o0_0_S4x512,
   extractStridedSlice S4x512 ![4, 0] v34 slices_S16x512_o4_0_S4x512,
   extractStridedSlice S4x512 ![8, 0] v34 slices_S16x512_o8_0_S4x512,
   extractStridedSlice S4x512 ![12, 0] v34 slices_S16x512_o12_0_S4x512⟩

/-- The stored block from the combined heads and the final Sinkhorn state. -/
def kOut (v26 : FVec F S24x512 .f32) (s : Blk4 F) : FVec F S24x512 .f32 :=
  concatenate S24x512 0
    [⟨S4x512, logistic (extractStridedSlice S4x512 ![0, 0] v26 slices_S24x512_o0_0_S4x512)⟩,
     ⟨S4x512, mulf (broadcast S4x512 (Scalar.ofBits .f32 0x40000000#32)) (logistic (extractStridedSlice S4x512 ![4, 0] v26 slices_S24x512_o4_0_S4x512))⟩,
     ⟨S16x512, concatenate S16x512 0 [⟨S4x512, s.b0⟩, ⟨S4x512, s.b1⟩, ⟨S4x512, s.b2⟩, ⟨S4x512, s.b3⟩] concatenates_S4x512_S4x512_S4x512_S4x512_S16x512_d0⟩]
    concatenates_S4x512_S4x512_S16x512_S24x512_d0

/-- The body's value, regular form. -/
def kbody (v0 : Vec F S512x4096 .f32) (v11 : Vec F S4096x24 .bf16) (v16 : Vec F S24 .f32) (v21 : Vec F S24 .f32) : FVec F S24x512 .f32 :=
  kOut (kComb v0 v11 v16 v21) (kIter^[20] (kInit (kComb v0 v11 v16 v21)))

set_option maxRecDepth 65536 in
set_option maxHeartbeats 4000000 in
/-- The skeleton's payloads, composed in the parts' order, are the regular form: every payload is a run of the same
    operations, cut at arbitrary places. -/
theorem payChain_eq_kbody (v0 : Vec F S512x4096 .f32) (v11 : Vec F S4096x24 .bf16) (v16 : Vec F S24 .f32) (v21 : Vec F S24 .f32) :
    payChain v0 v11 v16 v21 = kbody v0 v11 v16 v21 := rfl

end Cert.KernelIdeal.Hand

end
-- ==== Proof.Spec.lean ====
/-
  The mathematics both programs compute, stated once over plain index functions into the extended reals.

  For a batch row `b`: with `xr d = x[b, d]` (the 4096 flattened features), `inv xr = rsqrt (Σ_d xr d² / 4096 + ε₁)` the
  inverse root-mean-square, a head entry with weight row `wr`, norm weight `nw`, scale `α` and bias `β` is
      α · Σ_d (xr d · inv xr · nw d) · wr d + β                                   (`headR`: normalise, then project)
  which is also
      (Σ_d xr d · (wr d · nw d)) · inv xr · α + β                                  (`headK`: project, then rescale)
  whenever every factor is a real number: the row scalar `inv xr` moves across the finite sum (`headK_eq_headR`).
  The three results are the logistic of the first four heads, twice the logistic of the next four, and twenty
  rounds of row-then-column normalisation (each divisor a sum plus ε₂) of the exponentials of the last sixteen,
  read as a 4 × 4 matrix.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- ε₁ = 2⁻²³, ε₂ = the single nearest 10⁻⁶, and the literals 4096, 2, 1: each the word both programs spell. -/
abbrev eps1 : EReal := Ideal.ofBits .f32 0x34000000#32
abbrev eps2 : EReal := Ideal.ofBits .f32 0x358637BD#32
abbrev c4096 : EReal := Ideal.ofBits .f32 0x45800000#32
abbrev c2 : EReal := Ideal.ofBits .f32 0x40000000#32

theorem ofBits_one : Ideal.ofBits .f32 0x3F800000#32 = 1 := by
  simp [Ideal.ofBits, Ideal.ieee, -EReal.coe_mul]; norm_num
theorem c4096_eq : c4096 = ((4096 : ℝ) : EReal) := by
  simp [c4096, Ideal.ofBits, Ideal.ieee, -EReal.coe_mul]; norm_num
theorem eps1_eq : eps1 = (((2 : ℝ) ^ (-23 : ℤ) : ℝ) : EReal) := by
  simp [eps1, Ideal.ofBits, Ideal.ieee, -EReal.coe_mul]; norm_num

/-- The row's inverse root-mean-square. -/
def inv {ι : Type} [Fintype ι] (xr : ι → EReal) : EReal :=
  Ideal.rsqrt (Ideal.div (∑ d, xr d * xr d) c4096 + eps1)

/-- A head entry, normalise-then-project (the reference's order). -/
def headR {ι : Type} [Fintype ι] (xr nw wr : ι → EReal) (α β : EReal) : EReal :=
  α * (∑ d, (xr d * inv xr * nw d) * wr d) + β

/-- A head entry, project-then-rescale (the kernel's order). -/
def headK {ι : Type} [Fintype ι] (xr nw wr : ι → EReal) (α β : EReal) : EReal :=
  (∑ d, xr d * (wr d * nw d)) * inv xr * α + β

/-- One row normalisation of a 4 × 4 matrix: each entry over its row's sum plus ε₂. -/
def rowN (M : Fin 4 → Fin 4 → EReal) : Fin 4 → Fin 4 → EReal :=
  fun r j => Ideal.div (M r j) ((∑ j', M r j') + eps2)

/-- One column normalisation: each entry over its column's sum plus ε₂. -/
def colN (M : Fin 4 → Fin 4 → EReal) : Fin 4 → Fin 4 → EReal :=
  fun r j => Ideal.div (M r j) ((∑ r', M r' j) + eps2)

/-- Twenty rounds, rows first. -/
def sink (M : Fin 4 → Fin 4 → EReal) : Fin 4 → Fin 4 → EReal := (fun N => colN (rowN N))^[20] M

/-- Row `4 r + j` of the sixteen residual heads. -/
def f16 (r j : Fin 4) : Fin 16 := ⟨4 * r.val + j.val, by omega⟩

section Results

variable (X : (⟨2, ![32768, 4096]⟩ : Shape).Idx → EReal) (NW : (⟨1, ![4096]⟩ : Shape).Idx → EReal)
  (Wp Wq : (⟨2, ![4, 4096]⟩ : Shape).Idx → EReal) (Wr : (⟨2, ![16, 4096]⟩ : Shape).Idx → EReal)
  (Bp Bq : (⟨1, ![4]⟩ : Shape).Idx → EReal) (Br : (⟨1, ![16]⟩ : Shape).Idx → EReal)
  (Ap Aq Ar : (⟨0, ![]⟩ : Shape).Idx → EReal)

/-- Row `b` of the flattened input, the norm weight, and a weight row, as functions of the feature. -/
abbrev xrow (b : Fin 32768) : Fin 4096 → EReal := fun d => X (ix2 b d)
abbrev nwf : Fin 4096 → EReal := fun d => NW (ix1 d)

/-- The pre-activation heads, in either order of operations (`h` is `headR` or `headK`). -/
def preH (h : (Fin 4096 → EReal) → (Fin 4096 → EReal) → (Fin 4096 → EReal) → EReal → EReal → EReal)
    (b : Fin 32768) (i : Fin 4) : EReal :=
  h (xrow X b) (nwf NW) (fun d => Wp (ix2 i d)) (Ap ix0) (Bp (ix1 i))
def postH (h : (Fin 4096 → EReal) → (Fin 4096 → EReal) → (Fin 4096 → EReal) → EReal → EReal → EReal)
    (b : Fin 32768) (i : Fin 4) : EReal :=
  h (xrow X b) (nwf NW) (fun d => Wq (ix2 i d)) (Aq ix0) (Bq (ix1 i))
def resH (h : (Fin 4096 → EReal) → (Fin 4096 → EReal) → (Fin 4096 → EReal) → EReal → EReal → EReal)
    (b : Fin 32768) (k : Fin 16) : EReal :=
  h (xrow X b) (nwf NW) (fun d => Wr (ix2 k d)) (Ar ix0) (Br (ix1 k))

/-- The three results, index by index. -/
def outPre (h : (Fin 4096 → EReal) → (Fin 4096 → EReal) → (Fin 4096 → EReal) → EReal → EReal → EReal) :
    (⟨2, ![32768, 4]⟩ : Shape).Idx → EReal :=
  fun i => Ideal.logistic (preH X NW Wp Bp Ap h (i 0) (i 1))
def outPost (h : (Fin 4096 → EReal) → (Fin 4096 → EReal) → (Fin 4096 → EReal) → EReal → EReal → EReal) :
    (⟨2, ![32768, 4]⟩ : Shape).Idx → EReal :=
  fun i => c2 * Ideal.logistic (postH X NW Wq Bq Aq h (i 0) (i 1))
def outRes (h : (Fin 4096 → EReal) → (Fin 4096 → EReal) → (Fin 4096 → EReal) → EReal → EReal → EReal) :
    (⟨3, ![32768, 4, 4]⟩ : Shape).Idx → EReal :=
  fun i => sink (fun r j => Ideal.exp (resH X NW Wr Br Ar h (i 0) (f16 r j))) (i 1) (i 2)

end Results

/-! ## The law joining the two orders -/

/-- A finite sum of reals, coerced. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inverse root-mean-square of a row of reals is a real. -/
theorem inv_real {ι : Type} [Fintype ι] (x : ι → ℝ) : ∃ v : ℝ, inv (fun d => (x d : EReal)) = (v : EReal) := by
  unfold inv
  have hs : (∑ d, ((x d : EReal) * (x d : EReal))) = ((∑ d, x d * x d : ℝ) : EReal) := by
    rw [coe_sum]; simp only [EReal.coe_mul]
  rw [hs, c4096_eq, Ideal.div_coe (by norm_num : (4096 : ℝ) ≠ 0), eps1_eq, ← EReal.coe_mul, ← EReal.coe_add]
  have hnn : 0 ≤ ∑ d, x d * x d := Finset.sum_nonneg fun d _ => mul_self_nonneg (x d)
  have hpos : 0 < (∑ d, x d * x d) * (1 / 4096) + (2 : ℝ) ^ (-23 : ℤ) := by positivity
  rw [Ideal.rsqrt_coe, if_neg (not_lt.mpr hpos.le), if_neg hpos.ne']
  exact ⟨_, rfl⟩

/-- With every factor real, projecting then rescaling is normalising then projecting. -/
theorem headK_eq_headR {ι : Type} [Fintype ι] (x nw w : ι → ℝ) (a : ℝ) (β : EReal) :
    headK (fun d => (x d : EReal)) (fun d => (nw d : EReal)) (fun d => (w d : EReal)) (a : EReal) β
      = headR (fun d => (x d : EReal)) (fun d => (nw d : EReal)) (fun d => (w d : EReal)) (a : EReal) β := by
  obtain ⟨v, hv⟩ := inv_real x
  unfold headK headR
  rw [hv]
  have key : (∑ d, (x d : EReal) * ((w d : EReal) * (nw d : EReal))) * (v : EReal) * (a : EReal)
      = (a : EReal) * ∑ d, ((x d : EReal) * (v : EReal) * (nw d : EReal)) * (w d : EReal) := by
    simp only [← EReal.coe_mul, ← coe_sum]
    refine congrArg _ ?_
    rw [Finset.sum_mul, Finset.sum_mul, Finset.mul_sum]
    exact Finset.sum_congr rfl fun d _ => by ring
  rw [key]

end Cert.Spec

end
-- ==== Proof.KSink.lean ====
/-
  The lane-dense Sinkhorn rounds read lane by lane. At lane `b`, block `r` of a state holds row `r` of a 4 × 4 matrix, its
  columns `j` along the sublanes: `matOf s b r j`. A block over its sublane sums plus ε₂ is the row normalisation of that
  matrix; the blocks over their sum plus ε₂ the column normalisation; so one round of the kernel is one round of the
  specification at every lane, and twenty are twenty.
-/
import proofs.«113674_j80951543595212_2_alg».proof.Proof.KBody
import proofs.«113674_j80951543595212_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic
open Idealize.ShloMosaic.ValueIdx

/-- The source index of a sublane sum: coordinate `k` on the dropped axis, the lane kept. -/
theorem lift_sublane (h : S4x512.Reduces [0] S512) (b : Fin 512) (k : Fin 4) :
    h.lift (ix1 b) k = ix2 k b :=
  funext fun c => match c with | ⟨0, _⟩ => Fin.ext rfl | ⟨1, _⟩ => Fin.ext rfl

/-- A sublane sum at lane `b`: the four sublanes' entries, added. -/
theorem sublane_sum_apply (B : FVec Ideal S4x512 .f32) (h : S4x512.Reduces [0] S512) (hφ : FKind.Formats .f32)
    (hacc : (0x00000000#32 : BitVec 32) = 0x00000000#32) (b : Fin 512) :
    multiReduction .add [0] S512 B 0x00000000#32 h hφ hacc (ix1 b) = ∑ k : Fin 4, B (ix2 k b) := by
  refine (Ideal.multiReduction_add_single B 0x00000000#32 h hφ hacc (ix1 b)).trans ?_
  exact Finset.sum_congr rfl fun k _ => congrArg B (lift_sublane h b k)

/-- A block over its sublane sums plus ε₂, at sublane `j` and lane `b`. -/
theorem kRow_apply (B : FVec Ideal S4x512 .f32) (j : Fin 4) (b : Fin 512) :
    kRow B (ix2 j b) = Ideal.div (B (ix2 j b)) ((∑ k : Fin 4, B (ix2 k b)) + Cert.Spec.eps2) := by
  unfold kRow
  rw [divf_apply]
  refine congrArg (Ideal.div (B (ix2 j b))) ?_
  refine (broadcastTo_1b_ab_apply _ _ j b).trans ?_
  rw [addf_apply]
  refine congrArg₂ (· + ·) ?_ rfl
  refine (shapeCast_a_1a_apply _ _ (0 : Fin 1) b).trans ?_
  exact sublane_sum_apply B _ _ _ b

/-- Block `r` of a state. -/
def blk (s : Blk4 Ideal) : Fin 4 → FVec Ideal S4x512 .f32
  | ⟨0, _⟩ => s.b0
  | ⟨1, _⟩ => s.b1
  | ⟨2, _⟩ => s.b2
  | ⟨3, _⟩ => s.b3

/-- The 4 × 4 matrix a state holds at lane `b`. -/
def matOf (s : Blk4 Ideal) (b : Fin 512) : Fin 4 → Fin 4 → EReal := fun r j => blk s r (ix2 j b)

/-- The blocks' sum plus ε₂ at an index. -/
theorem kColDen_apply (r0 r1 r2 r3 : FVec Ideal S4x512 .f32) (i : S4x512.Idx) :
    kColDen r0 r1 r2 r3 i = (r0 i + r1 i + r2 i + r3 i) + Cert.Spec.eps2 := rfl

/-- One round of the kernel is one round of the specification, lane by lane. -/
theorem matOf_kIter (s : Blk4 Ideal) (b : Fin 512) :
    matOf (kIter s) b = Cert.Spec.colN (Cert.Spec.rowN (matOf s b)) := by
  have hrow : ∀ (r j : Fin 4), kRow (blk s r) (ix2 j b) = Cert.Spec.rowN (matOf s b) r j := fun r j => kRow_apply _ j b
  have hden : ∀ j : Fin 4, kColDen (kRow s.b0) (kRow s.b1) (kRow s.b2) (kRow s.b3) (ix2 j b)
      = (∑ r' : Fin 4, Cert.Spec.rowN (matOf s b) r' j) + Cert.Spec.eps2 := by
    intro j
    rw [kColDen_apply, Fin.sum_univ_four]
    rw [← hrow 0 j, ← hrow 1 j, ← hrow 2 j, ← hrow 3 j]
    rfl
  funext r j
  unfold Cert.Spec.colN
  rw [← hden j, ← hrow r j]
  match r with
  | ⟨0, _⟩ => rfl
  | ⟨1, _⟩ => rfl
  | ⟨2, _⟩ => rfl
  | ⟨3, _⟩ => rfl

/-- Any number of rounds. -/
theorem matOf_iterate (n : ℕ) (s : Blk4 Ideal) (b : Fin 512) :
    matOf (kIter^[n] s) b = (fun N => Cert.Spec.colN (Cert.Spec.rowN N))^[n] (matOf s b) := by
  induction n generalizing s with
  | zero => rfl
  | succ n ih => rw [Function.iterate_succ_apply, Function.iterate_succ_apply, ih, matOf_kIter]

/-- Twenty rounds are the specification's. -/
theorem matOf_sink (s : Blk4 Ideal) (b : Fin 512) : matOf (kIter^[20] s) b = Cert.Spec.sink (matOf s b) :=
  matOf_iterate 20 s b

end Cert.KernelIdeal.Hand

end
-- ==== Proof.KComb.lean ====
/-
  The combined heads read at an index. At column `f` and lane `b` of the 24 × 512 block:
      (Σ_d x[b, d] · w[d, f]) · inv(x[b, ·]) · scale[f] + bias[f],
  the matrix product a plain sum over the 4096 features, `inv` the inverse root-mean-square of row `b`.
  Also: what the starting Sinkhorn state and the stored block hold, entry by entry.
-/
import proofs.«113674_j80951543595212_2_alg».proof.Proof.KSink

noncomputable section

namespace Cert.KernelIdeal.Hand

open Cert.KernelIdeal Cert.KernelIdeal.Gen Idealize.ShloMosaic
open Idealize.ShloMosaic.ValueIdx

/-! ## Small layout reads -/

/-- The source index of a feature sum: coordinate `k` on the dropped axis, the row kept. -/
theorem lift_feature (h : S512x4096.Reduces [1] S512) (b : Fin 512) (k : Fin 4096) :
    h.lift (ix1 b) k = ix2 b k :=
  funext fun c => match c with | ⟨0, _⟩ => Fin.ext rfl | ⟨1, _⟩ => Fin.ext rfl

/-- A sum over the features of row `b`. -/
theorem feature_sum_apply (A : FVec Ideal S512x4096 .f32) (h : S512x4096.Reduces [1] S512) (hφ : FKind.Formats .f32)
    (hacc : (0x00000000#32 : BitVec 32) = 0x00000000#32) (b : Fin 512) :
    multiReduction .add [1] S512 A 0x00000000#32 h hφ hacc (ix1 b) = ∑ k : Fin 4096, A (ix2 b k) := by
  refine (Ideal.multiReduction_add_single A 0x00000000#32 h hφ hacc (ix1 b)).trans ?_
  exact Finset.sum_congr rfl fun k _ => congrArg A (lift_feature h b k)

/-- A vector of 512 entries stood up as a column reads, at `(b, u)`, its entry `b`. -/
theorem col_cast_apply (x : FVec Ideal S512 .f32) (h : S512.ShapeCasts S512x1) (b : Fin 512) (u : Fin 1) :
    shapeCast S512x1 x h (ix2 b u) = x (ix1 b) :=
  shapeCast_apply x h _ _ (by
    rw [Shape.rowMajor_val_two, Shape.rowMajor_val_one]
    show b.val = b.val * 1 + u.val
    have := u.isLt
    omega)

/-- A column laid along 24 columns reads, at `(b, f)`, the column's entry `b`. -/
theorem col_bcast_apply (v : FVec Ideal S512x1 .f32) (h : S512x1.Broadcasts S512x24) (b : Fin 512) (f : Fin 24) :
    broadcastTo S512x24 v h (ix2 b f) = v (ix2 b (0 : Fin 1)) := by
  refine broadcastTo_apply v h (ix2 b f) (ix2 b (0 : Fin 1)) fun ax => ?_
  match ax with
  | ⟨0, _⟩ =>
    show b.val = if (512 : ℕ) = 1 then 0 else b.val
    rw [if_neg (by decide)]
  | ⟨1, _⟩ => rfl

/-- A vector of 24 entries laid along each of 512 rows reads, at `(b, f)`, its entry `f`. -/
theorem row_bcast_apply (v : FVec Ideal S24 .f32) (h0 : S24.ShapeCasts S24) (h1 : S24.ShapeCasts S1x24)
    (h2 : S1x24.Broadcasts S512x24) (b : Fin 512) (f : Fin 24) :
    broadcastTo S512x24 (shapeCast S1x24 (shapeCast S24 v h0) h1) h2 (ix2 b f) = v (ix1 f) := by
  refine (broadcastTo_1b_ab_apply _ h2 b f).trans ?_
  refine (shapeCast_a_1a_apply _ h1 (0 : Fin 1) f).trans ?_
  rw [shapeCast_self]

/-- The block's matrix product into a zero accumulator, at `(b, f)`: the plain sum over the features. -/
theorem block_matmul_apply (A : FVec Ideal S512x4096 .bf16) (B : FVec Ideal S4096x24 .bf16) (b : Fin 512) (f : Fin 24) :
    matmul dot_S512x4096_S4096x24_S512x24_1_0_0_1_n_n none A B (constant S512x24 .f32 0x00000000#32) (ix2 b f)
      = ∑ d : Fin 4096, A (ix2 b d) * B (ix2 d f) := by
  show FloatOps.matmul dot_S512x4096_S4096x24_S512x24_1_0_0_1_n_n none A B (constant S512x24 .f32 0x00000000#32) (ix2 b f) = _
  rw [Ideal.matmul_constant_zero_apply,
    ← Equiv.sum_comp (contrEquiv1 dot_S512x4096_S4096x24_S512x24_1_0_0_1_n_n 4096 rfl rfl).symm]
  refine Finset.sum_congr rfl fun d _ => ?_
  have c2 := contrEquiv1_symm_val dot_S512x4096_S4096x24_S512x24_1_0_0_1_n_n 4096 rfl rfl d
  have l2 : dot_S512x4096_S4096x24_S512x24_1_0_0_1_n_n.lhsIdx (ix2 b f)
      ((contrEquiv1 dot_S512x4096_S4096x24_S512x24_1_0_0_1_n_n 4096 rfl rfl).symm d) = ix2 b d := by
    funext ax; apply Fin.ext
    match ax with
    | ⟨0, _⟩ => simp [DotDims.lhsIdx, dot_S512x4096_S4096x24_S512x24_1_0_0_1_n_n]; rfl
    | ⟨1, _⟩ => simp [DotDims.lhsIdx, dot_S512x4096_S4096x24_S512x24_1_0_0_1_n_n]; exact c2
  have r2 : dot_S512x4096_S4096x24_S512x24_1_0_0_1_n_n.rhsIdx (ix2 b f)
      ((contrEquiv1 dot_S512x4096_S4096x24_S512x24_1_0_0_1_n_n 4096 rfl rfl).symm d) = ix2 d f := by
    funext ax; apply Fin.ext
    match ax with
    | ⟨0, _⟩ => simp [DotDims.rhsIdx, dot_S512x4096_S4096x24_S512x24_1_0_0_1_n_n]; exact c2
    | ⟨1, _⟩ => simp [DotDims.rhsIdx, dot_S512x4096_S4096x24_S512x24_1_0_0_1_n_n]; rfl
  rw [l2, r2]

/-! ## The combined heads -/

/-- The row's inverse root-mean-square, as the body computes it, at `(b, u)`. -/
theorem invrms_apply (v1 : FVec Ideal S512x4096 .f32) (hr : S512x4096.Reduces [1] S512) (hφ : FKind.Formats .f32)
    (hacc : (0x00000000#32 : BitVec 32) = 0x00000000#32) (hc : S512.ShapeCasts S512x1) (b : Fin 512) (u : Fin 1) :
    (rsqrt (addf (divf (shapeCast S512x1 (multiReduction .add [1] S512 (mulf v1 v1) 0x00000000#32 hr hφ hacc) hc)
        (broadcast S512x1 (Scalar.ofBits .f32 0x45800000#32))) (broadcast S512x1 (Scalar.ofBits .f32 0x34000000#32))) : FVec Ideal S512x1 .f32) (ix2 b u)
      = Cert.Spec.inv (fun d : Fin 4096 => v1 (ix2 b d)) := by
  have e : shapeCast S512x1 (multiReduction .add [1] S512 (mulf v1 v1) 0x00000000#32 hr hφ hacc) hc (ix2 b u)
      = ∑ d : Fin 4096, v1 (ix2 b d) * v1 (ix2 b d) :=
    (col_cast_apply _ hc b u).trans (feature_sum_apply (mulf v1 v1) hr hφ hacc b)
  show Ideal.rsqrt (Ideal.div (shapeCast S512x1 (multiReduction .add [1] S512 (mulf v1 v1) 0x00000000#32 hr hφ hacc) hc (ix2 b u))
      Cert.Spec.c4096 + Cert.Spec.eps1) = _
  rw [e]
  rfl

/-- The combined heads at column `f`, lane `b`. -/
theorem kComb_apply (v0 : FVec Ideal S512x4096 .f32) (v11 : FVec Ideal S4096x24 .bf16) (v16 v21 : FVec Ideal S24 .f32)
    (f : Fin 24) (b : Fin 512) :
    kComb v0 v11 v16 v21 (ix2 f b)
      = (∑ d : Fin 4096, v0 (ix2 b d) * v11 (ix2 d f)) * Cert.Spec.inv (fun d : Fin 4096 => v0 (ix2 b d)) * v16 (ix1 f)
        + v21 (ix1 f) := by
  unfold kComb
  dsimp only
  refine (transpose_ix2_apply _ _ f b).trans ?_
  rw [addf_apply, mulf_apply, mulf_apply, row_bcast_apply, row_bcast_apply, col_bcast_apply, invrms_apply,
    block_matmul_apply, shapeCast_self, shapeCast_self]
  rfl

end Cert.KernelIdeal.Hand

end
-- ==== Proof.KOut.lean ====
/-
  The stored 24 × 512 block read entry by entry: rows 0–3 the logistic of the combined heads, rows 4–7 twice the
  logistic, row `8 + 4 r + j` entry `(r, j)` of twenty Sinkhorn rounds of the exponentials of rows 8–23, lane by lane.
-/
import proofs.«113674_j80951543595212_2_alg».proof.Proof.KComb

noncomputable section

namespace Cert.KernelIdeal.Hand

open Cert.KernelIdeal Cert.KernelIdeal.Gen Idealize.ShloMosaic
open Idealize.ShloMosaic.ValueIdx

/-- The rows of the 24-row block: the four pre heads, the four post heads, the sixteen residual heads. -/
def fPre (i : Fin 4) : Fin 24 := ⟨i.val, by omega⟩
def fPost (i : Fin 4) : Fin 24 := ⟨4 + i.val, by omega⟩
def fRes (r j : Fin 4) : Fin 24 := ⟨8 + (4 * r.val + j.val), by omega⟩
/-- Row `4 r + j` of the sixteen. -/
def f16 (r j : Fin 4) : Fin 16 := ⟨4 * r.val + j.val, by omega⟩

/-- The starting state at lane `b`: the exponentials of rows 8–23, as a 4 × 4 matrix. -/
theorem matOf_kInit (v26 : FVec Ideal S24x512 .f32) (b : Fin 512) :
    matOf (kInit v26) b = fun r j => Ideal.exp (v26 (ix2 (fRes r j) b)) := by
  have key : ∀ (o : ℕ) (h : S16x512.Slices ![o, 0] S4x512) (r j : Fin 4) (ho : o = 4 * r.val),
      extractStridedSlice S4x512 ![o, 0] (exp (extractStridedSlice S16x512 ![8, 0] v26 slices_S24x512_o8_0_S16x512)) h (ix2 j b)
        = Ideal.exp (v26 (ix2 (fRes r j) b)) := by
    intro o h r j ho
    refine (slice2_axis0_apply o _ h j b (f16 r j) (by rw [ho]; rfl)).trans ?_
    show Ideal.exp (extractStridedSlice S16x512 ![8, 0] v26 slices_S24x512_o8_0_S16x512 (ix2 (f16 r j) b)) = _
    exact congrArg Ideal.exp (slice2_axis0_apply 8 v26 _ (f16 r j) b (fRes r j) rfl)
  funext r j
  match r with
  | ⟨0, _⟩ => exact key 0 slices_S16x512_o0_0_S4x512 0 j rfl
  | ⟨1, _⟩ => exact key 4 slices_S16x512_o4_0_S4x512 1 j rfl
  | ⟨2, _⟩ => exact key 8 slices_S16x512_o8_0_S4x512 2 j rfl
  | ⟨3, _⟩ => exact key 12 slices_S16x512_o12_0_S4x512 3 j rfl

/-- Rows 0–3 of the stored block. -/
theorem kOut_pre (v26 : FVec Ideal S24x512 .f32) (s : Blk4 Ideal) (i : Fin 4) (b : Fin 512) :
    kOut v26 s (ix2 (fPre i) b) = Ideal.logistic (v26 (ix2 (fPre i) b)) := by
  unfold kOut
  refine (concatenate_apply_piece 0 _ _ (ix2 (fPre i) b) 0 (by simp) S4x512 _ rfl rfl 0 rfl (ix2 i b)
    (fun ax hne => match ax with | ⟨0, _⟩ => absurd rfl hne | ⟨1, _⟩ => rfl) (Nat.zero_add _)).trans ?_
  show Ideal.logistic (extractStridedSlice S4x512 ![0, 0] v26 slices_S24x512_o0_0_S4x512 (ix2 i b)) = _
  exact congrArg Ideal.logistic (slice2_axis0_apply 0 v26 _ i b (fPre i) (Nat.zero_add _).symm)

/-- Rows 4–7. -/
theorem kOut_post (v26 : FVec Ideal S24x512 .f32) (s : Blk4 Ideal) (i : Fin 4) (b : Fin 512) :
    kOut v26 s (ix2 (fPost i) b) = Cert.Spec.c2 * Ideal.logistic (v26 (ix2 (fPost i) b)) := by
  unfold kOut
  refine (concatenate_apply_piece 0 _ _ (ix2 (fPost i) b) 1 (by simp) S4x512 _ rfl rfl 4 rfl (ix2 i b)
    (fun ax hne => match ax with | ⟨0, _⟩ => absurd rfl hne | ⟨1, _⟩ => rfl) rfl).trans ?_
  show Cert.Spec.c2 * Ideal.logistic (extractStridedSlice S4x512 ![4, 0] v26 slices_S24x512_o4_0_S4x512 (ix2 i b)) = _
  exact congrArg (fun z => Cert.Spec.c2 * Ideal.logistic z) (slice2_axis0_apply 4 v26 _ i b (fPost i) rfl)

/-- Rows 8–23: entry `(r, j)` of the final state's matrix at the lane. -/
theorem kOut_res (v26 : FVec Ideal S24x512 .f32) (s : Blk4 Ideal) (r j : Fin 4) (b : Fin 512) :
    kOut v26 s (ix2 (fRes r j) b) = matOf s b r j := by
  unfold kOut
  refine (concatenate_apply_piece 0 _ _ (ix2 (fRes r j) b) 2 (by simp) S16x512 _ rfl rfl 8 rfl (ix2 (f16 r j) b)
    (fun ax hne => match ax with | ⟨0, _⟩ => absurd rfl hne | ⟨1, _⟩ => rfl) rfl).trans ?_
  match r with
  | ⟨0, _⟩ =>
    exact concatenate_apply_piece 0 _ _ (ix2 (f16 0 j) b) 0 (by simp) S4x512 _ rfl rfl 0 rfl (ix2 j b)
      (fun ax hne => match ax with | ⟨0, _⟩ => absurd rfl hne | ⟨1, _⟩ => rfl) rfl
  | ⟨1, _⟩ =>
    exact concatenate_apply_piece 0 _ _ (ix2 (f16 1 j) b) 1 (by simp) S4x512 _ rfl rfl 4 rfl (ix2 j b)
      (fun ax hne => match ax with | ⟨0, _⟩ => absurd rfl hne | ⟨1, _⟩ => rfl) rfl
  | ⟨2, _⟩ =>
    exact concatenate_apply_piece 0 _ _ (ix2 (f16 2 j) b) 2 (by simp) S4x512 _ rfl rfl 8 rfl (ix2 j b)
      (fun ax hne => match ax with | ⟨0, _⟩ => absurd rfl hne | ⟨1, _⟩ => rfl) rfl
  | ⟨3, _⟩ =>
    exact concatenate_apply_piece 0 _ _ (ix2 (f16 3 j) b) 3 (by simp) S4x512 _ rfl rfl 12 rfl (ix2 j b)
      (fun ax hne => match ax with | ⟨0, _⟩ => absurd rfl hne | ⟨1, _⟩ => rfl) rfl

/-! ## The body's value, entry by entry -/

variable (v0 : FVec Ideal S512x4096 .f32) (v11 : FVec Ideal S4096x24 .bf16) (v16 v21 : FVec Ideal S24 .f32)

theorem kbody_pre (i : Fin 4) (b : Fin 512) :
    kbody (F := Ideal) v0 v11 v16 v21 (ix2 (fPre i) b) = Ideal.logistic (kComb (F := Ideal) v0 v11 v16 v21 (ix2 (fPre i) b)) :=
  kOut_pre _ _ i b

theorem kbody_post (i : Fin 4) (b : Fin 512) :
    kbody (F := Ideal) v0 v11 v16 v21 (ix2 (fPost i) b) = Cert.Spec.c2 * Ideal.logistic (kComb (F := Ideal) v0 v11 v16 v21 (ix2 (fPost i) b)) :=
  kOut_post _ _ i b

theorem kbody_res (r j : Fin 4) (b : Fin 512) :
    kbody (F := Ideal) v0 v11 v16 v21 (ix2 (fRes r j) b)
      = Cert.Spec.sink (fun r j => Ideal.exp (kComb (F := Ideal) v0 v11 v16 v21 (ix2 (fRes r j) b))) r j := by
  refine (kOut_res _ _ r j b).trans ?_
  rw [matOf_sink, matOf_kInit]

end Cert.KernelIdeal.Hand

end
-- ==== Proof.KPrefix.lean ====
/-
  What the region finds in its four operand arrays, as functions of the eleven arguments (the host operations before
  the region, read at an index):
    the flattened input                x[b, d]                          (a reshape of the 32768 × 4 × 1024 argument),
    the combined weights               w[d, f] = Wcat[f, d] · nw[d]     (the three weight matrices stacked, times the
                                                                         norm weight along each row, transposed),
    the per-column scale and bias      the three scalars laid over 4, 4 and 16 columns; the three biases stacked.
-/
import proofs.«113674_j80951543595212_2_alg».proof.Proof.Gen.KernelIdeal.Launch
import proofs.«113674_j80951543595212_2_alg».proof.Proof.KOut
import Idealize.ShloMosaic.Lib.StableHlo.Run

noncomputable section

namespace Cert.KernelIdeal.Hand

open Cert.KernelIdeal Cert.KernelIdeal.Gen Idealize.ShloMosaic Idealize.ShloMosaic.StableHlo
open Idealize.ShloMosaic.ValueIdx

variable (M : Valuation τ sig (Elt Ideal))

/-- The arguments as the launch holds them. -/
abbrev argX : FVec Ideal S32768x4x1024 .f32 := M (Proc.devRef .tc main_arg0)
abbrev argNW : FVec Ideal S4096 .f32 := M (Proc.devRef .tc main_arg1)
abbrev argWp : FVec Ideal S4x4096 .f32 := M (Proc.devRef .tc main_arg2)
abbrev argWq : FVec Ideal S4x4096 .f32 := M (Proc.devRef .tc main_arg3)
abbrev argWr : FVec Ideal S16x4096 .f32 := M (Proc.devRef .tc main_arg4)
abbrev argBp : FVec Ideal S4 .f32 := M (Proc.devRef .tc main_arg5)
abbrev argBq : FVec Ideal S4 .f32 := M (Proc.devRef .tc main_arg6)
abbrev argBr : FVec Ideal S16 .f32 := M (Proc.devRef .tc main_arg7)
abbrev argAp : FVec Ideal S_ .f32 := M (Proc.devRef .tc main_arg8)
abbrev argAq : FVec Ideal S_ .f32 := M (Proc.devRef .tc main_arg9)
abbrev argAr : FVec Ideal S_ .f32 := M (Proc.devRef .tc main_arg10)

/-- The flattened input. -/
abbrev flatX : FVec Ideal S32768x4096 .f32 := shapeCast S32768x4096 (argX M) shapeCasts_S32768x4x1024_S32768x4096

theorem pre_v0 : (after (hostOps0 (F := Ideal)) M (Proc.devRef .tc main_v0) : FVec Ideal S32768x4096 .f32) = flatX M := by
  after_results; rfl

/-- The combined, norm-weighted, transposed weights. -/
abbrev combW : FVec Ideal S4096x24 .bf16 :=
  truncf .bf16 (transpose S4096x24 [1, 0]
    (mulf (concatenate S24x4096 0 [⟨S4x4096, argWp M⟩, ⟨S4x4096, argWq M⟩, ⟨S16x4096, argWr M⟩] concatenates_S4x4096_S4x4096_S16x4096_S24x4096_d0)
      (broadcastInDim S24x4096 ![0, 1] bcast_S1x4096_S24x4096_0_1 (broadcastInDim S1x4096 ![1] bcast_S4096_S1x4096_1 (argNW M))))
    transposes_S24x4096_S4096x24_1_0) bitsLt_bf16_f32

theorem pre_v6 : (after (hostOps0 (F := Ideal)) M (Proc.devRef .tc main_v6) : FVec Ideal S4096x24 .bf16) = combW M := by
  after_results; rfl

/-- The per-column scale and bias. -/
abbrev scaleV : FVec Ideal S24 .f32 :=
  concatenate S24 0 [⟨S4, broadcastInDim S4 ![] bcast_S_S4 (argAp M)⟩, ⟨S4, broadcastInDim S4 ![] bcast_S_S4 (argAq M)⟩,
    ⟨S16, broadcastInDim S16 ![] bcast_S_S16 (argAr M)⟩] concatenates_S4_S4_S16_S24_d0
abbrev biasV : FVec Ideal S24 .f32 :=
  concatenate S24 0 [⟨S4, argBp M⟩, ⟨S4, argBq M⟩, ⟨S16, argBr M⟩] concatenates_S4_S4_S16_S24_d0

theorem pre_v10 : (after (hostOps0 (F := Ideal)) M (Proc.devRef .tc main_v10) : FVec Ideal S24 .f32) = scaleV M := by
  after_results; rfl
theorem pre_v11 : (after (hostOps0 (F := Ideal)) M (Proc.devRef .tc main_v11) : FVec Ideal S24 .f32) = biasV M := by
  after_results; rfl

/-! ## Read at an index -/

/-- The norm weight laid over the 24 rows, at `(f, d)`. -/
theorem nw_bcast_apply (f : Fin 24) (d : Fin 4096) :
    broadcastInDim S24x4096 ![0, 1] bcast_S1x4096_S24x4096_0_1 (broadcastInDim S1x4096 ![1] bcast_S4096_S1x4096_1 (argNW M)) (ix2 f d)
      = argNW M (ix1 d) := by
  refine (broadcastInDim_apply _ _ _ (ix2 f d) (ix2 (0 : Fin 1) d) fun a => ?_).trans ?_
  · match a with
    | ⟨0, _⟩ => rfl
    | ⟨1, _⟩ =>
      show d.val = if (4096 : ℕ) = 1 then 0 else d.val
      rw [if_neg (by decide)]
  · refine broadcastInDim_apply _ _ _ (ix2 (0 : Fin 1) d) (ix1 d) fun a => ?_
    match a with
    | ⟨0, _⟩ =>
      show d.val = if (4096 : ℕ) = 1 then 0 else d.val
      rw [if_neg (by decide)]

/-- The stacked weights at a pre row, a post row, a residual row. -/
theorem wcat_pre (i : Fin 4) (d : Fin 4096) :
    concatenate S24x4096 0 [⟨S4x4096, argWp M⟩, ⟨S4x4096, argWq M⟩, ⟨S16x4096, argWr M⟩] concatenates_S4x4096_S4x4096_S16x4096_S24x4096_d0
      (ix2 (fPre i) d) = argWp M (ix2 i d) :=
  concatenate_apply_piece 0 _ _ (ix2 (fPre i) d) 0 (by simp) S4x4096 _ rfl rfl 0 rfl (ix2 i d)
    (fun ax hne => match ax with | ⟨0, _⟩ => absurd rfl hne | ⟨1, _⟩ => rfl) (Nat.zero_add _)
theorem wcat_post (i : Fin 4) (d : Fin 4096) :
    concatenate S24x4096 0 [⟨S4x4096, argWp M⟩, ⟨S4x4096, argWq M⟩, ⟨S16x4096, argWr M⟩] concatenates_S4x4096_S4x4096_S16x4096_S24x4096_d0
      (ix2 (fPost i) d) = argWq M (ix2 i d) :=
  concatenate_apply_piece 0 _ _ (ix2 (fPost i) d) 1 (by simp) S4x4096 _ rfl rfl 4 rfl (ix2 i d)
    (fun ax hne => match ax with | ⟨0, _⟩ => absurd rfl hne | ⟨1, _⟩ => rfl) rfl
theorem wcat_res (r j : Fin 4) (d : Fin 4096) :
    concatenate S24x4096 0 [⟨S4x4096, argWp M⟩, ⟨S4x4096, argWq M⟩, ⟨S16x4096, argWr M⟩] concatenates_S4x4096_S4x4096_S16x4096_S24x4096_d0
      (ix2 (fRes r j) d) = argWr M (ix2 (f16 r j) d) :=
  concatenate_apply_piece 0 _ _ (ix2 (fRes r j) d) 2 (by simp) S16x4096 _ rfl rfl 8 rfl (ix2 (f16 r j) d)
    (fun ax hne => match ax with | ⟨0, _⟩ => absurd rfl hne | ⟨1, _⟩ => rfl) rfl

/-- The combined weights at `(d, f)`: the stacked weights' row `f` at `d`, times the norm weight at `d`. -/
theorem combW_apply (d : Fin 4096) (f : Fin 24) :
    combW M (ix2 d f)
      = concatenate S24x4096 0 [⟨S4x4096, argWp M⟩, ⟨S4x4096, argWq M⟩, ⟨S16x4096, argWr M⟩] concatenates_S4x4096_S4x4096_S16x4096_S24x4096_d0 (ix2 f d)
        * argNW M (ix1 d) := by
  refine (truncf_apply _ bitsLt_bf16_f32 (ix2 d f)).trans ?_
  refine (transpose_ix2_apply _ _ d f).trans ?_
  rw [mulf_apply, nw_bcast_apply]

/-- A scalar laid over `n` entries reads the scalar. -/
theorem scalar_bcast_apply {n : ℕ} (h : S_.BroadcastsInDim ⟨1, ![n]⟩ ![]) (a : FVec Ideal S_ .f32) (i : Fin n) :
    broadcastInDim ⟨1, ![n]⟩ ![] h a (ix1 i) = a ix0 :=
  broadcastInDim_apply _ _ _ (ix1 i) ix0 fun ax => ax.elim0

/-- The scale at a pre, post, residual column. -/
theorem scale_pre (i : Fin 4) : scaleV M (ix1 (fPre i)) = argAp M ix0 :=
  (concatenate_apply_piece 0 _ _ (ix1 (fPre i)) 0 (by simp) S4 _ rfl rfl 0 rfl (ix1 i)
    (fun ax hne => match ax with | ⟨0, _⟩ => absurd rfl hne) (Nat.zero_add _)).trans (scalar_bcast_apply _ _ i)
theorem scale_post (i : Fin 4) : scaleV M (ix1 (fPost i)) = argAq M ix0 :=
  (concatenate_apply_piece 0 _ _ (ix1 (fPost i)) 1 (by simp) S4 _ rfl rfl 4 rfl (ix1 i)
    (fun ax hne => match ax with | ⟨0, _⟩ => absurd rfl hne) rfl).trans (scalar_bcast_apply _ _ i)
theorem scale_res (r j : Fin 4) : scaleV M (ix1 (fRes r j)) = argAr M ix0 :=
  (concatenate_apply_piece 0 _ _ (ix1 (fRes r j)) 2 (by simp) S16 _ rfl rfl 8 rfl (ix1 (f16 r j))
    (fun ax hne => match ax with | ⟨0, _⟩ => absurd rfl hne) rfl).trans (scalar_bcast_apply _ _ (f16 r j))

/-- The bias at a pre, post, residual column. -/
theorem bias_pre (i : Fin 4) : biasV M (ix1 (fPre i)) = argBp M (ix1 i) :=
  concatenate_apply_piece 0 _ _ (ix1 (fPre i)) 0 (by simp) S4 _ rfl rfl 0 rfl (ix1 i)
    (fun ax hne => match ax with | ⟨0, _⟩ => absurd rfl hne) (Nat.zero_add _)
theorem bias_post (i : Fin 4) : biasV M (ix1 (fPost i)) = argBq M (ix1 i) :=
  concatenate_apply_piece 0 _ _ (ix1 (fPost i)) 1 (by simp) S4 _ rfl rfl 4 rfl (ix1 i)
    (fun ax hne => match ax with | ⟨0, _⟩ => absurd rfl hne) rfl
theorem bias_res (r j : Fin 4) : biasV M (ix1 (fRes r j)) = argBr M (ix1 (f16 r j)) :=
  concatenate_apply_piece 0 _ _ (ix1 (fRes r j)) 2 (by simp) S16 _ rfl rfl 8 rfl (ix1 (f16 r j))
    (fun ax hne => match ax with | ⟨0, _⟩ => absurd rfl hne) rfl

end Cert.KernelIdeal.Hand

end
-- ==== Proof.KArray.lean ====
/-
  From blocks to arrays. Grid point `t` (of 64) reads rows `512 t … 512 t + 511` of the flattened input and the whole of
  the combined weights, scale and bias, and writes columns `512 t … 512 t + 511` of the 24 × 32768 result. So the result
  array, after the region, is ONE function of the four operand arrays: at `(f, B)` the body's value on the row block
  `B / 512` at lane `B mod 512`. Every column lies in exactly the block of its quotient by 512, so the blocks cover the array.
-/
import proofs.«113674_j80951543595212_2_alg».proof.Proof.KIFrame
import proofs.«113674_j80951543595212_2_alg».proof.Proof.KPrefix
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe
open Idealize.SL Idealize.SL.Sem
open Idealize.ShloMosaic.ValueIdx
open Idealize.ShloMosaic.Pipeline (Dat)

/-- Row block `t` of the flattened input. -/
def rowsOf (X : FVec Ideal S32768x4096 .f32) (t : Fin 64) : FVec Ideal S512x4096 .f32 :=
  fun y => X (ix2 (⟨t.val * 512 + (y 0).val, by
    have h0 : (y 0).val < 512 := (y 0).isLt
    have ht := t.isLt
    omega⟩ : Fin 32768) (y 1 : Fin 4096))

/-- The body's value on row block `t`, at column `f` and lane `b`. -/
def blockVal (X : FVec Ideal S32768x4096 .f32) (Wt : FVec Ideal S4096x24 .bf16) (sc bi : FVec Ideal S24 .f32)
    (t : Fin 64) (f : Fin 24) (b : Fin 512) : EReal :=
  kbody (F := Ideal) (rowsOf X t) Wt sc bi (ix2 f b)

/-- The result array as one function of the operand arrays. -/
def GOut (X : FVec Ideal S32768x4096 .f32) (Wt : FVec Ideal S4096x24 .bf16) (sc bi : FVec Ideal S24 .f32) :
    FVec Ideal S24x32768 .f32 :=
  fun i => blockVal X Wt sc bi
    (⟨(i 1).val / 512, by have h : (i 1).val < 32768 := (i 1).isLt; omega⟩ : Fin 64)
    (i 0 : Fin 24)
    (⟨(i 1).val % 512, Nat.mod_lt _ (by norm_num)⟩ : Fin 512)

/-- At column `f`, row `512 t + b`. -/
theorem GOut_at (X : FVec Ideal S32768x4096 .f32) (Wt : FVec Ideal S4096x24 .bf16) (sc bi : FVec Ideal S24 .f32)
    (t : Fin 64) (f : Fin 24) (b : Fin 512) (i : S24x32768.Idx) (h0 : (i 0).val = f.val) (h1 : (i 1).val = t.val * 512 + b.val) :
    GOut X Wt sc bi i = blockVal X Wt sc bi t f b := by
  have hb := b.isLt
  unfold GOut
  rw [show (⟨(i 1).val / 512, by have h : (i 1).val < 32768 := (i 1).isLt; omega⟩ : Fin 64) = t from Fin.ext (by simp only; omega),
    show (i 0 : Fin 24) = f from Fin.ext h0,
    show (⟨(i 1).val % 512, Nat.mod_lt _ (by norm_num)⟩ : Fin 512) = b from Fin.ext (by simp only; omega)]

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the input's row block and the result's column block move with the point, the
    other three windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = 0 ∧ win0_4.index t (1 : Fin 2) = t.val :=
  (by decide +kernel : ∀ t : Fin grid0.N, _)

theorem N64 : cfg0.N = 64 := N_0

/-- A grid point as a number below 64. -/
def pt (t : Fin cfg0.N) : Fin 64 := ⟨t.val, lt_of_lt_of_eq t.isLt N64⟩

/-- The input window's block at point `t` is row block `t` of the flattened input. -/
theorem iblk0_eq (c : Dev nD) (t : Fin cfg0.N) :
    iblk m c 0 t = rowsOf (V m c main_v0) (pt t) := by
  obtain ⟨e0, e1, -⟩ := idx_facts t
  funext y
  show V m c main_v0 (((cfg0.win 0).blk t).view.emb y) = V m c main_v0 _
  refine congrArg (V m c main_v0) ?_
  funext a; apply Fin.ext
  match a with
  | ⟨0, _⟩ => show win0_0.index t (0 : Fin 2) * 512 + 1 * (y 0).val = t.val * 512 + (y 0).val; omega
  | ⟨1, _⟩ => show win0_0.index t (1 : Fin 2) * 4096 + 1 * (y 1).val = (y 1).val; omega

/-- The other three input windows' blocks are their whole arrays. -/
theorem iblk1_eq (c : Dev nD) (t : Fin cfg0.N) : iblk m c 1 t = V m c main_v6 := by
  obtain ⟨-, -, e2, e3, -⟩ := idx_facts t
  funext y
  show V m c main_v6 (((cfg0.win 1).blk t).view.emb y) = V m c main_v6 y
  refine congrArg (V m c main_v6) ?_
  funext a; apply Fin.ext
  match a with
  | ⟨0, _⟩ => show win0_1.index t (0 : Fin 2) * 4096 + 1 * (y 0).val = (y 0).val; omega
  | ⟨1, _⟩ => show win0_1.index t (1 : Fin 2) * 24 + 1 * (y 1).val = (y 1).val; omega
theorem iblk2_eq (c : Dev nD) (t : Fin cfg0.N) : iblk m c 2 t = V m c main_v10 := by
  obtain ⟨-, -, -, -, e4, -⟩ := idx_facts t
  funext y
  show V m c main_v10 (((cfg0.win 2).blk t).view.emb y) = V m c main_v10 y
  refine congrArg (V m c main_v10) ?_
  funext a; apply Fin.ext
  match a with
  | ⟨0, _⟩ => show win0_2.index t (0 : Fin 1) * 24 + 1 * (y 0).val = (y 0).val; omega
theorem iblk3_eq (c : Dev nD) (t : Fin cfg0.N) : iblk m c 3 t = V m c main_v11 := by
  obtain ⟨-, -, -, -, -, e5, -⟩ := idx_facts t
  funext y
  show V m c main_v11 (((cfg0.win 3).blk t).view.emb y) = V m c main_v11 y
  refine congrArg (V m c main_v11) ?_
  funext a; apply Fin.ext
  match a with
  | ⟨0, _⟩ => show win0_3.index t (0 : Fin 1) * 24 + 1 * (y 0).val = (y 0).val; omega

/-- WHAT POINT `t` WRITES BACK is block `t` of `GOut` of the operand arrays as the region finds them. -/
theorem flushed4_eq (c : Dev nD) (t : Fin cfg0.N) :
    (dats m 0 c).flushed 4 t
      = ((cfg0.win 4).blk t).view.read (Elt Ideal) (GOut (V m c main_v0) (V m c main_v6) (V m c main_v10) (V m c main_v11)) := by
  show (cfg0.win 4).cut (grid0.coords t) ((dats m 0 c).after 4 t) = _
  rw [after0_4]
  unfold out0_4
  rw [View.canon_unit_zero hz2]
  simp only [View.ld_unit_zero (S := S512x4096) hz2, View.ld_unit_zero (S := S4096x24) hz2, View.ld_unit_zero (S := S24) hz1]
  rw [payChain_eq_kbody, iblk0_eq, iblk1_eq, iblk2_eq, iblk3_eq]
  obtain ⟨-, -, -, -, -, -, e6, e7⟩ := idx_facts t
  funext j
  have hj0 : (j 0).val < 24 := (j 0).isLt
  have hj1 : (j 1).val < 512 := (j 1).isLt
  show kbody (F := Ideal) (rowsOf (V m c main_v0) (pt t)) (V m c main_v6) (V m c main_v10) (V m c main_v11) j
      = GOut (V m c main_v0) (V m c main_v6) (V m c main_v10) (V m c main_v11) (((cfg0.win 4).blk t).view.emb j)
  have e := GOut_at (V m c main_v0) (V m c main_v6) (V m c main_v10) (V m c main_v11) (pt t) ⟨(j 0).val, hj0⟩ ⟨(j 1).val, hj1⟩
    (((cfg0.win 4).blk t).view.emb j)
    (by show win0_4.index t (0 : Fin 2) * 24 + 1 * (j 0).val = (j 0).val; omega)
    (by show win0_4.index t (1 : Fin 2) * 512 + 1 * (j 1).val = t.val * 512 + (j 1).val; omega)
  rw [e]
  unfold blockVal
  exact congrArg _ (funext fun a => match a with | ⟨0, _⟩ => Fin.ext rfl | ⟨1, _⟩ => Fin.ext rfl)

/-- An index of the result array is in point `t`'s block iff each coordinate is in the block's range on its axis. -/
theorem mem_blk4 (t : Fin cfg0.N) (i : S24x32768.Idx) :
    i ∈ ((cfg0.win 4).blk t).view.set ↔ ∀ a : Fin 2, win0_4.index t a * S24x512.size a ≤ (i a).val ∧ (i a).val < win0_4.index t a * S24x512.size a + S24x512.size a := by
  show i ∈ ((View.whole main_v12).slice (win0_4.rect t)).set ↔ _
  rw [View.set_slice_whole, Rect.mem_set_unit]
  exact Iff.rfl

/-- Every index of the result array lies in the block of the point its column's quotient by 512 names. -/
theorem cover4 (i : S24x32768.Idx) : ∃ t : Fin cfg0.N, (cfg0.win 4).flush t = true ∧ i ∈ ((cfg0.win 4).blk t).view.set := by
  have hi0 : (i 0).val < 24 := (i 0).isLt
  have hi1 : (i 1).val < 32768 := (i 1).isLt
  let t : Fin cfg0.N := ⟨(i 1).val / 512, by rw [N64]; omega⟩
  obtain ⟨-, -, -, -, -, -, e6, e7⟩ := idx_facts t
  have e7' : win0_4.index t (1 : Fin 2) = (i 1).val / 512 := e7
  refine ⟨t, flush0_4 t, ?_⟩
  rw [mem_blk4]
  intro a
  match a with
  | ⟨0, _⟩ => show win0_4.index t (0 : Fin 2) * 24 ≤ (i 0).val ∧ (i 0).val < win0_4.index t (0 : Fin 2) * 24 + 24; omega
  | ⟨1, _⟩ => show win0_4.index t (1 : Fin 2) * 512 ≤ (i 1).val ∧ (i 1).val < win0_4.index t (1 : Fin 2) * 512 + 512; omega

/-- THE RESULT ARRAY after the region. -/
theorem final4 (c : Dev nD) :
    (dats m 0 c).arrAt 4 cfg0.N = GOut (V m c main_v0) (V m c main_v6) (V m c main_v10) (V m c main_v11) :=
  (dats m 0 c).arrAt_eq_of_cover 4 _ (fun t _ => flushed4_eq m c t) cover4

end Cert.KernelIdeal.Hand

end
-- ==== Proof.KValue.lean ====
/-
  The kernel's three results as the specification's functions of the arguments. After the region the 24 × 32768 array is
  transposed; its columns 0–3, 4–7 are the first two results and its columns 8–23, regrouped four by four, the third. At
  batch row `B` (row block `B / 512`, lane `B mod 512`) and head column `f` the combined head is the kernel-order head entry
  of the specification: the block's rows are the flattened input's, the combined weights the stacked weights times the norm
  weight, scale and bias the stacked scalars and biases.
-/
import proofs.«113674_j80951543595212_2_alg».proof.Proof.KArray

set_option maxRecDepth 16384

noncomputable section

namespace Cert.KernelIdeal.Hand

open Cert.KernelIdeal Cert.KernelIdeal.Gen Idealize.ShloMosaic Idealize.ShloMosaic.TcCoe Idealize.ShloMosaic.StableHlo
open Idealize.SL Idealize.SL.Sem
open Idealize.ShloMosaic.ValueIdx
open Idealize.ShloMosaic.Pipeline (Dat)

/-! ## The host operations after the region, read at an index -/

section Tail
variable (W : Valuation τ sig (Elt Ideal))

abbrev resT : FVec Ideal S32768x24 .f32 :=
  transpose S32768x24 [1, 0] (W (Proc.devRef .tc main_v12) : FVec Ideal S24x32768 .f32) transposes_S24x32768_S32768x24_1_0

theorem tail_v14 : (after (hostOps1 (F := Ideal)) W (Proc.devRef .tc main_v14) : FVec Ideal S32768x4 .f32)
    = extractStridedSlice S32768x4 ![0, 0] (resT W) slices_S32768x24_S32768x4_0_0 := by
  after_results
  all_goals rfl
theorem tail_v15 : (after (hostOps1 (F := Ideal)) W (Proc.devRef .tc main_v15) : FVec Ideal S32768x4 .f32)
    = extractStridedSlice S32768x4 ![0, 4] (resT W) slices_S32768x24_S32768x4_0_4 := by
  after_results
  all_goals rfl
theorem tail_v17 : (after (hostOps1 (F := Ideal)) W (Proc.devRef .tc main_v17) : FVec Ideal S32768x4x4 .f32)
    = shapeCast S32768x4x4 (extractStridedSlice S32768x16 ![0, 8] (resT W) slices_S32768x24_S32768x16_0_8) shapeCasts_S32768x16_S32768x4x4 := by
  after_results
  all_goals rfl

variable (Y : FVec Ideal S24x32768 .f32) (hY : (W (Proc.devRef .tc main_v12) : FVec Ideal S24x32768 .f32) = Y)
include hY

theorem tail_v14_apply (B : Fin 32768) (k : Fin 4) :
    (after (hostOps1 (F := Ideal)) W (Proc.devRef .tc main_v14) : FVec Ideal S32768x4 .f32) (ix2 B k) = Y (ix2 (fPre k) B) := by
  rw [tail_v14]
  refine (slice2_axis1_apply 0 _ _ B k (fPre k) (Nat.zero_add _).symm).trans ?_
  refine (transpose_ix2_apply _ _ B (fPre k)).trans ?_
  rw [hY]
theorem tail_v15_apply (B : Fin 32768) (k : Fin 4) :
    (after (hostOps1 (F := Ideal)) W (Proc.devRef .tc main_v15) : FVec Ideal S32768x4 .f32) (ix2 B k) = Y (ix2 (fPost k) B) := by
  rw [tail_v15]
  refine (slice2_axis1_apply 4 _ _ B k (fPost k) rfl).trans ?_
  refine (transpose_ix2_apply _ _ B (fPost k)).trans ?_
  rw [hY]
theorem tail_v17_apply (B : Fin 32768) (r j : Fin 4) :
    (after (hostOps1 (F := Ideal)) W (Proc.devRef .tc main_v17) : FVec Ideal S32768x4x4 .f32) (ix3 B r j) = Y (ix2 (fRes r j) B) := by
  rw [tail_v17]
  refine (shapeCast_apply _ _ (ix3 B r j) (ix2 B (f16 r j)) (by
    rw [Shape.rowMajor_val_two, Shape.rowMajor_val_three]
    show B.val * 16 + (4 * r.val + j.val) = (B.val * 4 + r.val) * 4 + j.val
    omega)).trans ?_
  refine (slice2_axis1_apply 8 _ _ B (f16 r j) (fRes r j) rfl).trans ?_
  refine (transpose_ix2_apply _ _ B (fRes r j)).trans ?_
  rw [hY]

end Tail

/-! ## The combined head at a batch row -/

section Heads
variable (M : Valuation τ sig (Elt Ideal))

/-- Row block and lane of a batch row. -/
def qOf (B : Fin 32768) : Fin 64 := ⟨B.val / 512, by have := B.isLt; omega⟩
def lOf (B : Fin 32768) : Fin 512 := ⟨B.val % 512, Nat.mod_lt _ (by norm_num)⟩

theorem rowsOf_apply (X : FVec Ideal S32768x4096 .f32) (B : Fin 32768) (d : Fin 4096) :
    rowsOf X (qOf B) (ix2 (lOf B) d) = X (ix2 B d) := by
  show X (ix2 _ d) = X (ix2 B d)
  refine congrArg (fun b => X (ix2 b d)) (Fin.ext ?_)
  show B.val / 512 * 512 + B.val % 512 = B.val
  omega

/-- The combined head at column `f` of batch row `B` is the kernel-order head entry. -/
theorem comb_at (B : Fin 32768) (f : Fin 24) (wr : Fin 4096 → EReal) (α β : EReal)
    (hw : ∀ d : Fin 4096, concatenate S24x4096 0 [⟨S4x4096, argWp M⟩, ⟨S4x4096, argWq M⟩, ⟨S16x4096, argWr M⟩]
      concatenates_S4x4096_S4x4096_S16x4096_S24x4096_d0 (ix2 f d) = wr d)
    (hs : scaleV M (ix1 f) = α) (hb : biasV M (ix1 f) = β) :
    kComb (F := Ideal) (rowsOf (flatX M) (qOf B)) (combW M) (scaleV M) (biasV M) (ix2 f (lOf B))
      = Cert.Spec.headK (Cert.Spec.xrow (flatX M) B) (Cert.Spec.nwf (argNW M)) wr α β := by
  rw [kComb_apply, hs, hb]
  unfold Cert.Spec.headK
  simp only [rowsOf_apply, combW_apply, hw]

/-- The result array at column `f`, batch row `B`. -/
theorem GOut_row (B : Fin 32768) (f : Fin 24) :
    GOut (flatX M) (combW M) (scaleV M) (biasV M) (ix2 f B)
      = kbody (F := Ideal) (rowsOf (flatX M) (qOf B)) (combW M) (scaleV M) (biasV M) (ix2 f (lOf B)) :=
  GOut_at _ _ _ _ (qOf B) f (lOf B) (ix2 f B) rfl (by
    show B.val = B.val / 512 * 512 + B.val % 512
    omega)

theorem GOut_pre (B : Fin 32768) (k : Fin 4) :
    GOut (flatX M) (combW M) (scaleV M) (biasV M) (ix2 (fPre k) B)
      = Cert.Spec.outPre (flatX M) (argNW M) (argWp M) (argBp M) (argAp M) Cert.Spec.headK (ix2 B k) := by
  rw [GOut_row, kbody_pre, comb_at M B (fPre k) _ _ _ (wcat_pre M k) (scale_pre M k) (bias_pre M k)]
  rfl
theorem GOut_post (B : Fin 32768) (k : Fin 4) :
    GOut (flatX M) (combW M) (scaleV M) (biasV M) (ix2 (fPost k) B)
      = Cert.Spec.outPost (flatX M) (argNW M) (argWq M) (argBq M) (argAq M) Cert.Spec.headK (ix2 B k) := by
  rw [GOut_row, kbody_post, comb_at M B (fPost k) _ _ _ (wcat_post M k) (scale_post M k) (bias_post M k)]
  rfl
theorem GOut_res (B : Fin 32768) (r j : Fin 4) :
    GOut (flatX M) (combW M) (scaleV M) (biasV M) (ix2 (fRes r j) B)
      = Cert.Spec.outRes (flatX M) (argNW M) (argWr M) (argBr M) (argAr M) Cert.Spec.headK (ix3 B r j) := by
  rw [GOut_row, kbody_res]
  have h : ∀ r' j' : Fin 4, kComb (F := Ideal) (rowsOf (flatX M) (qOf B)) (combW M) (scaleV M) (biasV M) (ix2 (fRes r' j') (lOf B))
      = Cert.Spec.resH (flatX M) (argNW M) (argWr M) (argBr M) (argAr M) Cert.Spec.headK B (Cert.Spec.f16 r' j') := fun r' j' =>
    comb_at M B (fRes r' j') _ _ _ (wcat_res M r' j') (scale_res M r' j') (bias_res M r' j')
  simp only [h]
  rfl

end Heads

/-! ## The run -/

variable (m : (ℓ : Loc nD τ sig) → Buf (Elt Ideal) ℓ) (ρ : Dev nD → PrngReg)

/-- The launch contents of core `c`, as a valuation. -/
abbrev launchOf (c : Dev nD) : Valuation τ sig (Elt Ideal) := fun b => m (c, b)

/-- The region's operand arrays are the host prefix's terms of the arguments. -/
theorem V_v0 (c : Dev nD) : (V m c main_v0 : FVec Ideal S32768x4096 .f32) = flatX (launchOf m c) := pre_v0 (launchOf m c)
theorem V_v6 (c : Dev nD) : (V m c main_v6 : FVec Ideal S4096x24 .bf16) = combW (launchOf m c) := pre_v6 (launchOf m c)
theorem V_v10 (c : Dev nD) : (V m c main_v10 : FVec Ideal S24 .f32) = scaleV (launchOf m c) := pre_v10 (launchOf m c)
theorem V_v11 (c : Dev nD) : (V m c main_v11 : FVec Ideal S24 .f32) = biasV (launchOf m c) := pre_v11 (launchOf m c)

/-- The result array the tail starts from. -/
theorem tail_start (c : Dev nD) :
    (Pipeline.withArrays spec0 c (V0 m c) (fun w => (dats m 0 c).arrAt w cfg0.N) (Proc.devRef .tc main_v12) : FVec Ideal S24x32768 .f32)
      = GOut (flatX (launchOf m c)) (combW (launchOf m c)) (scaleV (launchOf m c)) (biasV (launchOf m c)) := by
  refine (Pipeline.withArrays_arr spec0 launch0.win.arr_inj c _ _ 4).trans ?_
  rw [final4, V_v0, V_v6, V_v10, V_v11]

/-- THE KERNEL'S RUN at the ideal values: every execution ends with the three results at the specification's
    functions (kernel order) of the arguments, the arguments unchanged. -/
theorem run_value : θ_run defs (onTc (τ := τ) (main (F := Ideal))) ⟨m, fun _ => 0, ρ⟩ (fun r => ∀ c : Dev nD,
      r.2.mem ((c.tc : Thread nD τ).loc main_v14)
        = Cert.Spec.outPre (flatX (launchOf m c)) (argNW (launchOf m c)) (argWp (launchOf m c)) (argBp (launchOf m c)) (argAp (launchOf m c)) Cert.Spec.headK
      ∧ r.2.mem ((c.tc : Thread nD τ).loc main_v15)
        = Cert.Spec.outPost (flatX (launchOf m c)) (argNW (launchOf m c)) (argWq (launchOf m c)) (argBq (launchOf m c)) (argAq (launchOf m c)) Cert.Spec.headK
      ∧ r.2.mem ((c.tc : Thread nD τ).loc main_v17)
        = Cert.Spec.outRes (flatX (launchOf m c)) (argNW (launchOf m c)) (argWr (launchOf m c)) (argBr (launchOf m c)) (argAr (launchOf m c)) Cert.Spec.headK
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (run_main m ρ)
  have h14 := (h c).2 main_v14 (Pipeline.mem_restRefs_of main_v14 (by decide) (by decide))
  have h15 := (h c).2 main_v15 (Pipeline.mem_restRefs_of main_v15 (by decide) (by decide))
  have h17 := (h c).2 main_v17 (Pipeline.mem_restRefs_of main_v17 (by decide) (by decide))
  refine ⟨h14.trans ?_, h15.trans ?_, h17.trans ?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c)⟩
  · funext i
    obtain ⟨B, k, rfl⟩ : ∃ (B : Fin 32768) (k : Fin 4), i = ix2 B k := ⟨i 0, i 1, eq_ix2 i⟩
    exact (tail_v14_apply _ _ (tail_start m c) B k).trans (GOut_pre (launchOf m c) B k)
  · funext i
    obtain ⟨B, k, rfl⟩ : ∃ (B : Fin 32768) (k : Fin 4), i = ix2 B k := ⟨i 0, i 1, eq_ix2 i⟩
    exact (tail_v15_apply _ _ (tail_start m c) B k).trans (GOut_post (launchOf m c) B k)
  · funext i
    obtain ⟨B, r', j', rfl⟩ : ∃ (B : Fin 32768) (r' j' : Fin 4), i = ix3 B r' j' := ⟨i 0, i 1, i 2, eq_ix3 i⟩
    exact (tail_v17_apply _ _ (tail_start m c) B r' j').trans (GOut_res (launchOf m c) B r' j')

end Cert.KernelIdeal.Hand

end
-- ==== Proof.RefOps.lean ====
import proofs.«113674_j80951543595212_2_alg».proof.Proof.Gen.ReferenceIdeal
import proofs.«113674_j80951543595212_2_alg».proof.Proof.Spec
import Idealize.ShloMosaic.Lib.IdealHost
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.ValueIdx
open scoped BigOperators

/-!
  The reference program's host operations read at an index, at the extended reals.

  Every array here is a function of its index. A broadcast reads its operand at the coordinates it keeps, a sum
  along one axis is the finite sum over that axis's coordinate (its initial value, the zero word, drops out), a
  transposed weight matrix reads the weight at the swapped pair, a contraction along the 4096 features is the
  finite sum of products over the feature, and the reshape of the sixteen residual heads to a 4 × 4 matrix reads
  head `4 r + j` at `(r, j)`.
-/

variable {α : Type}

/-! ## Broadcasts -/

/-- A column [32768, 1] spread over the 4096 features reads the row's one entry. -/
theorem bcast_col_apply (v : S32768x1.Idx → α) (b : Fin 32768) (d : Fin 4096) :
    broadcastInDim S32768x4096 ![0, 1] bcast_S32768x1_S32768x4096_0_1 v (ix2 b d) = v (ix2 b (0 : Fin 1)) :=
  broadcastInDim_apply _ bcast_S32768x1_S32768x4096_0_1 v _ _ (fun a => match a with
    | ⟨0, _⟩ => by show b.val = if (32768 : Nat) = 1 then 0 else b.val; rw [if_neg (by decide)]
    | ⟨1, _⟩ => by show 0 = if (1 : Nat) = 1 then 0 else d.val; rw [if_pos rfl])

/-- A vector [32768] viewed as a column [32768, 1] reads the row's entry. -/
theorem bcast_vec_col_apply (v : S32768.Idx → α) (b : Fin 32768) (u : Fin 1) :
    broadcastInDim S32768x1 ![0] bcast_S32768_S32768x1_0 v (ix2 b u) = v (ix1 b) :=
  broadcastInDim_apply _ bcast_S32768_S32768x1_0 v _ _ (fun a => match a with
    | ⟨0, _⟩ => by show b.val = if (32768 : Nat) = 1 then 0 else b.val; rw [if_neg (by decide)])

/-- The norm weight [4096], as a row spread over the 32768 rows, reads the feature's weight. -/
theorem bcast_nw_apply (v : S4096.Idx → α) (b : Fin 32768) (d : Fin 4096) :
    broadcastInDim S32768x4096 ![0, 1] bcast_S1x4096_S32768x4096_0_1
      (broadcastInDim S1x4096 ![1] bcast_S4096_S1x4096_1 v) (ix2 b d) = v (ix1 d) :=
  (broadcastInDim_apply _ bcast_S1x4096_S32768x4096_0_1 _ _ (ix2 (0 : Fin 1) d) (fun a => match a with
    | ⟨0, _⟩ => by show 0 = if (1 : Nat) = 1 then 0 else b.val; rw [if_pos rfl]
    | ⟨1, _⟩ => by show d.val = if (4096 : Nat) = 1 then 0 else d.val; rw [if_neg (by decide)])).trans
  (broadcastInDim_apply _ bcast_S4096_S1x4096_1 v _ (ix1 d) (fun a => match a with
    | ⟨0, _⟩ => by show d.val = if (4096 : Nat) = 1 then 0 else d.val; rw [if_neg (by decide)]))

/-- A bias [4], as a row spread over the 32768 rows, reads the head's bias. -/
theorem bcast_b4_apply (v : S4.Idx → α) (b : Fin 32768) (i : Fin 4) :
    broadcastInDim S32768x4 ![0, 1] bcast_S1x4_S32768x4_0_1
      (broadcastInDim S1x4 ![1] bcast_S4_S1x4_1 v) (ix2 b i) = v (ix1 i) :=
  (broadcastInDim_apply _ bcast_S1x4_S32768x4_0_1 _ _ (ix2 (0 : Fin 1) i) (fun a => match a with
    | ⟨0, _⟩ => by show 0 = if (1 : Nat) = 1 then 0 else b.val; rw [if_pos rfl]
    | ⟨1, _⟩ => by show i.val = if (4 : Nat) = 1 then 0 else i.val; rw [if_neg (by decide)])).trans
  (broadcastInDim_apply _ bcast_S4_S1x4_1 v _ (ix1 i) (fun a => match a with
    | ⟨0, _⟩ => by show i.val = if (4 : Nat) = 1 then 0 else i.val; rw [if_neg (by decide)]))

/-- A bias [16], as a row spread over the 32768 rows, reads the head's bias. -/
theorem bcast_b16_apply (v : S16.Idx → α) (b : Fin 32768) (k : Fin 16) :
    broadcastInDim S32768x16 ![0, 1] bcast_S1x16_S32768x16_0_1
      (broadcastInDim S1x16 ![1] bcast_S16_S1x16_1 v) (ix2 b k) = v (ix1 k) :=
  (broadcastInDim_apply _ bcast_S1x16_S32768x16_0_1 _ _ (ix2 (0 : Fin 1) k) (fun a => match a with
    | ⟨0, _⟩ => by show 0 = if (1 : Nat) = 1 then 0 else b.val; rw [if_pos rfl]
    | ⟨1, _⟩ => by show k.val = if (16 : Nat) = 1 then 0 else k.val; rw [if_neg (by decide)])).trans
  (broadcastInDim_apply _ bcast_S16_S1x16_1 v _ (ix1 k) (fun a => match a with
    | ⟨0, _⟩ => by show k.val = if (16 : Nat) = 1 then 0 else k.val; rw [if_neg (by decide)]))

/-- The row sums [32768, 4] with a trailing unit axis. -/
theorem bcast_rowsum_apply (v : S32768x4.Idx → α) (b : Fin 32768) (r : Fin 4) (u : Fin 1) :
    broadcastInDim S32768x4x1 ![0, 1] bcast_S32768x4_S32768x4x1_0_1 v (ix3 b r u) = v (ix2 b r) :=
  broadcastInDim_apply _ bcast_S32768x4_S32768x4x1_0_1 v _ _ (fun a => match a with
    | ⟨0, _⟩ => by show b.val = if (32768 : Nat) = 1 then 0 else b.val; rw [if_neg (by decide)]
    | ⟨1, _⟩ => by show r.val = if (4 : Nat) = 1 then 0 else r.val; rw [if_neg (by decide)])

/-- A per-row divisor [32768, 4, 1] spread along the row. -/
theorem bcast_rowspread_apply (v : S32768x4x1.Idx → α) (b : Fin 32768) (r j : Fin 4) :
    broadcastInDim S32768x4x4 ![0, 1, 2] bcast_S32768x4x1_S32768x4x4_0_1_2 v (ix3 b r j) = v (ix3 b r (0 : Fin 1)) :=
  broadcastInDim_apply _ bcast_S32768x4x1_S32768x4x4_0_1_2 v _ _ (fun a => match a with
    | ⟨0, _⟩ => by show b.val = if (32768 : Nat) = 1 then 0 else b.val; rw [if_neg (by decide)]
    | ⟨1, _⟩ => by show r.val = if (4 : Nat) = 1 then 0 else r.val; rw [if_neg (by decide)]
    | ⟨2, _⟩ => by show 0 = if (1 : Nat) = 1 then 0 else j.val; rw [if_pos rfl])

/-- The column sums [32768, 4] with a middle unit axis. -/
theorem bcast_colsum_apply (v : S32768x4.Idx → α) (b : Fin 32768) (u : Fin 1) (j : Fin 4) :
    broadcastInDim S32768x1x4 ![0, 2] bcast_S32768x4_S32768x1x4_0_2 v (ix3 b u j) = v (ix2 b j) :=
  broadcastInDim_apply _ bcast_S32768x4_S32768x1x4_0_2 v _ _ (fun a => match a with
    | ⟨0, _⟩ => by show b.val = if (32768 : Nat) = 1 then 0 else b.val; rw [if_neg (by decide)]
    | ⟨1, _⟩ => by show j.val = if (4 : Nat) = 1 then 0 else j.val; rw [if_neg (by decide)])

/-- A per-column divisor [32768, 1, 4] spread down the column. -/
theorem bcast_colspread_apply (v : S32768x1x4.Idx → α) (b : Fin 32768) (r j : Fin 4) :
    broadcastInDim S32768x4x4 ![0, 1, 2] bcast_S32768x1x4_S32768x4x4_0_1_2 v (ix3 b r j) = v (ix3 b (0 : Fin 1) j) :=
  broadcastInDim_apply _ bcast_S32768x1x4_S32768x4x4_0_1_2 v _ _ (fun a => match a with
    | ⟨0, _⟩ => by show b.val = if (32768 : Nat) = 1 then 0 else b.val; rw [if_neg (by decide)]
    | ⟨1, _⟩ => by show 0 = if (1 : Nat) = 1 then 0 else r.val; rw [if_pos rfl]
    | ⟨2, _⟩ => by show j.val = if (4 : Nat) = 1 then 0 else j.val; rw [if_neg (by decide)])

/-! ## Pointwise host operations -/

theorem hostRsqrt_apply {s : Shape} {φ : FTy} (a : FVec Ideal s φ) (i : s.Idx) : Host.rsqrt a i = Ideal.rsqrt (a i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-! ## Sums along one axis -/

/-- The sum along the features of a [32768, 4096] array. -/
theorem sum_feat_apply (x : FVec Ideal S32768x4096 .f32) (b : Fin 32768) :
    Host.reduceAdd x (constant (F := Ideal) S_ .f32 0x00000000#32) reducesTo_S32768x4096_S32768_d1 h_S_ (ix1 b)
      = ∑ d : Fin 4096, x (ix2 b d) := by
  simp only [Host.reduceAdd, Ideal.hostReduceAdd_def]
  rw [Ideal.hostReduceAdd_single reducesTo_S32768x4096_S32768_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The sum along a row of each 4 × 4 matrix. -/
theorem sum_row_apply (x : FVec Ideal S32768x4x4 .f32) (b : Fin 32768) (r : Fin 4) :
    Host.reduceAdd x (constant (F := Ideal) S_ .f32 0x00000000#32) reducesTo_S32768x4x4_S32768x4_d2 h_S_ (ix2 b r)
      = ∑ j : Fin 4, x (ix3 b r j) := by
  simp only [Host.reduceAdd, Ideal.hostReduceAdd_def]
  rw [Ideal.hostReduceAdd_single reducesTo_S32768x4x4_S32768x4_d2 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-- The sum down a column of each 4 × 4 matrix. -/
theorem sum_col_apply (x : FVec Ideal S32768x4x4 .f32) (b : Fin 32768) (j : Fin 4) :
    Host.reduceAdd x (constant (F := Ideal) S_ .f32 0x00000000#32) reducesTo_S32768x4x4_S32768x4_d1 h_S_ (ix2 b j)
      = ∑ r : Fin 4, x (ix3 b r j) := by
  simp only [Host.reduceAdd, Ideal.hostReduceAdd_def]
  rw [Ideal.hostReduceAdd_single reducesTo_S32768x4x4_S32768x4_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-! ## The reshape of the sixteen residual heads -/

/-- Entry `(r, j)` of row `b`'s 4 × 4 matrix is head `4 r + j`. -/
theorem reshape16_apply (H : S32768x16.Idx → α) (b : Fin 32768) (r j : Fin 4) :
    shapeCast S32768x4x4 H shapeCasts_S32768x16_S32768x4x4 (ix3 b r j) = H (ix2 b (Cert.Spec.f16 r j)) :=
  shapeCast_apply H shapeCasts_S32768x16_S32768x4x4 _ _ (by
    rw [Shape.rowMajor_val_two, Shape.rowMajor_val_three]
    show b.val * 16 + (4 * r.val + j.val) = (b.val * 4 + r.val) * 4 + j.val
    omega)

/-! ## The contractions along the features -/

/-- The dimension numbers of the [32768, 4096] × [4096, 4] contraction. -/
abbrev D4 : DotDims S32768x4096 S4096x4 S32768x4 := dot_S32768x4096_S4096x4_S32768x4_1_0_0_1_n_n
/-- The dimension numbers of the [32768, 4096] × [4096, 16] contraction. -/
abbrev D16 : DotDims S32768x4096 S4096x16 S32768x16 := dot_S32768x4096_S4096x16_S32768x16_1_0_0_1_n_n

theorem D4_lhs0 (i : S32768x4.Idx) (q : D4.contr.Idx) : (D4.lhsIdx i q 0).val = (i 0).val := by
  unfold DotDims.lhsIdx
  rw [dif_neg (show ¬(0 : Fin S32768x4096.rank) ∈ D4.lhsBatch by decide), dif_pos (show (0 : Fin S32768x4096.rank) ∈ D4.lhsNonContracting by decide)]
  rfl
theorem D4_lhs1 (i : S32768x4.Idx) (q : D4.contr.Idx) : (D4.lhsIdx i q 1).val = (q ⟨0, by decide⟩).val :=
  D4.lhsIdx_val_of_single rfl i q
theorem D4_rhs0 (i : S32768x4.Idx) (q : D4.contr.Idx) : (D4.rhsIdx i q 0).val = (q ⟨0, by decide⟩).val :=
  D4.rhsIdx_val_of_single rfl i q
theorem D4_rhs1 (i : S32768x4.Idx) (q : D4.contr.Idx) : (D4.rhsIdx i q 1).val = (i 1).val := by
  unfold DotDims.rhsIdx
  rw [dif_neg (show ¬(1 : Fin S4096x4.rank) ∈ D4.rhsBatch by decide), dif_pos (show (1 : Fin S4096x4.rank) ∈ D4.rhsNonContracting by decide)]
  rfl

/-- Entry `(b, i)` of the product is the sum over the feature `k` of `Y (b, k) · R (k, i)`. -/
theorem dot4_apply (Y : FVec Ideal S32768x4096 .f32) (R : FVec Ideal S4096x4 .f32) (b : Fin 32768) (i : Fin 4) :
    Host.dotGeneral D4 none Y R (ix2 b i) = ∑ k : Fin 4096, Y (ix2 b k) * R (ix2 k i) := by
  simp only [Host.dotGeneral]
  rw [Ideal.dotGeneral_apply, ← Equiv.sum_comp (ValueIdx.contrEquiv1 D4 4096 rfl rfl).symm]
  refine Finset.sum_congr rfl fun k _ => ?_
  have hk := ValueIdx.contrEquiv1_symm_val D4 4096 rfl rfl k
  have el : D4.lhsIdx (ix2 b i) ((ValueIdx.contrEquiv1 D4 4096 rfl rfl).symm k) = ix2 b k := funext fun a => Fin.ext (by
    match a with
    | ⟨0, _⟩ => exact D4_lhs0 _ _
    | ⟨1, _⟩ => exact (D4_lhs1 _ _).trans hk)
  have er : D4.rhsIdx (ix2 b i) ((ValueIdx.contrEquiv1 D4 4096 rfl rfl).symm k) = ix2 k i := funext fun a => Fin.ext (by
    match a with
    | ⟨0, _⟩ => exact (D4_rhs0 _ _).trans hk
    | ⟨1, _⟩ => exact D4_rhs1 _ _)
  rw [el, er]

theorem D16_lhs0 (i : S32768x16.Idx) (q : D16.contr.Idx) : (D16.lhsIdx i q 0).val = (i 0).val := by
  unfold DotDims.lhsIdx
  rw [dif_neg (show ¬(0 : Fin S32768x4096.rank) ∈ D16.lhsBatch by decide), dif_pos (show (0 : Fin S32768x4096.rank) ∈ D16.lhsNonContracting by decide)]
  rfl
theorem D16_lhs1 (i : S32768x16.Idx) (q : D16.contr.Idx) : (D16.lhsIdx i q 1).val = (q ⟨0, by decide⟩).val :=
  D16.lhsIdx_val_of_single rfl i q
theorem D16_rhs0 (i : S32768x16.Idx) (q : D16.contr.Idx) : (D16.rhsIdx i q 0).val = (q ⟨0, by decide⟩).val :=
  D16.rhsIdx_val_of_single rfl i q
theorem D16_rhs1 (i : S32768x16.Idx) (q : D16.contr.Idx) : (D16.rhsIdx i q 1).val = (i 1).val := by
  unfold DotDims.rhsIdx
  rw [dif_neg (show ¬(1 : Fin S4096x16.rank) ∈ D16.rhsBatch by decide), dif_pos (show (1 : Fin S4096x16.rank) ∈ D16.rhsNonContracting by decide)]
  rfl

/-- Entry `(b, k)` of the product with the sixteen residual weight rows. -/
theorem dot16_apply (Y : FVec Ideal S32768x4096 .f32) (R : FVec Ideal S4096x16 .f32) (b : Fin 32768) (i : Fin 16) :
    Host.dotGeneral D16 none Y R (ix2 b i) = ∑ k : Fin 4096, Y (ix2 b k) * R (ix2 k i) := by
  simp only [Host.dotGeneral]
  rw [Ideal.dotGeneral_apply, ← Equiv.sum_comp (ValueIdx.contrEquiv1 D16 4096 rfl rfl).symm]
  refine Finset.sum_congr rfl fun k _ => ?_
  have hk := ValueIdx.contrEquiv1_symm_val D16 4096 rfl rfl k
  have el : D16.lhsIdx (ix2 b i) ((ValueIdx.contrEquiv1 D16 4096 rfl rfl).symm k) = ix2 b k := funext fun a => Fin.ext (by
    match a with
    | ⟨0, _⟩ => exact D16_lhs0 _ _
    | ⟨1, _⟩ => exact (D16_lhs1 _ _).trans hk)
  have er : D16.rhsIdx (ix2 b i) ((ValueIdx.contrEquiv1 D16 4096 rfl rfl).symm k) = ix2 k i := funext fun a => Fin.ext (by
    match a with
    | ⟨0, _⟩ => exact (D16_rhs0 _ _).trans hk
    | ⟨1, _⟩ => exact D16_rhs1 _ _)
  rw [el, er]

/-! ## Transposed weights -/

/-- The transposed [4, 4096] weights read the weight at the swapped pair. -/
theorem transpose4_apply (W : S4x4096.Idx → α) (k : Fin 4096) (i : Fin 4) :
    transpose S4096x4 [1, 0] W transposes_S4x4096_S4096x4_1_0 (ix2 k i) = W (ix2 i k) :=
  transpose_ix2_apply W transposes_S4x4096_S4096x4_1_0 k i

/-- The transposed [16, 4096] weights read the weight at the swapped pair. -/
theorem transpose16_apply (W : S16x4096.Idx → α) (k : Fin 4096) (i : Fin 16) :
    transpose S4096x16 [1, 0] W transposes_S16x4096_S4096x16_1_0 (ix2 k i) = W (ix2 i k) :=
  transpose_ix2_apply W transposes_S16x4096_S4096x16_1_0 k i

/-! ## The reference's stages as functions of their operands

  Each definition is the composed term the reference's run names for one stage, over variables for the arrays it
  reads; each `_apply` lemma reads it at an index in the specification's vocabulary.
-/

/-- The normalised input: `x · rsqrt (mean x² + ε₁) · w`. -/
def rms (X : FVec Ideal S32768x4096 .f32) (NW : FVec Ideal S4096 .f32) : FVec Ideal S32768x4096 .f32 :=
  mulf (mulf X (broadcastInDim S32768x4096 ![0, 1] bcast_S32768x1_S32768x4096_0_1 (Host.rsqrt (addf (Host.divf (broadcastInDim S32768x1 ![0] bcast_S32768_S32768x1_0 (Host.reduceAdd (mulf X X) (constant (F := Ideal) S_ .f32 0x00000000#32) reducesTo_S32768x4096_S32768_d1 h_S_)) (broadcastInDim S32768x1 ![] bcast_S_S32768x1 (constant (F := Ideal) S_ .f32 0x45800000#32))) (broadcastInDim S32768x1 ![] bcast_S_S32768x1 (constant (F := Ideal) S_ .f32 0x34000000#32)))))) (broadcastInDim S32768x4096 ![0, 1] bcast_S1x4096_S32768x4096_0_1 (broadcastInDim S1x4096 ![1] bcast_S4096_S1x4096_1 NW))

/-- At `(b, d)`: the entry times the row's inverse root-mean-square times the feature's weight. -/
theorem rms_apply (X : FVec Ideal S32768x4096 .f32) (NW : FVec Ideal S4096 .f32) (b : Fin 32768) (d : Fin 4096) :
    rms X NW (ix2 b d) = X (ix2 b d) * Cert.Spec.inv (fun d' : Fin 4096 => X (ix2 b d')) * NW (ix1 d) := by
  unfold rms
  rw [mulf_apply, mulf_apply, bcast_nw_apply, bcast_col_apply, hostRsqrt_apply, addf_apply, hostDivf_apply,
    bcast_vec_col_apply, sum_feat_apply, broadcastInDim_scalar_apply, broadcastInDim_scalar_apply]
  rfl

/-- Four heads before their activation: `α · (Y · Wᵀ) + β`. -/
def head4 (Y : FVec Ideal S32768x4096 .f32) (W : FVec Ideal S4x4096 .f32) (A : FVec Ideal S_ .f32) (B : FVec Ideal S4 .f32) :
    FVec Ideal S32768x4 .f32 :=
  addf (mulf (broadcastInDim S32768x4 ![] bcast_S_S32768x4 A) (Host.dotGeneral dot_S32768x4096_S4096x4_S32768x4_1_0_0_1_n_n none Y (transpose S4096x4 [1, 0] W transposes_S4x4096_S4096x4_1_0))) (broadcastInDim S32768x4 ![0, 1] bcast_S1x4_S32768x4_0_1 (broadcastInDim S1x4 ![1] bcast_S4_S1x4_1 B))

theorem head4_apply (Y : FVec Ideal S32768x4096 .f32) (W : FVec Ideal S4x4096 .f32) (A : FVec Ideal S_ .f32) (B : FVec Ideal S4 .f32)
    (b : Fin 32768) (i : Fin 4) :
    head4 Y W A B (ix2 b i) = A ix0 * (∑ k : Fin 4096, Y (ix2 b k) * W (ix2 i k)) + B (ix1 i) := by
  unfold head4
  rw [addf_apply, mulf_apply, bcast_b4_apply, broadcastInDim_scalar_apply,
    show dot_S32768x4096_S4096x4_S32768x4_1_0_0_1_n_n = D4 from rfl, dot4_apply]
  refine congrArg (fun s => A ix0 * s + B (ix1 i)) (Finset.sum_congr rfl fun k _ => ?_)
  rw [transpose4_apply]

/-- Sixteen heads before their activation. -/
def head16 (Y : FVec Ideal S32768x4096 .f32) (W : FVec Ideal S16x4096 .f32) (A : FVec Ideal S_ .f32) (B : FVec Ideal S16 .f32) :
    FVec Ideal S32768x16 .f32 :=
  addf (mulf (broadcastInDim S32768x16 ![] bcast_S_S32768x16 A) (Host.dotGeneral dot_S32768x4096_S4096x16_S32768x16_1_0_0_1_n_n none Y (transpose S4096x16 [1, 0] W transposes_S16x4096_S4096x16_1_0))) (broadcastInDim S32768x16 ![0, 1] bcast_S1x16_S32768x16_0_1 (broadcastInDim S1x16 ![1] bcast_S16_S1x16_1 B))

theorem head16_apply (Y : FVec Ideal S32768x4096 .f32) (W : FVec Ideal S16x4096 .f32) (A : FVec Ideal S_ .f32) (B : FVec Ideal S16 .f32)
    (b : Fin 32768) (i : Fin 16) :
    head16 Y W A B (ix2 b i) = A ix0 * (∑ k : Fin 4096, Y (ix2 b k) * W (ix2 i k)) + B (ix1 i) := by
  unfold head16
  rw [addf_apply, mulf_apply, bcast_b16_apply, broadcastInDim_scalar_apply,
    show dot_S32768x4096_S4096x16_S32768x16_1_0_0_1_n_n = D16 from rfl, dot16_apply]
  refine congrArg (fun s => A ix0 * s + B (ix1 i)) (Finset.sum_congr rfl fun k _ => ?_)
  rw [transpose16_apply]

/-- The logistic function as the reference spells it: `1 / (1 + exp (−z))`. -/
def sig1 (Z : FVec Ideal S32768x4 .f32) : FVec Ideal S32768x4 .f32 :=
  Host.divf (broadcastInDim S32768x4 ![] bcast_S_S32768x4 (constant (F := Ideal) S_ .f32 0x3F800000#32)) (addf (broadcastInDim S32768x4 ![] bcast_S_S32768x4 (constant (F := Ideal) S_ .f32 0x3F800000#32)) (Host.exp (Host.negf Z)))

theorem sig1_apply (Z : FVec Ideal S32768x4 .f32) (i : S32768x4.Idx) : sig1 Z i = Ideal.logistic (Z i) := by
  unfold sig1
  rw [hostDivf_apply, addf_apply, hostExp_apply, hostNegf_apply, broadcastInDim_scalar_apply, constant_apply,
    Cert.Spec.ofBits_one]
  rfl

/-- Twice the logistic function. -/
def sig2 (Z : FVec Ideal S32768x4 .f32) : FVec Ideal S32768x4 .f32 :=
  mulf (broadcastInDim S32768x4 ![] bcast_S_S32768x4 (constant (F := Ideal) S_ .f32 0x40000000#32)) (sig1 Z)

theorem sig2_apply (Z : FVec Ideal S32768x4 .f32) (i : S32768x4.Idx) : sig2 Z i = Cert.Spec.c2 * Ideal.logistic (Z i) := by
  unfold sig2
  rw [mulf_apply, broadcastInDim_scalar_apply, constant_apply, sig1_apply]

/-- The exponentials of the sixteen residual heads, as a 4 × 4 matrix per row. -/
def expR (H : FVec Ideal S32768x16 .f32) : FVec Ideal S32768x4x4 .f32 :=
  Host.exp (shapeCast S32768x4x4 H shapeCasts_S32768x16_S32768x4x4)

theorem expR_apply (H : FVec Ideal S32768x16 .f32) (b : Fin 32768) (r j : Fin 4) :
    expR H (ix3 b r j) = Ideal.exp (H (ix2 b (Cert.Spec.f16 r j))) := by
  unfold expR
  rw [hostExp_apply, reshape16_apply]

/-- One row normalisation of every row's 4 × 4 matrix. -/
def hRow (Y : FVec Ideal S32768x4x4 .f32) : FVec Ideal S32768x4x4 .f32 :=
  Host.divf Y (broadcastInDim S32768x4x4 ![0, 1, 2] bcast_S32768x4x1_S32768x4x4_0_1_2 (addf (broadcastInDim S32768x4x1 ![0, 1] bcast_S32768x4_S32768x4x1_0_1 (Host.reduceAdd Y (constant (F := Ideal) S_ .f32 0x00000000#32) reducesTo_S32768x4x4_S32768x4_d2 h_S_)) (broadcastInDim S32768x4x1 ![] bcast_S_S32768x4x1 (constant (F := Ideal) S_ .f32 0x358637BD#32))))

/-- One column normalisation of every row's 4 × 4 matrix. -/
def hCol (Y : FVec Ideal S32768x4x4 .f32) : FVec Ideal S32768x4x4 .f32 :=
  Host.divf Y (broadcastInDim S32768x4x4 ![0, 1, 2] bcast_S32768x1x4_S32768x4x4_0_1_2 (addf (broadcastInDim S32768x1x4 ![0, 2] bcast_S32768x4_S32768x1x4_0_2 (Host.reduceAdd Y (constant (F := Ideal) S_ .f32 0x00000000#32) reducesTo_S32768x4x4_S32768x4_d1 h_S_)) (broadcastInDim S32768x1x4 ![] bcast_S_S32768x1x4 (constant (F := Ideal) S_ .f32 0x358637BD#32))))

/-- Row `b`'s 4 × 4 matrix. -/
def mat (Y : FVec Ideal S32768x4x4 .f32) (b : Fin 32768) : Fin 4 → Fin 4 → EReal := fun r j => Y (ix3 b r j)

theorem hRow_apply (Y : FVec Ideal S32768x4x4 .f32) (b : Fin 32768) (r j : Fin 4) :
    hRow Y (ix3 b r j) = Cert.Spec.rowN (mat Y b) r j := by
  unfold hRow
  rw [hostDivf_apply, bcast_rowspread_apply, addf_apply, bcast_rowsum_apply, sum_row_apply,
    broadcastInDim_scalar_apply, constant_apply]
  rfl

theorem hCol_apply (Y : FVec Ideal S32768x4x4 .f32) (b : Fin 32768) (r j : Fin 4) :
    hCol Y (ix3 b r j) = Cert.Spec.colN (mat Y b) r j := by
  unfold hCol
  rw [hostDivf_apply, bcast_colspread_apply, addf_apply, bcast_colsum_apply, sum_col_apply,
    broadcastInDim_scalar_apply, constant_apply]
  rfl

theorem mat_hRow (Y : FVec Ideal S32768x4x4 .f32) (b : Fin 32768) : mat (hRow Y) b = Cert.Spec.rowN (mat Y b) :=
  funext fun r => funext fun j => hRow_apply Y b r j

theorem mat_hCol (Y : FVec Ideal S32768x4x4 .f32) (b : Fin 32768) : mat (hCol Y) b = Cert.Spec.colN (mat Y b) :=
  funext fun r => funext fun j => hCol_apply Y b r j

/-! ## A head of the normalised input -/

/-- Four heads of the normalised input at `(b, i)`, every factor written out. -/
theorem head4_rms_apply (X : FVec Ideal S32768x4096 .f32) (NW : FVec Ideal S4096 .f32) (W : FVec Ideal S4x4096 .f32)
    (A : FVec Ideal S_ .f32) (B : FVec Ideal S4 .f32) (b : Fin 32768) (i : Fin 4) :
    head4 (rms X NW) W A B (ix2 b i)
      = A ix0 * (∑ k : Fin 4096, (X (ix2 b k) * Cert.Spec.inv (fun d' : Fin 4096 => X (ix2 b d')) * NW (ix1 k)) * W (ix2 i k))
        + B (ix1 i) := by
  rw [head4_apply]
  refine congrArg (fun s => A ix0 * s + B (ix1 i)) (Finset.sum_congr rfl fun k _ => ?_)
  rw [rms_apply]

/-- Sixteen heads of the normalised input at `(b, i)`, every factor written out. -/
theorem head16_rms_apply (X : FVec Ideal S32768x4096 .f32) (NW : FVec Ideal S4096 .f32) (W : FVec Ideal S16x4096 .f32)
    (A : FVec Ideal S_ .f32) (B : FVec Ideal S16 .f32) (b : Fin 32768) (i : Fin 16) :
    head16 (rms X NW) W A B (ix2 b i)
      = A ix0 * (∑ k : Fin 4096, (X (ix2 b k) * Cert.Spec.inv (fun d' : Fin 4096 => X (ix2 b d')) * NW (ix1 k)) * W (ix2 i k))
        + B (ix1 i) := by
  rw [head16_apply]
  refine congrArg (fun s => A ix0 * s + B (ix1 i)) (Finset.sum_congr rfl fun k _ => ?_)
  rw [rms_apply]

end Cert.ReferenceIdeal.RefValue

end
-- ==== Proof.RefValue.lean ====
import proofs.«113674_j80951543595212_2_alg».proof.Proof.Gen.ReferenceIdeal.Run
import proofs.«113674_j80951543595212_2_alg».proof.Proof.RefOps

noncomputable section

namespace Cert.ReferenceIdeal.RefValue

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo
open scoped BigOperators

/-!
  The reference program computes the specification.

  Its run leaves the three results at composed terms of the arguments. The first two are the logistic (and twice
  the logistic) of four heads `α · Σ_d (x · inv · w)(b, d) · W (i, d) + β` of the normalised input; the third is
  forty alternating row and column normalisations of the exponentials of sixteen such heads read as a 4 × 4
  matrix, which on each batch row is twenty rounds of the specification's row-then-column step.
-/

/-! ## The three results as functions of the argument arrays -/

/-- The first result is the logistic of the four pre heads, normalise-then-project. -/
theorem pre_spec (X : FVec Ideal S32768x4096 .f32) (NW : FVec Ideal S4096 .f32) (W : FVec Ideal S4x4096 .f32)
    (A : FVec Ideal S_ .f32) (B : FVec Ideal S4 .f32) :
    sig1 (head4 (rms X NW) W A B) = Cert.Spec.outPre X NW W B A Cert.Spec.headR := by
  funext i
  obtain ⟨b, k, rfl⟩ : ∃ (b : Fin 32768) (k : Fin 4), i = ix2 b k := ⟨i 0, i 1, eq_ix2 i⟩
  rw [sig1_apply, head4_rms_apply]
  rfl

/-- The second result is twice the logistic of the four post heads. -/
theorem post_spec (X : FVec Ideal S32768x4096 .f32) (NW : FVec Ideal S4096 .f32) (W : FVec Ideal S4x4096 .f32)
    (A : FVec Ideal S_ .f32) (B : FVec Ideal S4 .f32) :
    sig2 (head4 (rms X NW) W A B) = Cert.Spec.outPost X NW W B A Cert.Spec.headR := by
  funext i
  obtain ⟨b, k, rfl⟩ : ∃ (b : Fin 32768) (k : Fin 4), i = ix2 b k := ⟨i 0, i 1, eq_ix2 i⟩
  rw [sig2_apply, head4_rms_apply]
  rfl

/-- Row `b`'s matrix of exponentials of the sixteen residual heads is the specification's. -/
theorem mat_expR (X : FVec Ideal S32768x4096 .f32) (NW : FVec Ideal S4096 .f32) (W : FVec Ideal S16x4096 .f32)
    (A : FVec Ideal S_ .f32) (B : FVec Ideal S16 .f32) (b : Fin 32768) :
    mat (expR (head16 (rms X NW) W A B)) b
      = fun r j => Ideal.exp (Cert.Spec.resH X NW W B A Cert.Spec.headR b (Cert.Spec.f16 r j)) := by
  funext r j
  show expR (head16 (rms X NW) W A B) (ix3 b r j) = _
  rw [expR_apply, head16_rms_apply]
  rfl

/-- An array whose every row matrix is twenty rounds on the exponentials is the third result. -/
theorem res_spec (X : FVec Ideal S32768x4096 .f32) (NW : FVec Ideal S4096 .f32) (W : FVec Ideal S16x4096 .f32)
    (A : FVec Ideal S_ .f32) (B : FVec Ideal S16 .f32) (Y : FVec Ideal S32768x4x4 .f32)
    (hY : ∀ b, mat Y b = Cert.Spec.sink (mat (expR (head16 (rms X NW) W A B)) b)) :
    Y = Cert.Spec.outRes X NW W B A Cert.Spec.headR := by
  funext i
  obtain ⟨b, r, j, rfl⟩ : ∃ (b : Fin 32768) (r j : Fin 4), i = ix3 b r j := ⟨i 0, i 1, i 2, eq_ix3 i⟩
  have h := congrFun (congrFun (hY b) r) j
  rw [mat_expR] at h
  exact h

/-! ## The run's named terms are these functions -/

set_option maxRecDepth 8192 in
theorem v13_eq (V : Valuation τ sig (Elt Ideal)) :
    res_main_v13 V = rms (res_main_v0 V) (V (Proc.devRef .tc main_arg1)) := rfl

set_option maxRecDepth 8192 in
theorem v50_eq (V : Valuation τ sig (Elt Ideal)) :
    res_main_v50 V = expR (head16 (res_main_v13 V) (V (Proc.devRef .tc main_arg4)) (V (Proc.devRef .tc main_arg10))
      (V (Proc.devRef .tc main_arg7))) := rfl

/-- One round on arrays is one round on each row's matrix. -/
theorem round_mat (Y : FVec Ideal S32768x4x4 .f32) (b : Fin 32768) :
    mat (hCol (hRow Y)) b = Cert.Spec.colN (Cert.Spec.rowN (mat Y b)) := by
  rw [mat_hCol, mat_hRow]

theorem round_v62 (V : Valuation τ sig (Elt Ideal)) : res_main_v62 V = hCol (hRow (res_main_v50 V)) := rfl
theorem round_v74 (V : Valuation τ sig (Elt Ideal)) : res_main_v74 V = hCol (hRow (res_main_v62 V)) := rfl
theorem round_v86 (V : Valuation τ sig (Elt Ideal)) : res_main_v86 V = hCol (hRow (res_main_v74 V)) := rfl
theorem round_v98 (V : Valuation τ sig (Elt Ideal)) : res_main_v98 V = hCol (hRow (res_main_v86 V)) := rfl
theorem round_v110 (V : Valuation τ sig (Elt Ideal)) : res_main_v110 V = hCol (hRow (res_main_v98 V)) := rfl
theorem round_v122 (V : Valuation τ sig (Elt Ideal)) : res_main_v122 V = hCol (hRow (res_main_v110 V)) := rfl
theorem round_v134 (V : Valuation τ sig (Elt Ideal)) : res_main_v134 V = hCol (hRow (res_main_v122 V)) := rfl
theorem round_v146 (V : Valuation τ sig (Elt Ideal)) : res_main_v146 V = hCol (hRow (res_main_v134 V)) := rfl
theorem round_v158 (V : Valuation τ sig (Elt Ideal)) : res_main_v158 V = hCol (hRow (res_main_v146 V)) := rfl
theorem round_v170 (V : Valuation τ sig (Elt Ideal)) : res_main_v170 V = hCol (hRow (res_main_v158 V)) := rfl
theorem round_v182 (V : Valuation τ sig (Elt Ideal)) : res_main_v182 V = hCol (hRow (res_main_v170 V)) := rfl
theorem round_v194 (V : Valuation τ sig (Elt Ideal)) : res_main_v194 V = hCol (hRow (res_main_v182 V)) := rfl
theorem round_v206 (V : Valuation τ sig (Elt Ideal)) : res_main_v206 V = hCol (hRow (res_main_v194 V)) := rfl
theorem round_v218 (V : Valuation τ sig (Elt Ideal)) : res_main_v218 V = hCol (hRow (res_main_v206 V)) := rfl
theorem round_v230 (V : Valuation τ sig (Elt Ideal)) : res_main_v230 V = hCol (hRow (res_main_v218 V)) := rfl
theorem round_v242 (V : Valuation τ sig (Elt Ideal)) : res_main_v242 V = hCol (hRow (res_main_v230 V)) := rfl
theorem round_v254 (V : Valuation τ sig (Elt Ideal)) : res_main_v254 V = hCol (hRow (res_main_v242 V)) := rfl
theorem round_v266 (V : Valuation τ sig (Elt Ideal)) : res_main_v266 V = hCol (hRow (res_main_v254 V)) := rfl
theorem round_v278 (V : Valuation τ sig (Elt Ideal)) : res_main_v278 V = hCol (hRow (res_main_v266 V)) := rfl

/-- The last column normalisation closes the twentieth round. -/
theorem chain (V : Valuation τ sig (Elt Ideal)) (b : Fin 32768) :
    mat (hCol (hRow (res_main_v278 V))) b = Cert.Spec.sink (mat (res_main_v50 V) b) := by
  rw [round_mat, round_v278, round_mat, round_v266, round_mat, round_v254, round_mat, round_v242, round_mat, round_v230, round_mat, round_v218, round_mat, round_v206, round_mat, round_v194, round_mat, round_v182, round_mat, round_v170, round_mat, round_v158, round_mat, round_v146, round_mat, round_v134, round_mat, round_v122, round_mat, round_v110, round_mat, round_v98, round_mat, round_v86, round_mat, round_v74, round_mat, round_v62, round_mat]
  rfl

/-! ## The run -/

/-- The input flattened to [32768, 4096]. -/
abbrev X (m : (ℓ : Loc nD τ sig) → Buf (Elt Ideal) ℓ) (c : Dev nD) : FVec Ideal S32768x4096 .f32 :=
  shapeCast S32768x4096 (m ((c.tc : Thread nD τ).loc main_arg0)) shapeCasts_S32768x4x1024_S32768x4096

/-- The third result's term is the specification's residual output. -/
theorem res_term (V : Valuation τ sig (Elt Ideal)) :
    hCol (hRow (res_main_v278 V))
      = Cert.Spec.outRes (res_main_v0 V) (V (Proc.devRef .tc main_arg1)) (V (Proc.devRef .tc main_arg4))
          (V (Proc.devRef .tc main_arg7)) (V (Proc.devRef .tc main_arg10)) Cert.Spec.headR :=
  res_spec _ _ _ _ _ _ fun b => by rw [chain, v50_eq, v13_eq]

set_option maxRecDepth 8192 in
/-- On every device every weakly fair execution of the reference terminates with the three results the
    specification's functions of the arguments, normalise-then-project, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40) = Cert.Spec.outPre (X m c) (m ((c.tc : Thread nD τ).loc main_arg1)) (m ((c.tc : Thread nD τ).loc main_arg2)) (m ((c.tc : Thread nD τ).loc main_arg5)) (m ((c.tc : Thread nD τ).loc main_arg8)) Cert.Spec.headR
      ∧ r.2.mem ((c.tc : Thread nD τ).loc main_v48) = Cert.Spec.outPost (X m c) (m ((c.tc : Thread nD τ).loc main_arg1)) (m ((c.tc : Thread nD τ).loc main_arg3)) (m ((c.tc : Thread nD τ).loc main_arg6)) (m ((c.tc : Thread nD τ).loc main_arg9)) Cert.Spec.headR
      ∧ r.2.mem ((c.tc : Thread nD τ).loc main_v290) = Cert.Spec.outRes (X m c) (m ((c.tc : Thread nD τ).loc main_arg1)) (m ((c.tc : Thread nD τ).loc main_arg4)) (m ((c.tc : Thread nD τ).loc main_arg7)) (m ((c.tc : Thread nD τ).loc main_arg10)) Cert.Spec.headR
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨(h c).1.trans ((congrArg (fun y => sig1 (head4 y _ _ _)) (v13_eq (launchContents m c))).trans (pre_spec _ _ _ _ _)),
     (h c).2.1.trans ((congrArg (fun y => sig2 (head4 y _ _ _)) (v13_eq (launchContents m c))).trans (post_spec _ _ _ _ _)),
     (h c).2.2.1.trans (res_term (launchContents m c)),
     (h c).2.2.2⟩)
    (Cert.ReferenceIdeal.Value.run (F := Ideal) m ρ)

end Cert.ReferenceIdeal.RefValue

end
-- ==== Proof.LibFiniteReal.lean ====
/-
  Finite entries are real numbers — the part that does not depend on any one program.

  On the extended reals the absolute value `max x (-x)` is below `+∞` exactly when `x` is the image of a real number: at
  `⊤` it is `⊤`, and at `⊥` it is `-⊥ = ⊤` (which is also how an undefined value reads). The word `0x7F800000` denotes
  `+∞`. So where the comparison bit "`|X i| < +∞`" of a printed finiteness predicate is one, `X i` is real
  (`real_of_lt_inf`, over any shape), and where the `and` of those bits over every index of an array is one — the
  predicate's `jnp.all` — every entry of the array is real (`real_of_all`; `real_of_all_scalar` for rank zero).
-/
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

namespace Cert.Finite

open Idealize.ShloMosaic Idealize.SL.Sem

/-- The shape of rank zero has exactly one index. -/
instance subsingleton_scalar_idx : Subsingleton (⟨0, ![]⟩ : Shape).Idx :=
  ⟨fun a b => funext fun d => d.elim0⟩

/-- The word `0x7F800000` (sign 0, exponent all ones, fraction 0) denotes `+∞`. -/
theorem inf_word : Ideal.ofBits .f32 0x7F800000#32 = (⊤ : EReal) := by
  simp [Ideal.ofBits, Ideal.ieee]

/-- A one-bit word made from a Boolean is one only when the Boolean is true. -/
theorem eq_true_of_ofBool {b : Bool} (h : BitVec.ofBool b = 1#1) : b = true := by
  cases b
  · exact absurd h (by decide)
  · rfl

/-- An extended real whose absolute value `max x (-x)` is below `⊤` is a real number:
    at `x = ⊤` the maximum is `⊤`, and at `x = ⊥` it is `-⊥ = ⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison bit "`|x| < +∞`" being one makes `x` a real number. -/
theorem real_of_cmp (x : EReal)
    (h : Ideal.cmp .olt (max x (-x)) (Ideal.ofBits .f32 0x7F800000#32) = 1#1) :
    ∃ r : ℝ, x = (r : EReal) := by
  rw [inf_word] at h
  have hb : BitVec.ofBool (decide (max x (-x) < ⊤)) = 1#1 := h
  exact real_of_abs_lt_top x (of_decide_eq_true (eq_true_of_ofBool hb))

/-- Elementwise, over any shape: where the bit "`|X i| < +∞`" (the bound a splat of the `+∞` word) is one,
    `X i` is a real number. -/
theorem real_of_lt_inf {s : Shape}
    (hb : Shape.BroadcastsInDim (⟨0, ![]⟩ : Shape) s (![] : Fin 0 → Fin s.rank))
    (X : FVec Ideal s .f32) (i : s.Idx)
    (h : cmpf .olt (Host.absf X)
          (broadcastInDim s ![] hb (constant (F := Ideal) (⟨0, ![]⟩ : Shape) .f32 0x7F800000#32)) i = 1#1) :
    ∃ r : ℝ, X i = (r : EReal) :=
  real_of_cmp (X i) h

/-- The same for an array of rank zero, whose bound is the `+∞` constant itself. -/
theorem real_of_lt_inf_scalar (X : FVec Ideal (⟨0, ![]⟩ : Shape) .f32) (i : (⟨0, ![]⟩ : Shape).Idx)
    (h : cmpf .olt (Host.absf X) (constant (F := Ideal) (⟨0, ![]⟩ : Shape) .f32 0x7F800000#32) i = 1#1) :
    ∃ r : ℝ, X i = (r : EReal) :=
  real_of_cmp (X i) h

/-- "All entries are finite", over any shape: if the `and` over every index of the bits "`|X i| < +∞`" is one,
    every entry of `X` is a real number. -/
theorem real_of_all {s : Shape} {axes : List (Fin s.rank)}
    (hb : Shape.BroadcastsInDim (⟨0, ![]⟩ : Shape) s (![] : Fin 0 → Fin s.rank))
    (hr : s.ReducesTo axes (⟨0, ![]⟩ : Shape)) (hu : 0 < (⟨0, ![]⟩ : Shape).numel)
    (X : FVec Ideal s .f32)
    (h : Host.reduce IntOp.andi
          (cmpf .olt (Host.absf X)
            (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, X i = (r : EReal) :=
  real_of_lt_inf hb X i (Host.reduce_andi_all _ _ hr hu ValueIdx.ix0 h i)

/-- The same for an array of rank zero (the `and` runs over its one entry). -/
theorem real_of_all_scalar
    (hr : (⟨0, ![]⟩ : Shape).ReducesTo [] (⟨0, ![]⟩ : Shape)) (hu : 0 < (⟨0, ![]⟩ : Shape).numel)
    (X : FVec Ideal (⟨0, ![]⟩ : Shape) .f32)
    (h : Host.reduce IntOp.andi
          (cmpf .olt (Host.absf X) (constant (F := Ideal) (⟨0, ![]⟩ : Shape) .f32 0x7F800000#32))
          (constantI (⟨0, ![]⟩ : Shape) 1 1#1) hr hu ValueIdx.ix0 = 1#1)
    (i : (⟨0, ![]⟩ : Shape).Idx) : ∃ r : ℝ, X i = (r : EReal) :=
  real_of_lt_inf_scalar X i (Host.reduce_andi_all _ _ hr hu ValueIdx.ix0 h i)

/-- The `and` of two one-bit scalars is one only when both are. -/
theorem and_split {A B : IVec (⟨0, ![]⟩ : Shape) 1} (h : andi A B ValueIdx.ix0 = 1#1) :
    A ValueIdx.ix0 = 1#1 ∧ B ValueIdx.ix0 = 1#1 :=
  IntOp.andi_eq_one.1 h

end Cert.Finite
-- ==== Proof.Finite.lean ====
import proofs.«113674_j80951543595212_2_alg».proof.Defs
import proofs.«113674_j80951543595212_2_alg».proof.Proof.Gen.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws
import proofs.«113674_j80951543595212_2_alg».proof.Proof.LibFiniteReal

/-!
# Finite inputs are real numbers

The precondition is a conjunction of eleven statements, one per argument array `x`: at every index `i`
the absolute value `max (x i) (-(x i))` is strictly below `+∞`. On the extended reals the two values excluded
by that inequality are `⊤` (where the maximum is `⊤`) and `⊥` (where `-⊥ = ⊤` makes the maximum `⊤` as
well; `⊥` is also what an undefined value reads as). Every other extended real is the image of a real number,
so each entry of each argument is `(r : EReal)` for some real `r`.

The conjunction is a single bit: the `and` of eleven bits, each of which is the `and`, over all indices of one
array, of the bit "`|x i| < +∞`" — so the total bit is one exactly when every comparison bit is one.
-/

namespace Cert.Finite

open Idealize.ShloMosaic Idealize.SL.Sem

/-- The predicate, read back over eleven arbitrary arrays of the arguments' shapes: if it is one, every entry of
    every array is a real number. -/
theorem real_of_fn [Cert.Pre_finite_inputs.Facts]
    (a0 : FVec Ideal Cert.Pre_finite_inputs.S32768x4x1024 .f32)
    (a1 : FVec Ideal Cert.Pre_finite_inputs.S4096 .f32)
    (a2 : FVec Ideal Cert.Pre_finite_inputs.S4x4096 .f32)
    (a3 : FVec Ideal Cert.Pre_finite_inputs.S4x4096 .f32)
    (a4 : FVec Ideal Cert.Pre_finite_inputs.S16x4096 .f32)
    (a5 : FVec Ideal Cert.Pre_finite_inputs.S4 .f32)
    (a6 : FVec Ideal Cert.Pre_finite_inputs.S4 .f32)
    (a7 : FVec Ideal Cert.Pre_finite_inputs.S16 .f32)
    (a8 : FVec Ideal Cert.Pre_finite_inputs.S_ .f32)
    (a9 : FVec Ideal Cert.Pre_finite_inputs.S_ .f32)
    (a10 : FVec Ideal Cert.Pre_finite_inputs.S_ .f32)
    (h : Cert.Pre_finite_inputs.fn (F := Ideal) a0 a1 a2 a3 a4 a5 a6 a7 a8 a9 a10 = fun _ => 1#1) :
    (∀ i : Cert.Pre_finite_inputs.S32768x4x1024.Idx, ∃ r : ℝ, a0 i = (r : EReal))
    ∧ (∀ i : Cert.Pre_finite_inputs.S4096.Idx, ∃ r : ℝ, a1 i = (r : EReal))
    ∧ (∀ i : Cert.Pre_finite_inputs.S4x4096.Idx, ∃ r : ℝ, a2 i = (r : EReal))
    ∧ (∀ i : Cert.Pre_finite_inputs.S4x4096.Idx, ∃ r : ℝ, a3 i = (r : EReal))
    ∧ (∀ i : Cert.Pre_finite_inputs.S16x4096.Idx, ∃ r : ℝ, a4 i = (r : EReal))
    ∧ (∀ i : Cert.Pre_finite_inputs.S4.Idx, ∃ r : ℝ, a5 i = (r : EReal))
    ∧ (∀ i : Cert.Pre_finite_inputs.S4.Idx, ∃ r : ℝ, a6 i = (r : EReal))
    ∧ (∀ i : Cert.Pre_finite_inputs.S16.Idx, ∃ r : ℝ, a7 i = (r : EReal))
    ∧ (∀ i : Cert.Pre_finite_inputs.S_.Idx, ∃ r : ℝ, a8 i = (r : EReal))
    ∧ (∀ i : Cert.Pre_finite_inputs.S_.Idx, ∃ r : ℝ, a9 i = (r : EReal))
    ∧ (∀ i : Cert.Pre_finite_inputs.S_.Idx, ∃ r : ℝ, a10 i = (r : EReal)) := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, e10⟩ := and_split h0
  obtain ⟨h0, e9⟩ := and_split h0
  obtain ⟨h0, e8⟩ := and_split h0
  obtain ⟨h0, e7⟩ := and_split h0
  obtain ⟨h0, e6⟩ := and_split h0
  obtain ⟨h0, e5⟩ := and_split h0
  obtain ⟨h0, e4⟩ := and_split h0
  obtain ⟨h0, e3⟩ := and_split h0
  obtain ⟨h0, e2⟩ := and_split h0
  obtain ⟨e0, e1⟩ := and_split h0
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7,
    real_of_all_scalar _ _ a8 e8, real_of_all_scalar _ _ a9 e9, real_of_all_scalar _ _ a10 e10⟩

/-- Under the kernel's precondition every entry of every argument array, on every device, is a real number. -/
theorem real_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S32768x4x1024.Idx, ∃ r : ℝ, (m ((c.tc : Thread Cert.KernelIdeal.nD Cert.KernelIdeal.τ).loc Cert.KernelIdeal.main_arg0) : Cert.KernelIdeal.S32768x4x1024.Idx → EReal) i = (r : EReal))
    ∧ (∀ i : Cert.KernelIdeal.S4096.Idx, ∃ r : ℝ, (m ((c.tc : Thread Cert.KernelIdeal.nD Cert.KernelIdeal.τ).loc Cert.KernelIdeal.main_arg1) : Cert.KernelIdeal.S4096.Idx → EReal) i = (r : EReal))
    ∧ (∀ i : Cert.KernelIdeal.S4x4096.Idx, ∃ r : ℝ, (m ((c.tc : Thread Cert.KernelIdeal.nD Cert.KernelIdeal.τ).loc Cert.KernelIdeal.main_arg2) : Cert.KernelIdeal.S4x4096.Idx → EReal) i = (r : EReal))
    ∧ (∀ i : Cert.KernelIdeal.S4x4096.Idx, ∃ r : ℝ, (m ((c.tc : Thread Cert.KernelIdeal.nD Cert.KernelIdeal.τ).loc Cert.KernelIdeal.main_arg3) : Cert.KernelIdeal.S4x4096.Idx → EReal) i = (r : EReal))
    ∧ (∀ i : Cert.KernelIdeal.S16x4096.Idx, ∃ r : ℝ, (m ((c.tc : Thread Cert.KernelIdeal.nD Cert.KernelIdeal.τ).loc Cert.KernelIdeal.main_arg4) : Cert.KernelIdeal.S16x4096.Idx → EReal) i = (r : EReal))
    ∧ (∀ i : Cert.KernelIdeal.S4.Idx, ∃ r : ℝ, (m ((c.tc : Thread Cert.KernelIdeal.nD Cert.KernelIdeal.τ).loc Cert.KernelIdeal.main_arg5) : Cert.KernelIdeal.S4.Idx → EReal) i = (r : EReal))
    ∧ (∀ i : Cert.KernelIdeal.S4.Idx, ∃ r : ℝ, (m ((c.tc : Thread Cert.KernelIdeal.nD Cert.KernelIdeal.τ).loc Cert.KernelIdeal.main_arg6) : Cert.KernelIdeal.S4.Idx → EReal) i = (r : EReal))
    ∧ (∀ i : Cert.KernelIdeal.S16.Idx, ∃ r : ℝ, (m ((c.tc : Thread Cert.KernelIdeal.nD Cert.KernelIdeal.τ).loc Cert.KernelIdeal.main_arg7) : Cert.KernelIdeal.S16.Idx → EReal) i = (r : EReal))
    ∧ (∀ i : Cert.KernelIdeal.S_.Idx, ∃ r : ℝ, (m ((c.tc : Thread Cert.KernelIdeal.nD Cert.KernelIdeal.τ).loc Cert.KernelIdeal.main_arg8) : Cert.KernelIdeal.S_.Idx → EReal) i = (r : EReal))
    ∧ (∀ i : Cert.KernelIdeal.S_.Idx, ∃ r : ℝ, (m ((c.tc : Thread Cert.KernelIdeal.nD Cert.KernelIdeal.τ).loc Cert.KernelIdeal.main_arg9) : Cert.KernelIdeal.S_.Idx → EReal) i = (r : EReal))
    ∧ (∀ i : Cert.KernelIdeal.S_.Idx, ∃ r : ℝ, (m ((c.tc : Thread Cert.KernelIdeal.nD Cert.KernelIdeal.τ).loc Cert.KernelIdeal.main_arg10) : Cert.KernelIdeal.S_.Idx → EReal) i = (r : EReal)) :=
  real_of_fn _ _ _ _ _ _ _ _ _ _ _ (h c)

end Cert.Finite
-- ==== Proof.Bridge.lean ====
/-
  The two orders of operations give the same three results when every input is a real number: the head entries agree
  one by one (`Cert.Spec.headK_eq_headR`), and each result is a function of the head entries alone.
-/
import proofs.«113674_j80951543595212_2_alg».proof.Proof.Spec

noncomputable section

namespace Cert.Spec

open Idealize.ShloMosaic Idealize.ShloMosaic.ValueIdx

/-- Head entries over real inputs, in either order. -/
theorem head_eq {ι : Type} [Fintype ι] (xr nw wr : ι → EReal) (α β : EReal)
    (hx : ∀ d, ∃ r : ℝ, xr d = (r : EReal)) (hn : ∀ d, ∃ r : ℝ, nw d = (r : EReal)) (hw : ∀ d, ∃ r : ℝ, wr d = (r : EReal))
    (ha : ∃ r : ℝ, α = (r : EReal)) : headK xr nw wr α β = headR xr nw wr α β := by
  choose x hx' using hx
  choose n hn' using hn
  choose w hw' using hw
  obtain ⟨a, rfl⟩ := ha
  rw [show xr = fun d => (x d : EReal) from funext hx', show nw = fun d => (n d : EReal) from funext hn',
    show wr = fun d => (w d : EReal) from funext hw']
  exact headK_eq_headR x n w a β

section Results

variable (X : (⟨2, ![32768, 4096]⟩ : Shape).Idx → EReal) (NW : (⟨1, ![4096]⟩ : Shape).Idx → EReal)
  (Wp : (⟨2, ![4, 4096]⟩ : Shape).Idx → EReal) (Wr : (⟨2, ![16, 4096]⟩ : Shape).Idx → EReal)
  (Bp : (⟨1, ![4]⟩ : Shape).Idx → EReal) (Br : (⟨1, ![16]⟩ : Shape).Idx → EReal)
  (Ap : (⟨0, ![]⟩ : Shape).Idx → EReal)
  (hX : ∀ i, ∃ r : ℝ, X i = (r : EReal)) (hNW : ∀ i, ∃ r : ℝ, NW i = (r : EReal))
  (hA : ∀ i, ∃ r : ℝ, Ap i = (r : EReal))
include hX hNW hA

theorem outPre_eq (hW : ∀ i, ∃ r : ℝ, Wp i = (r : EReal)) :
    outPre X NW Wp Bp Ap headK = outPre X NW Wp Bp Ap headR := by
  funext i
  unfold outPre preH
  exact congrArg Ideal.logistic (head_eq _ _ _ _ _ (fun d => hX _) (fun d => hNW _) (fun d => hW _) (hA _))

theorem outPost_eq (hW : ∀ i, ∃ r : ℝ, Wp i = (r : EReal)) :
    outPost X NW Wp Bp Ap headK = outPost X NW Wp Bp Ap headR := by
  funext i
  unfold outPost postH
  exact congrArg (fun z => c2 * Ideal.logistic z) (head_eq _ _ _ _ _ (fun d => hX _) (fun d => hNW _) (fun d => hW _) (hA _))

theorem outRes_eq (hW : ∀ i, ∃ r : ℝ, Wr i = (r : EReal)) :
    outRes X NW Wr Br Ap headK = outRes X NW Wr Br Ap headR := by
  funext i
  unfold outRes resH
  have h : ∀ r j : Fin 4, headK (xrow X (i 0)) (nwf NW) (fun d => Wr (ix2 (f16 r j) d)) (Ap ix0) (Br (ix1 (f16 r j)))
      = headR (xrow X (i 0)) (nwf NW) (fun d => Wr (ix2 (f16 r j) d)) (Ap ix0) (Br (ix1 (f16 r j))) := fun r j =>
    head_eq _ _ _ _ _ (fun d => hX _) (fun d => hNW _) (fun d => hW _) (hA _)
  simp only [h]

end Results

end Cert.Spec

end
-- ==== Proof.lean ====
/-
  The certificate of the fused head kernel against its reference.

  Both programs compute, for each of 32768 batch rows, 24 head entries of the root-mean-square-normalised row — the
  reference normalises the row and then projects it on each weight row, the kernel projects the raw row on the
  norm-weighted weights and rescales the 24 results by the row's inverse root-mean-square —, then the logistic of
  entries 0–3, twice the logistic of entries 4–7, and twenty Sinkhorn rounds (rows, then columns, each divisor a sum
  plus ε₂) of the exponentials of entries 8–23 read as a 4 × 4 matrix. The kernel does this on blocks of 512 rows
  with the batch along the lanes; the reference on whole arrays. The two orders of the head entry agree because the
  inputs are finite: the row's scalar moves across a finite sum of reals (Proof/Spec.lean, Proof/Bridge.lean). What
  the kernel's arrays hold is read off its frame run (Proof/KIFrame.lean, Proof/KArray.lean, Proof/KValue.lean), what
  the reference computes off its run (Proof/RefValue.lean), and the precondition gives the finiteness
  (Proof/Finite.lean). The idealization rewrote nothing, so `preserves` is trivial.
-/
import proofs.«113674_j80951543595212_2_alg».proof.Defs
import proofs.«113674_j80951543595212_2_alg».proof.Proof.Gen.Kernel
import proofs.«113674_j80951543595212_2_alg».proof.Proof.Gen.KernelIdeal
import proofs.«113674_j80951543595212_2_alg».proof.Proof.Gen.ReferenceIdeal
import proofs.«113674_j80951543595212_2_alg».proof.Proof.Gen.Pre_finite_inputs
import proofs.«113674_j80951543595212_2_alg».proof.Proof.Gen.ReferenceIdeal.Run
import proofs.«113674_j80951543595212_2_alg».proof.Proof.KFrame
import proofs.«113674_j80951543595212_2_alg».proof.Proof.KValue
import proofs.«113674_j80951543595212_2_alg».proof.Proof.RefValue
import proofs.«113674_j80951543595212_2_alg».proof.Proof.Finite
import proofs.«113674_j80951543595212_2_alg».proof.Proof.Bridge

noncomputable section

namespace Cert.Proof

open Idealize.ShloMosaic Idealize.SL.Sem

/-- The kernel as printed runs to the end and leaves its arguments alone. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- A reshape of an array of reals is an array of reals. -/
theorem real_shapeCast {s t : Shape} (x : s.Idx → EReal) (h : s.ShapeCasts t) (hx : ∀ i, ∃ r : ℝ, x i = (r : EReal)) :
    ∀ j, ∃ r : ℝ, shapeCast t x h j = (r : EReal) := fun j => by
  unfold shapeCast
  exact hx _

/-- At the ideal values, from memories agreeing on the arguments, the kernel's three results (the specification's
    functions, kernel order) are the reference's (reference order): the inputs are real, so the orders agree. -/
theorem algebraic : Cert.algebraic_KernelIdeal_ReferenceIdeal := by
  intro m ρ m' ρ' hpre hagree
  refine ⟨_, _, _, Cert.KernelIdeal.Hand.run_value m ρ, ?_⟩
  refine (θ_run Cert.ReferenceIdeal.defs _ _).mono (fun _ h c => ?_) (Cert.ReferenceIdeal.RefValue.run_spec m' ρ')
  obtain ⟨h40, h48, h290, hargs⟩ := h c
  obtain ⟨a0, a1, a2, a3, a4, a5, a6, a7, a8, a9, a10⟩ := hagree c
  obtain ⟨r0, r1, r2, r3, r4, r5, r6, r7, r8, r9, r10⟩ := Cert.Finite.real_of_pre m hpre c
  have rX := real_shapeCast _ Cert.KernelIdeal.Gen.shapeCasts_S32768x4x1024_S32768x4096 r0
  have eX : Cert.ReferenceIdeal.RefValue.X m' c
      = Cert.KernelIdeal.Hand.flatX (Cert.KernelIdeal.Hand.launchOf m c) := by
    show shapeCast _ (m' _) _ = _
    rw [a0]
  refine ⟨h40.trans ?_, h48.trans ?_, h290.trans ?_, hargs⟩
  · rw [eX, a1, a2, a5, a8]
    exact (Cert.Spec.outPre_eq _ _ _ _ _ rX r1 r8 r2).symm
  · rw [eX, a1, a3, a6, a9]
    exact (Cert.Spec.outPost_eq _ _ _ _ _ rX r1 r9 r3).symm
  · rw [eX, a1, a4, a7, a10]
    exact (Cert.Spec.outRes_eq _ _ _ _ _ rX r1 r10 r4).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
